-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v326) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3x2 : Shape := ⟨3, ![1000000, 3, 2]⟩
abbrev S1000000 : Shape := ⟨1, ![1000000]⟩
abbrev S6x64 : Shape := ⟨2, ![6, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S1000000x3x2 : S_.BroadcastsInDim S1000000x3x2 (![] : Fin 0 → Fin S1000000x3x2.rank)
  reducesTo_S1000000x3x2_S_d0_1_2 : S1000000x3x2.ReducesTo [0, 1, 2] S_
  h_S_ : 0 < S_.numel
  bcast_S_S1000000 : S_.BroadcastsInDim S1000000 (![] : Fin 0 → Fin S1000000.rank)
  reducesTo_S1000000_S_d0 : S1000000.ReducesTo [0] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S64x1 .f32) (main_arg10 : FVec F S1 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S1000000 .f32) (main_arg5 : FVec F S6x64 .f32) (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S1000000 1) : IVec S_ 1 :=
  let main_c_5 : IVec S_ 1 := constantI S_ 1 1#1
  let main_v17 : IVec S_ 1 := (fun x v => Host.reduce IntOp.andi x v reducesTo_S1000000_S_d0 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  let main_v24 : FVec F S6x64 .f32 := Host.absf main_arg5
  let main_cst_8 : FVec F S_ .f32 := constant S_ .f32 0x7F800000#32
  let main_v25 : FVec F S6x64 .f32 := broadcastInDim S6x64 ![] bcast_S_S6x64 main_cst_8
  let main_v26 : IVec S6x64 1 := cmpf .olt main_v24 main_v25
  let main_c_9 : IVec S_ 1 := constantI S_ 1 1#1
  let main_v27 : IVec S_ 1 := (fun x v => Host.reduce IntOp.andi x v reducesTo_S6x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1000000x3x2 .f32) (main_arg1 : FVec F S1000000x3x2 .f32) (main_arg2 : FVec F S1000000x3x2 .f32) (main_arg3 : FVec F S1000000 .f32) (main_arg4 : FVec F S1000000 .f32) (main_arg5 : FVec F S6x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S1000000x3x2 .f32 := Host.absf main_arg0
  let main_cst : FVec F S_ .f32 := constant S_ .f32 0x7F800000#32
  let main_v1 : FVec F S1000000x3x2 .f32 := broadcastInDim S1000000x3x2 ![] bcast_S_S1000000x3x2 main_cst
  let main_v2 : IVec S1000000x3x2 1 := cmpf .olt main_v0 main_v1
  let main_c : IVec S_ 1 := constantI S_ 1 1#1
  let main_v3 : IVec S_ 1 := (fun x v => Host.reduce IntOp.andi x v reducesTo_S1000000x3x2_S_d0_1_2 h_S_) main_v2 main_c
  let main_v4 : FVec F S1000000x3x2 .f32 := Host.absf main_arg1
  let main_cst_0 : FVec F S_ .f32 := constant S_ .f32 0x7F800000#32
  let main_v5 : FVec F S1000000x3x2 .f32 := broadcastInDim S1000000x3x2 ![] bcast_S_S1000000x3x2 main_cst_0
  let main_v6 : IVec S1000000x3x2 1 := cmpf .olt main_v4 main_v5
  let main_c_1 : IVec S_ 1 := constantI S_ 1 1#1
  let main_v7 : IVec S_ 1 := (fun x v => Host.reduce IntOp.andi x v reducesTo_S1000000x3x2_S_d0_1_2 h_S_) main_v6 main_c_1
  let main_v8 : IVec S_ 1 := andi main_v3 main_v7
  let main_v9 : FVec F S1000000x3x2 .f32 := Host.absf main_arg2
  let main_cst_2 : FVec F S_ .f32 := constant S_ .f32 0x7F800000#32
  let main_v10 : FVec F S1000000x3x2 .f32 := broadcastInDim S1000000x3x2 ![] bcast_S_S1000000x3x2 main_cst_2
  let main_v11 : IVec S1000000x3x2 1 := cmpf .olt main_v9 main_v10
  let main_c_3 : IVec S_ 1 := constantI S_ 1 1#1
  let main_v12 : IVec S_ 1 := (fun x v => Host.reduce IntOp.andi x v reducesTo_S1000000x3x2_S_d0_1_2 h_S_) main_v11 main_c_3
  let main_v13 : IVec S_ 1 := andi main_v8 main_v12
  let main_v14 : FVec F S1000000 .f32 := Host.absf main_arg3
  let main_cst_4 : FVec F S_ .f32 := constant S_ .f32 0x7F800000#32
  let main_v15 : FVec F S1000000 .f32 := broadcastInDim S1000000 ![] bcast_S_S1000000 main_cst_4
  let main_v16 : IVec S1000000 1 := cmpf .olt main_v14 main_v15
  fn_part1 (F := F) main_arg4 main_arg5 main_arg6 main_arg7 main_arg8 main_arg9 main_arg10 main_v13 main_v16
-- ==== Kernel.lean ====
abbrev S1000000x3x2 : Shape := ⟨3, ![1000000, 3, 2]⟩
abbrev S1000000 : Shape := ⟨1, ![1000000]⟩
abbrev S6x64 : Shape := ⟨2, ![6, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1000000x6 : Shape := ⟨2, ![1000000, 6]⟩
abbrev S1x64 : Shape := ⟨2, ![1, 64]⟩
abbrev S1x1 : Shape := ⟨2, ![1, 1]⟩
abbrev S1000000x3 : Shape := ⟨2, ![1000000, 3]⟩
abbrev S1000x6 : Shape := ⟨2, ![1000, 6]⟩
abbrev S1000x3 : Shape := ⟨2, ![1000, 3]⟩
abbrev S1000x1 : Shape := ⟨2, ![1000, 1]⟩
abbrev S1000x4 : Shape := ⟨2, ![1000, 4]⟩
abbrev S1000x2 : Shape := ⟨2, ![1000, 2]⟩
abbrev S1000x64 : Shape := ⟨2, ![1000, 64]⟩

abbrev nBuf : Space → Nat
  | .hbm => 17
  | .vmem => 12
  | .smem => 0
  | _ => 0

abbrev bufTy : (tb : Table) → Fin (tcTables nBuf tb) → BufTy
  | .hbm, ⟨0, _⟩ => ⟨S1000000x3x2, .f32⟩
  | .hbm, ⟨1, _⟩ => ⟨S1000000x3x2, .f32⟩
  | .hbm, ⟨2, _⟩ => ⟨S1000000x3x2, .f32⟩
  | .hbm, ⟨3, _⟩ => ⟨S1000000, .f32⟩
  | .hbm, ⟨4, _⟩ => ⟨S1000000, .f32⟩
  | .hbm, ⟨5, _⟩ => ⟨S6x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S1, .f32⟩
  | .hbm, ⟨11, _⟩ => ⟨S1000000x6, .f32⟩
  | .hbm, ⟨12, _⟩ => ⟨S1000000x6, .f32⟩
  | .hbm, ⟨13, _⟩ => ⟨S1x64, .f32⟩
  | .hbm, ⟨14, _⟩ => ⟨S1x64, .f32⟩
  | .hbm, ⟨15, _⟩ => ⟨S1x1, .f32⟩
  | .hbm, ⟨16, _⟩ => ⟨S1000000x3, .f32⟩
  | .local _ .vmem, ⟨0, _⟩ => ⟨S1000x6, .f32⟩
  | .local _ .vmem, ⟨1, _⟩ => ⟨S1000x6, .f32⟩
  | .local _ .vmem, ⟨2, _⟩ => ⟨S1000x6, .f32⟩
  | .local _ .vmem, ⟨3, _⟩ => ⟨S1000x6, .f32⟩
  | .local _ .vmem, ⟨4, _⟩ => ⟨S6x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x1, .f32⟩
  | .local _ .vmem, ⟨9, _⟩ => ⟨S1x1, .f32⟩
  | .local _ .vmem, ⟨10, _⟩ => ⟨S1000x3, .f32⟩
  | .local _ .vmem, ⟨11, _⟩ => ⟨S1000x3, .f32⟩
  | _, _ => ⟨S1000000x3x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1000000x3x2_S1000000x6 : S1000000x3x2.ShapeCasts S1000000x6
  shapeCasts_S64_S1x64 : S64.ShapeCasts S1x64
  shapeCasts_S1_S1x1 : S1.ShapeCasts S1x1
  inb_S1000x6_S1000x6_0_0 : ∀ a, (![0, 0] : Fin 2 → Nat) a + S1000x6.size a ≤ S1000x6.size a
  h_S1000x6 : 0 < S1000x6.numel
  shapeCasts_S1000x6_S1000x6 : S1000x6.ShapeCasts S1000x6
  slices_S1000x6_o0_0_S1000x1 : S1000x6.Slices ![0, 0] S1000x1
  slices_S1000x6_o0_1_S1000x1 : S1000x6.Slices ![0, 1] S1000x1
  slices_S1000x6_o0_2_S1000x1 : S1000x6.Slices ![0, 2] S1000x1
  slices_S1000x6_o0_3_S1000x1 : S1000x6.Slices ![0, 3] S1000x1
  slices_S1000x6_o0_4_S1000x1 : S1000x6.Slices ![0, 4] S1000x1
  slices_S1000x6_o0_5_S1000x1 : S1000x6.Slices ![0, 5] S1000x1
  slices_S1000x6_o0_0_S1000x4 : S1000x6.Slices ![0, 0] S1000x4
  slices_S1000x6_o0_4_S1000x2 : S1000x6.Slices ![0, 4] S1000x2
  concatenates_S1000x4_S1000x2_S1000x6_d1 : Shape.Concatenates [S1000x4, S1000x2] S1000x6 1
  inb_S6x64_S6x64_0_0 : ∀ a, (![0, 0] : Fin 2 → Nat) a + S6x64.size a ≤ S6x64.size a
  h_S6x64 : 0 < S6x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S1000x64 : S1x64.Broadcasts S1000x64
  broadcasts_S1x1_S1000x1 : S1x1.Broadcasts S1000x1
  concatenates_S1000x1_S1000x1_S1000x1_S1000x3_d1 : Shape.Concatenates [S1000x1, S1000x1, S1000x1] S1000x3 1
  inb_S1000x3_S1000x3_0_0 : ∀ a, (![0, 0] : Fin 2 → Nat) a + S1000x3.size a ≤ S1000x3.size a
  h_S1000x3 : 0 < S1000x3.numel
  dot_S1000x6_S6x64_S1000x64_1_0_0_1_n_n_wf : DotDims.WF S1000x6 S6x64 S1000x64 [1] [0] [0] [1] [] []
  dot_S1000x64_S64x64_S1000x64_1_0_0_1_n_n_wf : DotDims.WF S1000x64 S64x64 S1000x64 [1] [0] [0] [1] [] []
  dot_S1000x64_S64x1_S1000x1_1_0_0_1_n_n_wf : DotDims.WF S1000x64 S64x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x6.size a ≤ S1000000x6.size a
  hwx0_0 : ∀ i : grid0.Coords, EltTy.bits .f32 = 32 ∨ (Rect.block (s := S1000000x6) S1000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x6.size a ≤ S1000000x6.size a
  hwx0_1 : ∀ i : grid0.Coords, EltTy.bits .f32 = 32 ∨ (Rect.block (s := S1000000x6) S1000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x64.size a ≤ S6x64.size a
  hwx0_2 : ∀ i : grid0.Coords, EltTy.bits .f32 = 32 ∨ (Rect.block (s := S6x64) S6x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1000x3.size a ≤ S1000000x3.size a
  hwx0_8 : ∀ i : grid0.Coords, EltTy.bits .f32 = 32 ∨ (Rect.block (s := S1000000x3) S1000x3.size (cc0_transform_8 i) (hinb0_8 i)).WholeWords (EltTy.packing .f32)

variable [Facts₀]

def dot_S1000x6_S6x64_S1000x64_1_0_0_1_n_n : DotDims S1000x6 S6x64 S1000x64 where
  lhsContracting := [1]
  rhsContracting := [0]
  lhsNonContracting := [0]
  rhsNonContracting := [1]
  lhsBatch := []
  rhsBatch := []
  wf := dot_S1000x6_S6x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

abbrev win0_0 : Pipeline.Window sig grid0 :=
  Pipeline.Window.ofSpec (Memref.whole main_v0) S1000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S6x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1000x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1000000x3x2 : Shape := ⟨3, ![1000000, 3, 2]⟩
abbrev S1000000 : Shape := ⟨1, ![1000000]⟩
abbrev S6x64 : Shape := ⟨2, ![6, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1000000x1x1 : Shape := ⟨3, ![1000000, 1, 1]⟩
abbrev S1000000x1x2 : Shape := ⟨3, ![1000000, 1, 2]⟩
abbrev S1000000x2 : Shape := ⟨2, ![1000000, 2]⟩
abbrev S1000000x6 : Shape := ⟨2, ![1000000, 6]⟩
abbrev S1000000x64 : Shape := ⟨2, ![1000000, 64]⟩
abbrev S1x64 : Shape := ⟨2, ![1, 64]⟩
abbrev S1000000x1 : Shape := ⟨2, ![1000000, 1]⟩
abbrev S1x1 : Shape := ⟨2, ![1, 1]⟩
abbrev S_ : Shape := ⟨0, ![]⟩
abbrev S1000000x3 : Shape := ⟨2, ![1000000, 3]⟩
abbrev S1000000x3x1 : Shape := ⟨3, ![1000000, 3, 1]⟩

abbrev nBuf : Space → Nat
  | .hbm => 405
  | .vmem => 0
  | .smem => 0
  | _ => 0

abbrev hbmTy0_0 (i : Nat) : BufTy := match i % 128 with
  | 0 => ⟨S1000000x3x2, .f32⟩
  | 1 => ⟨S1000000x3x2, .f32⟩
  | 2 => ⟨S1000000x3x2, .f32⟩
  | 3 => ⟨S1000000, .f32⟩
  | 4 => ⟨S1000000, .f32⟩
  | 5 => ⟨S6x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1000000x1x1, .f32⟩
  | 12 => ⟨S1000000, .f32⟩
  | 13 => ⟨S1000000x1x1, .f32⟩
  | 14 => ⟨S1000000, .f32⟩
  | 15 => ⟨S1000000x1x1, .f32⟩
  | 16 => ⟨S1000000, .f32⟩
  | 17 => ⟨S1000000x1x1, .f32⟩
  | 18 => ⟨S1000000, .f32⟩
  | 19 => ⟨S1000000x1x1, .f32⟩
  | 20 => ⟨S1000000, .f32⟩
  | 21 => ⟨S1000000x1x1, .f32⟩
  | 22 => ⟨S1000000, .f32⟩
  | 23 => ⟨S1000000x1x2, .f32⟩
  | 24 => ⟨S1000000x2, .f32⟩
  | 25 => ⟨S1000000x2, .f32⟩
  | 26 => ⟨S1000000x1x2, .f32⟩
  | 27 => ⟨S1000000x2, .f32⟩
  | 28 => ⟨S1000000x2, .f32⟩
  | 29 => ⟨S1000000x1x2, .f32⟩
  | 30 => ⟨S1000000x2, .f32⟩
  | 31 => ⟨S1000000x1x2, .f32⟩
  | 32 => ⟨S1000000x1x2, .f32⟩
  | 33 => ⟨S1000000x1x2, .f32⟩
  | 34 => ⟨S1000000x3x2, .f32⟩
  | 35 => ⟨S1000000x6, .f32⟩
  | 36 => ⟨S1000000x64, .f32⟩
  | 37 => ⟨S1x64, .f32⟩
  | 38 => ⟨S1000000x64, .f32⟩
  | 39 => ⟨S1000000x64, .f32⟩
  | 40 => ⟨S1000000x64, .f32⟩
  | 41 => ⟨S1000000x64, .f32⟩
  | 42 => ⟨S1x64, .f32⟩
  | 43 => ⟨S1000000x64, .f32⟩
  | 44 => ⟨S1000000x64, .f32⟩
  | 45 => ⟨S1000000x64, .f32⟩
  | 46 => ⟨S1000000x1, .f32⟩
  | 47 => ⟨S1x1, .f32⟩
  | 48 => ⟨S1000000x1, .f32⟩
  | 49 => ⟨S1000000x1, .f32⟩
  | 50 => ⟨S1000000, .f32⟩
  | 51 => ⟨S1000000, .f32⟩
  | 52 => ⟨S1000000, .f32⟩
  | 53 => ⟨S_, .f32⟩
  | 54 => ⟨S1000000, .f32⟩
  | 55 => ⟨S1000000, .f32⟩
  | 56 => ⟨S_, .f32⟩
  | 57 => ⟨S1000000, .f32⟩
  | 58 => ⟨S1000000, .f32⟩
  | 59 => ⟨S_, .f32⟩
  | 60 => ⟨S1000000, .f32⟩
  | 61 => ⟨S1000000, .f32⟩
  | 62 => ⟨S1000000, .f32⟩
  | 63 => ⟨S_, .f32⟩
  | 64 => ⟨S1000000, .f32⟩
  | 65 => ⟨S1000000, .f32⟩
  | 66 => ⟨S1000000, .f32⟩
  | 67 => ⟨S_, .f32⟩
  | 68 => ⟨S1000000, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S1000000, .f32⟩
  | 75 => ⟨S_, .f32⟩
  | 76 => ⟨S1000000, .f32⟩
  | 77 => ⟨S1000000, .f32⟩
  | 78 => ⟨S1000000, .f32⟩
  | 79 => ⟨S_, .f32⟩
  | 80 => ⟨S1000000, .f32⟩
  | 81 => ⟨S1000000, .f32⟩
  | 82 => ⟨S1000000, .f32⟩
  | 83 => ⟨S_, .f32⟩
  | 84 => ⟨S1000000, .f32⟩
  | 85 => ⟨S1000000, .f32⟩
  | 86 => ⟨S1000000, .f32⟩
  | 87 => ⟨S_, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S1000000, .f32⟩
  | 94 => ⟨S_, .f32⟩
  | 95 => ⟨S1000000, .f32⟩
  | 96 => ⟨S1000000, .f32⟩
  | 97 => ⟨S_, .f32⟩
  | 98 => ⟨S1000000, .f32⟩
  | 99 => ⟨S1000000, .f32⟩
  | 100 => ⟨S_, .f32⟩
  | 101 => ⟨S1000000, .f32⟩
  | 102 => ⟨S1000000, .f32⟩
  | 103 => ⟨S1000000, .f32⟩
  | 104 => ⟨S1000000, .f32⟩
  | 105 => ⟨S1000000, .f32⟩
  | 106 => ⟨S1000000, .f32⟩
  | 107 => ⟨S1000000, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S1000000, .f32⟩
  | 114 => ⟨S1000000, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S1000000, .f32⟩
  | 121 => ⟨S_, .f32⟩
  | 122 => ⟨S1000000, .f32⟩
  | 123 => ⟨S1000000, .f32⟩
  | 124 => ⟨S_, .f32⟩
  | 125 => ⟨S1000000, .f32⟩
  | 126 => ⟨S1000000, .f32⟩
  | 127 => ⟨S_, .f32⟩
  | _ => ⟨S1000000x3x2, .f32⟩

abbrev hbmTy0_1 (i : Nat) : BufTy := match i % 128 with
  | 0 => ⟨S1000000, .f32⟩
  | 1 => ⟨S1000000, .f32⟩
  | 2 => ⟨S1000000, .f32⟩
  | 3 => ⟨S_, .f32⟩
  | 4 => ⟨S1000000, .f32⟩
  | 5 => ⟨S1000000, .f32⟩
  | 6 => ⟨S1000000, .f32⟩
  | 7 => ⟨S1000000, .f32⟩
  | 8 => ⟨S1000000, .f32⟩
  | 9 => ⟨S1000000, .f32⟩
  | 10 => ⟨S1000000, .f32⟩
  | 11 => ⟨S_, .f32⟩
  | 12 => ⟨S1000000, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S1000000, .f32⟩
  | 19 => ⟨S1000000, .f32⟩
  | 20 => ⟨S1000000, .f32⟩
  | 21 => ⟨S1000000, .f32⟩
  | 22 => ⟨S_, .f32⟩
  | 23 => ⟨S1000000, .f32⟩
  | 24 => ⟨S1000000, .f32⟩
  | 25 => ⟨S1000000, .f32⟩
  | 26 => ⟨S1000000, .f32⟩
  | 27 => ⟨S_, .f32⟩
  | 28 => ⟨S1000000, .f32⟩
  | 29 => ⟨S1000000, .f32⟩
  | 30 => ⟨S1000000, .f32⟩
  | 31 => ⟨S1000000, .f32⟩
  | 32 => ⟨S1000000, .f32⟩
  | 33 => ⟨S1000000, .f32⟩
  | 34 => ⟨S1000000, .f32⟩
  | 35 => ⟨S1000000, .f32⟩
  | 36 => ⟨S1000000, .f32⟩
  | 37 => ⟨S1000000, .f32⟩
  | 38 => ⟨S1000000, .f32⟩
  | 39 => ⟨S1000000, .f32⟩
  | 40 => ⟨S1000000, .f32⟩
  | 41 => ⟨S_, .f32⟩
  | 42 => ⟨S1000000, .f32⟩
  | 43 => ⟨S1000000, .f32⟩
  | 44 => ⟨S1000000, .f32⟩
  | 45 => ⟨S1000000, .f32⟩
  | 46 => ⟨S1000000, .f32⟩
  | 47 => ⟨S1000000, .f32⟩
  | 48 => ⟨S1000000, .f32⟩
  | 49 => ⟨S_, .f32⟩
  | 50 => ⟨S1000000, .f32⟩
  | 51 => ⟨S1000000, .f32⟩
  | 52 => ⟨S_, .f32⟩
  | 53 => ⟨S1000000, .f32⟩
  | 54 => ⟨S1000000, .f32⟩
  | 55 => ⟨S1000000, .f32⟩
  | 56 => ⟨S1000000, .f32⟩
  | 57 => ⟨S1000000, .f32⟩
  | 58 => ⟨S1000000, .f32⟩
  | 59 => ⟨S1000000, .f32⟩
  | 60 => ⟨S_, .f32⟩
  | 61 => ⟨S1000000, .f32⟩
  | 62 => ⟨S1000000, .f32⟩
  | 63 => ⟨S1000000, .f32⟩
  | 64 => ⟨S1000000, .f32⟩
  | 65 => ⟨S1000000, .f32⟩
  | 66 => ⟨S_, .f32⟩
  | 67 => ⟨S1000000, .f32⟩
  | 68 => ⟨S1000000, .f32⟩
  | 69 => ⟨S1000000, .f32⟩
  | 70 => ⟨S_, .f32⟩
  | 71 => ⟨S1000000, .f32⟩
  | 72 => ⟨S1000000, .f32⟩
  | 73 => ⟨S1000000, .f32⟩
  | 74 => ⟨S_, .f32⟩
  | 75 => ⟨S1000000, .f32⟩
  | 76 => ⟨S1000000, .f32⟩
  | 77 => ⟨S1000000, .f32⟩
  | 78 => ⟨S_, .f32⟩
  | 79 => ⟨S1000000, .f32⟩
  | 80 => ⟨S1000000, .f32⟩
  | 81 => ⟨S1000000, .f32⟩
  | 82 => ⟨S_, .f32⟩
  | 83 => ⟨S1000000, .f32⟩
  | 84 => ⟨S1000000, .f32⟩
  | 85 => ⟨S_, .f32⟩
  | 86 => ⟨S1000000, .f32⟩
  | 87 => ⟨S1000000, .f32⟩
  | 88 => ⟨S1000000, .f32⟩
  | 89 => ⟨S_, .f32⟩
  | 90 => ⟨S1000000, .f32⟩
  | 91 => ⟨S1000000, .f32⟩
  | 92 => ⟨S_, .f32⟩
  | 93 => ⟨S1000000, .f32⟩
  | 94 => ⟨S1000000, .f32⟩
  | 95 => ⟨S_, .f32⟩
  | 96 => ⟨S1000000, .f32⟩
  | 97 => ⟨S1000000, .f32⟩
  | 98 => ⟨S1000000, .f32⟩
  | 99 => ⟨S1000000, .f32⟩
  | 100 => ⟨S1000000, .f32⟩
  | 101 => ⟨S1000000, .f32⟩
  | 102 => ⟨S1000000, .f32⟩
  | 103 => ⟨S1000000, .f32⟩
  | 104 => ⟨S1000000, .f32⟩
  | 105 => ⟨S_, .f32⟩
  | 106 => ⟨S1000000, .f32⟩
  | 107 => ⟨S1000000, .f32⟩
  | 108 => ⟨S1000000, .f32⟩
  | 109 => ⟨S1000000, .f32⟩
  | 110 => ⟨S1000000, .f32⟩
  | 111 => ⟨S1000000, .f32⟩
  | 112 => ⟨S_, .f32⟩
  | 113 => ⟨S1000000, .f32⟩
  | 114 => ⟨S1000000, .f32⟩
  | 115 => ⟨S1000000, .f32⟩
  | 116 => ⟨S_, .f32⟩
  | 117 => ⟨S1000000, .f32⟩
  | 118 => ⟨S1000000, .f32⟩
  | 119 => ⟨S_, .f32⟩
  | 120 => ⟨S1000000, .f32⟩
  | 121 => ⟨S1000000, .f32⟩
  | 122 => ⟨S_, .f32⟩
  | 123 => ⟨S1000000, .f32⟩
  | 124 => ⟨S1000000, .f32⟩
  | 125 => ⟨S1000000, .f32⟩
  | 126 => ⟨S_, .f32⟩
  | 127 => ⟨S1000000, .f32⟩
  | _ => ⟨S1000000x3x2, .f32⟩

abbrev hbmTy0_2 (i : Nat) : BufTy := match i % 128 with
  | 0 => ⟨S1000000, .f32⟩
  | 1 => ⟨S1000000, .f32⟩
  | 2 => ⟨S1000000, .f32⟩
  | 3 => ⟨S1000000, .f32⟩
  | 4 => ⟨S1000000, .f32⟩
  | 5 => ⟨S1000000, .f32⟩
  | 6 => ⟨S_, .f32⟩
  | 7 => ⟨S1000000, .f32⟩
  | 8 => ⟨S1000000, .f32⟩
  | 9 => ⟨S1000000, .f32⟩
  | 10 => ⟨S_, .f32⟩
  | 11 => ⟨S1000000, .f32⟩
  | 12 => ⟨S1000000, .f32⟩
  | 13 => ⟨S1000000, .f32⟩
  | 14 => ⟨S1000000, .f32⟩
  | 15 => ⟨S1000000, .f32⟩
  | 16 => ⟨S1000000, .f32⟩
  | 17 => ⟨S_, .f32⟩
  | 18 => ⟨S1000000, .f32⟩
  | 19 => ⟨S1000000, .f32⟩
  | 20 => ⟨S1000000, .f32⟩
  | 21 => ⟨S1000000, .f32⟩
  | 22 => ⟨S_, .f32⟩
  | 23 => ⟨S1000000, .f32⟩
  | 24 => ⟨S1000000, .f32⟩
  | 25 => ⟨S1000000, .f32⟩
  | 26 => ⟨S1000000, .f32⟩
  | 27 => ⟨S1000000, .f32⟩
  | 28 => ⟨S1000000, .f32⟩
  | 29 => ⟨S1000000, .f32⟩
  | 30 => ⟨S1000000, .f32⟩
  | 31 => ⟨S1000000, .f32⟩
  | 32 => ⟨S1000000, .f32⟩
  | 33 => ⟨S1000000, .f32⟩
  | 34 => ⟨S1000000, .f32⟩
  | 35 => ⟨S1000000, .f32⟩
  | 36 => ⟨S_, .f32⟩
  | 37 => ⟨S1000000, .f32⟩
  | 38 => ⟨S1000000, .f32⟩
  | 39 => ⟨S1000000, .f32⟩
  | 40 => ⟨S1000000, .f32⟩
  | 41 => ⟨S1000000, .f32⟩
  | 42 => ⟨S1000000, .f32⟩
  | 43 => ⟨S1000000, .f32⟩
  | 44 => ⟨S_, .f32⟩
  | 45 => ⟨S1000000, .f32⟩
  | 46 => ⟨S1000000, .f32⟩
  | 47 => ⟨S_, .f32⟩
  | 48 => ⟨S1000000, .f32⟩
  | 49 => ⟨S1000000, .f32⟩
  | 50 => ⟨S1000000, .f32⟩
  | 51 => ⟨S1000000, .f32⟩
  | 52 => ⟨S1000000, .f32⟩
  | 53 => ⟨S1000000, .f32⟩
  | 54 => ⟨S1000000, .f32⟩
  | 55 => ⟨S_, .f32⟩
  | 56 => ⟨S1000000, .f32⟩
  | 57 => ⟨S1000000, .f32⟩
  | 58 => ⟨S1000000, .f32⟩
  | 59 => ⟨S1000000, .f32⟩
  | 60 => ⟨S1000000, .f32⟩
  | 61 => ⟨S1000000, .f32⟩
  | 62 => ⟨S_, .f32⟩
  | 63 => ⟨S1000000, .f32⟩
  | 64 => ⟨S1000000, .f32⟩
  | 65 => ⟨S1000000, .f32⟩
  | 66 => ⟨S_, .f32⟩
  | 67 => ⟨S1000000, .f32⟩
  | 68 => ⟨S1000000, .f32⟩
  | 69 => ⟨S1000000, .f32⟩
  | 70 => ⟨S_, .f32⟩
  | 71 => ⟨S1000000, .f32⟩
  | 72 => ⟨S1000000, .f32⟩
  | 73 => ⟨S1000000, .f32⟩
  | 74 => ⟨S1000000, .f32⟩
  | 75 => ⟨S1000000, .f32⟩
  | 76 => ⟨S1000000, .f32⟩
  | 77 => ⟨S_, .f32⟩
  | 78 => ⟨S1000000, .f32⟩
  | 79 => ⟨S1000000, .f32⟩
  | 80 => ⟨S1000000, .f32⟩
  | 81 => ⟨S1000000, .f32⟩
  | 82 => ⟨S1000000, .f32⟩
  | 83 => ⟨S1000000, .f32⟩
  | 84 => ⟨S1000000, .f32⟩
  | 85 => ⟨S1000000, .f32⟩
  | 86 => ⟨S1000000, .f32⟩
  | 87 => ⟨S1000000, .f32⟩
  | 88 => ⟨S1000000x1, .f32⟩
  | 89 => ⟨S1000000x1, .f32⟩
  | 90 => ⟨S1000000x1, .f32⟩
  | 91 => ⟨S1000000x3, .f32⟩
  | 92 => ⟨S1000000, .f32⟩
  | 93 => ⟨S1000000, .f32⟩
  | 94 => ⟨S_, .f32⟩
  | 95 => ⟨S1000000, .f32⟩
  | 96 => ⟨S1000000, .f32⟩
  | 97 => ⟨S1000000, .f32⟩
  | 98 => ⟨S1000000, .f32⟩
  | 99 => ⟨S1000000, .f32⟩
  | 100 => ⟨S1000000, .f32⟩
  | 101 => ⟨S1000000, .f32⟩
  | 102 => ⟨S1000000, .f32⟩
  | 103 => ⟨S1000000, .f32⟩
  | 104 => ⟨S1000000, .f32⟩
  | 105 => ⟨S1000000x1, .f32⟩
  | 106 => ⟨S1000000x1, .f32⟩
  | 107 => ⟨S1000000x1, .f32⟩
  | 108 => ⟨S1000000x3, .f32⟩
  | 109 => ⟨S_, .f32⟩
  | 110 => ⟨S1000000, .f32⟩
  | 111 => ⟨S1000000, .i1⟩
  | 112 => ⟨S1000000x1, .i1⟩
  | 113 => ⟨S_, .f32⟩
  | 114 => ⟨S1000000, .f32⟩
  | 115 => ⟨S1000000, .i1⟩
  | 116 => ⟨S_, .f32⟩
  | 117 => ⟨S1000000, .f32⟩
  | 118 => ⟨S1000000, .i1⟩
  | 119 => ⟨S1000000, .i1⟩
  | 120 => ⟨S1000000x1, .i1⟩
  | 121 => ⟨S_, .f32⟩
  | 122 => ⟨S1000000, .f32⟩
  | 123 => ⟨S1000000, .i1⟩
  | 124 => ⟨S_, .f32⟩
  | 125 => ⟨S1000000, .f32⟩
  | 126 => ⟨S1000000, .i1⟩
  | 127 => ⟨S1000000, .i1⟩
  | _ => ⟨S1000000x3x2, .f32⟩

abbrev hbmTy0_3 (i : Nat) : BufTy := match i % 128 with
  | 0 => ⟨S1000000x1, .i1⟩
  | 1 => ⟨S_, .f32⟩
  | 2 => ⟨S1000000, .f32⟩
  | 3 => ⟨S1000000, .i1⟩
  | 4 => ⟨S1000000x1, .i1⟩
  | 5 => ⟨S1000000x3x1, .f32⟩
  | 6 => ⟨S1000000x3, .f32⟩
  | 7 => ⟨S_, .f32⟩
  | 8 => ⟨S1000000x3, .f32⟩
  | 9 => ⟨S1000000x3x1, .f32⟩
  | 10 => ⟨S1000000x3, .f32⟩
  | 11 => ⟨S1000000x3, .i1⟩
  | 12 => ⟨S1000000x3, .f32⟩
  | 13 => ⟨S1000000x3, .i1⟩
  | 14 => ⟨S1000000x3, .f32⟩
  | 15 => ⟨S1000000x3, .i1⟩
  | 16 => ⟨S1000000x3, .f32⟩
  | 17 => ⟨S1000000x3x1, .f32⟩
  | 18 => ⟨S1000000x3, .f32⟩
  | 19 => ⟨S1000000x3, .i1⟩
  | 20 => ⟨S1000000x3, .f32⟩
  | _ => ⟨S1000000x3x2, .f32⟩

abbrev hbmTy (i : Nat) : BufTy := match i / 128 with
  | 0 => hbmTy0_0 i
  | 1 => hbmTy0_1 i
  | 2 => hbmTy0_2 i
  | 3 => hbmTy0_3 i
  | _ => ⟨S1000000x3x2, .f32⟩

abbrev bufTy : (tb : Table) → Fin (tcTables nBuf tb) → BufTy
  | .hbm, ⟨i, _⟩ => hbmTy i
  | _, _ => ⟨S1000000x3x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst : Ref sig .tc := ⟨.hbm, 53, rfl⟩
abbrev main_v42 : Ref sig .tc := ⟨.hbm, 54, rfl⟩
abbrev main_v43 : Ref sig .tc := ⟨.hbm, 55, rfl⟩
abbrev main_cst_0 : Ref sig .tc := ⟨.hbm, 56, rfl⟩
abbrev main_v44 : Ref sig .tc := ⟨.hbm, 57, rfl⟩
abbrev main_v45 : Ref sig .tc := ⟨.hbm, 58, rfl⟩
abbrev main_cst_1 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_2 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_3 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_4 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_5 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_6 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_7 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_8 : Ref sig .tc := ⟨.hbm, 87, rfl⟩
abbrev main_v67 : Ref sig .tc := ⟨.hbm, 88, rfl⟩
abbrev main_v68 : Ref sig .tc := ⟨.hbm, 89, rfl⟩
abbrev main_cst_9 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_14 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_15 : Ref sig .tc := ⟨.hbm, 121, rfl⟩
abbrev main_v94 : Ref sig .tc := ⟨.hbm, 122, rfl⟩
abbrev main_v95 : Ref sig .tc := ⟨.hbm, 123, rfl⟩
abbrev main_cst_16 : Ref sig .tc := ⟨.hbm, 124, rfl⟩
abbrev main_v96 : Ref sig .tc := ⟨.hbm, 125, rfl⟩
abbrev main_v97 : Ref sig .tc := ⟨.hbm, 126, rfl⟩
abbrev main_cst_17 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_18 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_cst_19 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_20 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_21 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_22 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_23 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_24 : Ref sig .tc := ⟨.hbm, 177, rfl⟩
abbrev main_v141 : Ref sig .tc := ⟨.hbm, 178, rfl⟩
abbrev main_v142 : Ref sig .tc := ⟨.hbm, 179, rfl⟩
abbrev main_cst_25 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_26 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_27 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_28 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_cst_29 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_cst_30 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_cst_31 : Ref sig .tc := ⟨.hbm, 210, rfl⟩
abbrev main_v167 : Ref sig .tc := ⟨.hbm, 211, rfl⟩
abbrev main_v168 : Ref sig .tc := ⟨.hbm, 212, rfl⟩
abbrev main_cst_32 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_cst_33 : Ref sig .tc := ⟨.hbm, 217, rfl⟩
abbrev main_v172 : Ref sig .tc := ⟨.hbm, 218, rfl⟩
abbrev main_v173 : Ref sig .tc := ⟨.hbm, 219, rfl⟩
abbrev main_cst_34 : Ref sig .tc := ⟨.hbm, 220, rfl⟩
abbrev main_v174 : Ref sig .tc := ⟨.hbm, 221, rfl⟩
abbrev main_v175 : Ref sig .tc := ⟨.hbm, 222, rfl⟩
abbrev main_cst_35 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_cst_36 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_cst_37 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_cst_38 : Ref sig .tc := ⟨.hbm, 244, rfl⟩
abbrev main_v194 : Ref sig .tc := ⟨.hbm, 245, rfl⟩
abbrev main_v195 : Ref sig .tc := ⟨.hbm, 246, rfl⟩
abbrev main_cst_39 : Ref sig .tc := ⟨.hbm, 247, rfl⟩
abbrev main_v196 : Ref sig .tc := ⟨.hbm, 248, rfl⟩
abbrev main_v197 : Ref sig .tc := ⟨.hbm, 249, rfl⟩
abbrev main_cst_40 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_41 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_cst_42 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_cst_43 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_cst_44 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_cst_45 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_cst_46 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_cst_47 : Ref sig .tc := ⟨.hbm, 300, rfl⟩
abbrev main_v241 : Ref sig .tc := ⟨.hbm, 301, rfl⟩
abbrev main_v242 : Ref sig .tc := ⟨.hbm, 302, rfl⟩
abbrev main_cst_48 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_cst_49 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_cst_50 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_cst_51 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_cst_52 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_cst_53 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_cst_54 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_cst_55 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_cst_56 : Ref sig .tc := ⟨.hbm, 369, rfl⟩
abbrev main_v301 : Ref sig .tc := ⟨.hbm, 370, rfl⟩
abbrev main_v302 : Ref sig .tc := ⟨.hbm, 371, rfl⟩
abbrev main_cst_57 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_cst_58 : Ref sig .tc := ⟨.hbm, 377, rfl⟩
abbrev main_v307 : Ref sig .tc := ⟨.hbm, 378, rfl⟩
abbrev main_v308 : Ref sig .tc := ⟨.hbm, 379, rfl⟩
abbrev main_cst_59 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_cst_60 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_v317 : Ref sig .tc := ⟨.hbm, 390, rfl⟩
abbrev main_cst_61 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_call0_v0 : Ref sig .tc := ⟨.hbm, 395, rfl⟩
abbrev main_v321 : Ref sig .tc := ⟨.hbm, 396, rfl⟩
abbrev main_call1_v0 : Ref sig .tc := ⟨.hbm, 397, rfl⟩
abbrev main_v322 : Ref sig .tc := ⟨.hbm, 398, rfl⟩
abbrev main_call2_v0 : Ref sig .tc := ⟨.hbm, 399, rfl⟩
abbrev main_v323 : Ref sig .tc := ⟨.hbm, 400, rfl⟩
abbrev main_v324 : Ref sig .tc := ⟨.hbm, 401, rfl⟩
abbrev main_v325 : Ref sig .tc := ⟨.hbm, 402, rfl⟩
abbrev main_call3_v0 : Ref sig .tc := ⟨.hbm, 403, rfl⟩
abbrev main_v326 : Ref sig .tc := ⟨.hbm, 404, rfl⟩

abbrev nD : Nat := 1
abbrev τ : Topo := Topo.v7x

variable {F : FTy → Type} [FloatOps F]

class Facts₀ : Prop where
  slices_S1000000x3x2_S1000000x1x1_0_0_0 : S1000000x3x2.Slices ![0, 0, 0] S1000000x1x1
  shapeCasts_S1000000x1x1_S1000000 : S1000000x1x1.ShapeCasts S1000000
  slices_S1000000x3x2_S1000000x1x1_0_0_1 : S1000000x3x2.Slices ![0, 0, 1] S1000000x1x1
  slices_S1000000x3x2_S1000000x1x1_0_1_0 : S1000000x3x2.Slices ![0, 1, 0] S1000000x1x1
  slices_S1000000x3x2_S1000000x1x1_0_1_1 : S1000000x3x2.Slices ![0, 1, 1] S1000000x1x1
  slices_S1000000x3x2_S1000000x1x1_0_2_0 : S1000000x3x2.Slices ![0, 2, 0] S1000000x1x1
  slices_S1000000x3x2_S1000000x1x1_0_2_1 : S1000000x3x2.Slices ![0, 2, 1] S1000000x1x1
  slices_S1000000x3x2_S1000000x1x2_0_0_0 : S1000000x3x2.Slices ![0, 0, 0] S1000000x1x2
  shapeCasts_S1000000x1x2_S1000000x2 : S1000000x1x2.ShapeCasts S1000000x2
  slices_S1000000x3x2_S1000000x1x2_0_1_0 : S1000000x3x2.Slices ![0, 1, 0] S1000000x1x2
  slices_S1000000x3x2_S1000000x1x2_0_2_0 : S1000000x3x2.Slices ![0, 2, 0] S1000000x1x2
  bcast_S1000000x2_S1000000x1x2_0_2 : S1000000x2.BroadcastsInDim S1000000x1x2 (![0, 2] : Fin 2 → Fin S1000000x1x2.rank)
  concatenates_S1000000x1x2_S1000000x1x2_S1000000x1x2_S1000000x3x2_d1 : Shape.Concatenates [S1000000x1x2, S1000000x1x2, S1000000x1x2] S1000000x3x2 1
  shapeCasts_S1000000x3x2_S1000000x6 : S1000000x3x2.ShapeCasts S1000000x6
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x1_S1000000x3_d1 : Shape.Concatenates [S1000000x1, S1000000x1, S1000000x1] S1000000x3 1
  slices_S1000000x3x2_S1000000x3x1_0_0_0 : S1000000x3x2.Slices ![0, 0, 0] S1000000x3x1
  shapeCasts_S1000000x3x1_S1000000x3 : S1000000x3x1.ShapeCasts S1000000x3
  bcast_S_S1000000x3 : S_.BroadcastsInDim S1000000x3 (![] : Fin 0 → Fin S1000000x3.rank)
  bcast_S1000000x1_S1000000x3_0_1 : S1000000x1.BroadcastsInDim S1000000x3 (![0, 1] : Fin 2 → Fin S1000000x3.rank)
  slices_S1000000x3x2_S1000000x3x1_0_0_1 : S1000000x3x2.Slices ![0, 0, 1] S1000000x3x1
  dot_S1000000x6_S6x64_S1000000x64_1_0_0_1_n_n_wf : DotDims.WF S1000000x6 S6x64 S1000000x64 [1] [0] [0] [1] [] []
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []

variable [Facts₀]

def dot_S1000000x6_S6x64_S1000000x64_1_0_0_1_n_n : DotDims S1000000x6 S6x64 S1000000x64 where
  lhsContracting := [1]
  rhsContracting := [0]
  lhsNonContracting := [0]
  rhsNonContracting := [1]
  lhsBatch := []
  rhsBatch := []
  wf := dot_S1000000x6_S6x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.RefFold.lean ====
/-
  The reference's stages, each from its operands' stages.  The reference's value is read one operation at a time: the stage
  `val_main_vK` is the K-th operation applied to the stages of its operands (RefReadP.lean).  This file restates that, once per
  stage, in the direction that NAMES a stage from its parts — the operation applied to its operands' stages IS the stage — so that a
  value computed by running the operations in order can be named stage by stage as it is computed, and never has to be written
  out.  Two stages whose operations and operands coincide are one value (the program computes `pC - p`, `rho W`, `j j` and several
  constants more than once); each such value is named by the first stage that computes it.  A reshape's and a three-way
  concatenate's result are also stated here in the stages' own spelling (literal shapes; the concatenate as a function of its three
  operands, `cat3`).
-/
import proofs.«132298_j83820581749011_1_alg».proof.Proof.Gen.ReferenceIdeal
import proofs.«132298_j83820581749011_1_alg».proof.Proof.RefReadP
import Idealize.ShloMosaic.Lib.StableHlo.Run

noncomputable section

namespace Cert.ReferenceIdeal.Fold

open Cert.ReferenceIdeal Cert.ReferenceIdeal.ReadP Cert.ReferenceIdeal.Gen Idealize.ShloMosaic Idealize.ShloMosaic.TcCoe Idealize.SL.Sem Idealize.ShloMosaic.StableHlo

variable {F : FTy → Type} [FloatOps F]

/-- Three arrays of one shape joined along axis 1. -/
def cat3 {α : Type} (S T : Shape) (ax : Fin T.rank) (h : Shape.Concatenates [S, S, S] T ax) (a b c : S.Idx → α) : T.Idx → α :=
  concatenate T ax [⟨S, a⟩, ⟨S, b⟩, ⟨S, c⟩] h

theorem rs_v1 (V : Valuation τ sig (Elt F)) :
    (reshape (τ := τ) (Val := Elt F) main_v0 main_v1 rfl shapeCasts_S1000000x1x1_S1000000).result V (no_index (Proc.devRef .tc main_v1))
      = @shapeCast S1000000x1x1 (Elt F .f32) S1000000 (V (Proc.devRef .tc main_v0)) shapeCasts_S1000000x1x1_S1000000 :=
  (reshape_result main_v0 main_v1 rfl shapeCasts_S1000000x1x1_S1000000 _ _ V).trans rfl
theorem rs_v3 (V : Valuation τ sig (Elt F)) :
    (reshape (τ := τ) (Val := Elt F) main_v2 main_v3 rfl shapeCasts_S1000000x1x1_S1000000).result V (no_index (Proc.devRef .tc main_v3))
      = @shapeCast S1000000x1x1 (Elt F .f32) S1000000 (V (Proc.devRef .tc main_v2)) shapeCasts_S1000000x1x1_S1000000 :=
  (reshape_result main_v2 main_v3 rfl shapeCasts_S1000000x1x1_S1000000 _ _ V).trans rfl
theorem rs_v5 (V : Valuation τ sig (Elt F)) :
    (reshape (τ := τ) (Val := Elt F) main_v4 main_v5 rfl shapeCasts_S1000000x1x1_S1000000).result V (no_index (Proc.devRef .tc main_v5))
      = @shapeCast S1000000x1x1 (Elt F .f32) S1000000 (V (Proc.devRef .tc main_v4)) shapeCasts_S1000000x1x1_S1000000 :=
  (reshape_result main_v4 main_v5 rfl shapeCasts_S1000000x1x1_S1000000 _ _ V).trans rfl
theorem rs_v7 (V : Valuation τ sig (Elt F)) :
    (reshape (τ := τ) (Val := Elt F) main_v6 main_v7 rfl shapeCasts_S1000000x1x1_S1000000).result V (no_index (Proc.devRef .tc main_v7))
      = @shapeCast S1000000x1x1 (Elt F .f32) S1000000 (V (Proc.devRef .tc main_v6)) shapeCasts_S1000000x1x1_S1000000 :=
  (reshape_result main_v6 main_v7 rfl shapeCasts_S1000000x1x1_S1000000 _ _ V).trans rfl
theorem rs_v9 (V : Valuation τ sig (Elt F)) :
    (reshape (τ := τ) (Val := Elt F) main_v8 main_v9 rfl shapeCasts_S1000000x1x1_S1000000).result V (no_index (Proc.devRef .tc main_v9))
      = @shapeCast S1000000x1x1 (Elt F .f32) S1000000 (V (Proc.devRef .tc main_v8)) shapeCasts_S1000000x1x1_S1000000 :=
  (reshape_result main_v8 main_v9 rfl shapeCasts_S1000000x1x1_S1000000 _ _ V).trans rfl
theorem rs_v11 (V : Valuation τ sig (Elt F)) :
    (reshape (τ := τ) (Val := Elt F) main_v10 main_v11 rfl shapeCasts_S1000000x1x1_S1000000).result V (no_index (Proc.devRef .tc main_v11))
      = @shapeCast S1000000x1x1 (Elt F .f32) S1000000 (V (Proc.devRef .tc main_v10)) shapeCasts_S1000000x1x1_S1000000 :=
  (reshape_result main_v10 main_v11 rfl shapeCasts_S1000000x1x1_S1000000 _ _ V).trans rfl
theorem rs_v13 (V : Valuation τ sig (Elt F)) :
    (reshape (τ := τ) (Val := Elt F) main_v12 main_v13 rfl shapeCasts_S1000000x1x2_S1000000x2).result V (no_index (Proc.devRef .tc main_v13))
      = @shapeCast S1000000x1x2 (Elt F .f32) S1000000x2 (V (Proc.devRef .tc main_v12)) shapeCasts_S1000000x1x2_S1000000x2 :=
  (reshape_result main_v12 main_v13 rfl shapeCasts_S1000000x1x2_S1000000x2 _ _ V).trans rfl
theorem rs_v16 (V : Valuation τ sig (Elt F)) :
    (reshape (τ := τ) (Val := Elt F) main_v15 main_v16 rfl shapeCasts_S1000000x1x2_S1000000x2).result V (no_index (Proc.devRef .tc main_v16))
      = @shapeCast S1000000x1x2 (Elt F .f32) S1000000x2 (V (Proc.devRef .tc main_v15)) shapeCasts_S1000000x1x2_S1000000x2 :=
  (reshape_result main_v15 main_v16 rfl shapeCasts_S1000000x1x2_S1000000x2 _ _ V).trans rfl
theorem rs_v19 (V : Valuation τ sig (Elt F)) :
    (reshape (τ := τ) (Val := Elt F) main_v18 main_v19 rfl shapeCasts_S1000000x1x2_S1000000x2).result V (no_index (Proc.devRef .tc main_v19))
      = @shapeCast S1000000x1x2 (Elt F .f32) S1000000x2 (V (Proc.devRef .tc main_v18)) shapeCasts_S1000000x1x2_S1000000x2 :=
  (reshape_result main_v18 main_v19 rfl shapeCasts_S1000000x1x2_S1000000x2 _ _ V).trans rfl
theorem rs_v24 (V : Valuation τ sig (Elt F)) :
    (reshape (τ := τ) (Val := Elt F) main_v23 main_v24 rfl shapeCasts_S1000000x3x2_S1000000x6).result V (no_index (Proc.devRef .tc main_v24))
      = @shapeCast S1000000x3x2 (Elt F .f32) S1000000x6 (V (Proc.devRef .tc main_v23)) shapeCasts_S1000000x3x2_S1000000x6 :=
  (reshape_result main_v23 main_v24 rfl shapeCasts_S1000000x3x2_S1000000x6 _ _ V).trans rfl
theorem rs_v39 (V : Valuation τ sig (Elt F)) :
    (reshape (τ := τ) (Val := Elt F) main_v38 main_v39 rfl shapeCasts_S1000000x1_S1000000).result V (no_index (Proc.devRef .tc main_v39))
      = @shapeCast S1000000x1 (Elt F .f32) S1000000 (V (Proc.devRef .tc main_v38)) shapeCasts_S1000000x1_S1000000 :=
  (reshape_result main_v38 main_v39 rfl shapeCasts_S1000000x1_S1000000 _ _ V).trans rfl
theorem rs_v317 (V : Valuation τ sig (Elt F)) :
    (reshape (τ := τ) (Val := Elt F) main_v316 main_v317 rfl shapeCasts_S1000000x3x1_S1000000x3).result V (no_index (Proc.devRef .tc main_v317))
      = @shapeCast S1000000x3x1 (Elt F .f32) S1000000x3 (V (Proc.devRef .tc main_v316)) shapeCasts_S1000000x3x1_S1000000x3 :=
  (reshape_result main_v316 main_v317 rfl shapeCasts_S1000000x3x1_S1000000x3 _ _ V).trans rfl
theorem rs_v320 (V : Valuation τ sig (Elt F)) :
    (reshape (τ := τ) (Val := Elt F) main_v319 main_v320 rfl shapeCasts_S1000000x3x1_S1000000x3).result V (no_index (Proc.devRef .tc main_v320))
      = @shapeCast S1000000x3x1 (Elt F .f32) S1000000x3 (V (Proc.devRef .tc main_v319)) shapeCasts_S1000000x3x1_S1000000x3 :=
  (reshape_result main_v319 main_v320 rfl shapeCasts_S1000000x3x1_S1000000x3 _ _ V).trans rfl
theorem rs_v325 (V : Valuation τ sig (Elt F)) :
    (reshape (τ := τ) (Val := Elt F) main_v324 main_v325 rfl shapeCasts_S1000000x3x1_S1000000x3).result V (no_index (Proc.devRef .tc main_v325))
      = @shapeCast S1000000x3x1 (Elt F .f32) S1000000x3 (V (Proc.devRef .tc main_v324)) shapeCasts_S1000000x3x1_S1000000x3 :=
  (reshape_result main_v324 main_v325 rfl shapeCasts_S1000000x3x1_S1000000x3 _ _ V).trans rfl

theorem nr_v23 (V : Valuation τ sig (Elt F)) :
    (nary ![main_v20, main_v21, main_v22] main_v23 (fun u => concatenate S1000000x3x2 1 [⟨S1000000x1x2, u 0⟩, ⟨S1000000x1x2, u 1⟩, ⟨S1000000x1x2, u 2⟩] concatenates_S1000000x1x2_S1000000x1x2_S1000000x1x2_S1000000x3x2_d1)).result V (no_index (Proc.devRef .tc main_v23))
      = cat3 (α := Elt F .f32) S1000000x1x2 S1000000x3x2 1 concatenates_S1000000x1x2_S1000000x1x2_S1000000x1x2_S1000000x3x2_d1 (V (Proc.devRef .tc main_v20)) (V (Proc.devRef .tc main_v21)) (V (Proc.devRef .tc main_v22)) :=
  (nary_result _ main_v23 _ _ _ V).trans rfl
theorem nr_v281 (V : Valuation τ sig (Elt F)) :
    (nary ![main_v278, main_v279, main_v280] main_v281 (fun u => concatenate S1000000x3 1 [⟨S1000000x1, u 0⟩, ⟨S1000000x1, u 1⟩, ⟨S1000000x1, u 2⟩] concatenates_S1000000x1_S1000000x1_S1000000x1_S1000000x3_d1)).result V (no_index (Proc.devRef .tc main_v281))
      = cat3 (α := Elt F .f32) S1000000x1 S1000000x3 1 concatenates_S1000000x1_S1000000x1_S1000000x1_S1000000x3_d1 (V (Proc.devRef .tc main_v278)) (V (Proc.devRef .tc main_v279)) (V (Proc.devRef .tc main_v280)) :=
  (nary_result _ main_v281 _ _ _ V).trans rfl
theorem nr_v297 (V : Valuation τ sig (Elt F)) :
    (nary ![main_v294, main_v295, main_v296] main_v297 (fun u => concatenate S1000000x3 1 [⟨S1000000x1, u 0⟩, ⟨S1000000x1, u 1⟩, ⟨S1000000x1, u 2⟩] concatenates_S1000000x1_S1000000x1_S1000000x1_S1000000x3_d1)).result V (no_index (Proc.devRef .tc main_v297))
      = cat3 (α := Elt F .f32) S1000000x1 S1000000x3 1 concatenates_S1000000x1_S1000000x1_S1000000x1_S1000000x3_d1 (V (Proc.devRef .tc main_v294)) (V (Proc.devRef .tc main_v295)) (V (Proc.devRef .tc main_v296)) :=
  (nary_result _ main_v297 _ _ _ V).trans rfl

theorem f_v0 (x0 : S1000000x3x2.Idx → Elt F .f32) :
    (extractStridedSlice S1000000x1x1 ![0, 0, 0] (x0) slices_S1000000x3x2_S1000000x1x1_0_0_0 : S1000000x1x1.Idx → Elt F .f32) = val_main_v0 (F := F) x0 := rfl
theorem f_v1 (x0 : S1000000x3x2.Idx → Elt F .f32) :
    (shapeCast _ (val_main_v0 (F := F) x0) shapeCasts_S1000000x1x1_S1000000 : S1000000.Idx → Elt F .f32) = val_main_v1 (F := F) x0 := rfl
theorem f_v2 (x0 : S1000000x3x2.Idx → Elt F .f32) :
    (extractStridedSlice S1000000x1x1 ![0, 0, 1] (x0) slices_S1000000x3x2_S1000000x1x1_0_0_1 : S1000000x1x1.Idx → Elt F .f32) = val_main_v2 (F := F) x0 := rfl
theorem f_v3 (x0 : S1000000x3x2.Idx → Elt F .f32) :
    (shapeCast _ (val_main_v2 (F := F) x0) shapeCasts_S1000000x1x1_S1000000 : S1000000.Idx → Elt F .f32) = val_main_v3 (F := F) x0 := rfl
theorem f_v4 (x0 : S1000000x3x2.Idx → Elt F .f32) :
    (extractStridedSlice S1000000x1x1 ![0, 1, 0] (x0) slices_S1000000x3x2_S1000000x1x1_0_1_0 : S1000000x1x1.Idx → Elt F .f32) = val_main_v4 (F := F) x0 := rfl
theorem f_v5 (x0 : S1000000x3x2.Idx → Elt F .f32) :
    (shapeCast _ (val_main_v4 (F := F) x0) shapeCasts_S1000000x1x1_S1000000 : S1000000.Idx → Elt F .f32) = val_main_v5 (F := F) x0 := rfl
theorem f_v6 (x0 : S1000000x3x2.Idx → Elt F .f32) :
    (extractStridedSlice S1000000x1x1 ![0, 1, 1] (x0) slices_S1000000x3x2_S1000000x1x1_0_1_1 : S1000000x1x1.Idx → Elt F .f32) = val_main_v6 (F := F) x0 := rfl
theorem f_v7 (x0 : S1000000x3x2.Idx → Elt F .f32) :
    (shapeCast _ (val_main_v6 (F := F) x0) shapeCasts_S1000000x1x1_S1000000 : S1000000.Idx → Elt F .f32) = val_main_v7 (F := F) x0 := rfl
theorem f_v8 (x0 : S1000000x3x2.Idx → Elt F .f32) :
    (extractStridedSlice S1000000x1x1 ![0, 2, 0] (x0) slices_S1000000x3x2_S1000000x1x1_0_2_0 : S1000000x1x1.Idx → Elt F .f32) = val_main_v8 (F := F) x0 := rfl
theorem f_v9 (x0 : S1000000x3x2.Idx → Elt F .f32) :
    (shapeCast _ (val_main_v8 (F := F) x0) shapeCasts_S1000000x1x1_S1000000 : S1000000.Idx → Elt F .f32) = val_main_v9 (F := F) x0 := rfl
theorem f_v10 (x0 : S1000000x3x2.Idx → Elt F .f32) :
    (extractStridedSlice S1000000x1x1 ![0, 2, 1] (x0) slices_S1000000x3x2_S1000000x1x1_0_2_1 : S1000000x1x1.Idx → Elt F .f32) = val_main_v10 (F := F) x0 := rfl
theorem f_v11 (x0 : S1000000x3x2.Idx → Elt F .f32) :
    (shapeCast _ (val_main_v10 (F := F) x0) shapeCasts_S1000000x1x1_S1000000 : S1000000.Idx → Elt F .f32) = val_main_v11 (F := F) x0 := rfl
theorem f_v12 (x0 : S1000000x3x2.Idx → Elt F .f32) :
    (extractStridedSlice S1000000x1x2 ![0, 0, 0] (x0) slices_S1000000x3x2_S1000000x1x2_0_0_0 : S1000000x1x2.Idx → Elt F .f32) = val_main_v12 (F := F) x0 := rfl
theorem f_v13 (x0 : S1000000x3x2.Idx → Elt F .f32) :
    (shapeCast _ (val_main_v12 (F := F) x0) shapeCasts_S1000000x1x2_S1000000x2 : S1000000x2.Idx → Elt F .f32) = val_main_v13 (F := F) x0 := rfl
theorem f_v14 (x0 : S1000000x3x2.Idx → Elt F .f32) :
    (Host.log (val_main_v13 (F := F) x0) : S1000000x2.Idx → Elt F .f32) = val_main_v14 (F := F) x0 := rfl
theorem f_v15 (x0 : S1000000x3x2.Idx → Elt F .f32) :
    (extractStridedSlice S1000000x1x2 ![0, 1, 0] (x0) slices_S1000000x3x2_S1000000x1x2_0_1_0 : S1000000x1x2.Idx → Elt F .f32) = val_main_v15 (F := F) x0 := rfl
theorem f_v16 (x0 : S1000000x3x2.Idx → Elt F .f32) :
    (shapeCast _ (val_main_v15 (F := F) x0) shapeCasts_S1000000x1x2_S1000000x2 : S1000000x2.Idx → Elt F .f32) = val_main_v16 (F := F) x0 := rfl
theorem f_v17 (x0 : S1000000x3x2.Idx → Elt F .f32) :
    (Host.log (val_main_v16 (F := F) x0) : S1000000x2.Idx → Elt F .f32) = val_main_v17 (F := F) x0 := rfl
theorem f_v18 (x0 : S1000000x3x2.Idx → Elt F .f32) :
    (extractStridedSlice S1000000x1x2 ![0, 2, 0] (x0) slices_S1000000x3x2_S1000000x1x2_0_2_0 : S1000000x1x2.Idx → Elt F .f32) = val_main_v18 (F := F) x0 := rfl
theorem f_v19 (x0 : S1000000x3x2.Idx → Elt F .f32) :
    (shapeCast _ (val_main_v18 (F := F) x0) shapeCasts_S1000000x1x2_S1000000x2 : S1000000x2.Idx → Elt F .f32) = val_main_v19 (F := F) x0 := rfl
theorem f_v20 (x0 : S1000000x3x2.Idx → Elt F .f32) :
    (broadcastInDim S1000000x1x2 ![0, 2] bcast_S1000000x2_S1000000x1x2_0_2 (val_main_v14 (F := F) x0) : S1000000x1x2.Idx → Elt F .f32) = val_main_v20 (F := F) x0 := rfl
theorem f_v21 (x0 : S1000000x3x2.Idx → Elt F .f32) :
    (broadcastInDim S1000000x1x2 ![0, 2] bcast_S1000000x2_S1000000x1x2_0_2 (val_main_v17 (F := F) x0) : S1000000x1x2.Idx → Elt F .f32) = val_main_v21 (F := F) x0 := rfl
theorem f_v22 (x0 : S1000000x3x2.Idx → Elt F .f32) :
    (broadcastInDim S1000000x1x2 ![0, 2] bcast_S1000000x2_S1000000x1x2_0_2 (val_main_v19 (F := F) x0) : S1000000x1x2.Idx → Elt F .f32) = val_main_v22 (F := F) x0 := rfl
theorem f_v23 (x0 : S1000000x3x2.Idx → Elt F .f32) :
    cat3 (α := Elt F .f32) S1000000x1x2 S1000000x3x2 1 concatenates_S1000000x1x2_S1000000x1x2_S1000000x1x2_S1000000x3x2_d1 ((val_main_v20 (F := F) x0)) ((val_main_v21 (F := F) x0)) ((val_main_v22 (F := F) x0)) = val_main_v23 (F := F) x0 := rfl
theorem f_v24 (x0 : S1000000x3x2.Idx → Elt F .f32) :
    (shapeCast _ (val_main_v23 (F := F) x0) shapeCasts_S1000000x3x2_S1000000x6 : S1000000x6.Idx → Elt F .f32) = val_main_v24 (F := F) x0 := rfl
theorem f_v25 (x0 : S1000000x3x2.Idx → Elt F .f32) (x5 : S6x64.Idx → Elt F .f32) :
    (Host.dotGeneral dot_S1000000x6_S6x64_S1000000x64_1_0_0_1_n_n none (val_main_v24 (F := F) x0) (x5) : S1000000x64.Idx → Elt F .f32) = val_main_v25 (F := F) x0 x5 := rfl
theorem f_v26 (x6 : S64.Idx → Elt F .f32) :
    (broadcastInDim S1x64 ![1] bcast_S64_S1x64_1 (x6) : S1x64.Idx → Elt F .f32) = val_main_v26 (F := F) x6 := rfl
theorem f_v27 (x6 : S64.Idx → Elt F .f32) :
    (broadcastInDim S1000000x64 ![0, 1] bcast_S1x64_S1000000x64_0_1 (val_main_v26 (F := F) x6) : S1000000x64.Idx → Elt F .f32) = val_main_v27 (F := F) x6 := rfl
theorem f_v28 (x0 : S1000000x3x2.Idx → Elt F .f32) (x5 : S6x64.Idx → Elt F .f32) (x6 : S64.Idx → Elt F .f32) :
    (addf (val_main_v25 (F := F) x0 x5) (val_main_v27 (F := F) x6) : S1000000x64.Idx → Elt F .f32) = val_main_v28 (F := F) x0 x5 x6 := rfl
theorem f_v29 (x0 : S1000000x3x2.Idx → Elt F .f32) (x5 : S6x64.Idx → Elt F .f32) (x6 : S64.Idx → Elt F .f32) :
    (Host.tanh (val_main_v28 (F := F) x0 x5 x6) : S1000000x64.Idx → Elt F .f32) = val_main_v29 (F := F) x0 x5 x6 := rfl
theorem f_v30 (x0 : S1000000x3x2.Idx → Elt F .f32) (x5 : S6x64.Idx → Elt F .f32) (x6 : S64.Idx → Elt F .f32) (x7 : S64x64.Idx → Elt F .f32) :
    (Host.dotGeneral dot_S1000000x64_S64x64_S1000000x64_1_0_0_1_n_n none (val_main_v29 (F := F) x0 x5 x6) (x7) : S1000000x64.Idx → Elt F .f32) = val_main_v30 (F := F) x0 x5 x6 x7 := rfl
theorem f_v31 (x8 : S64.Idx → Elt F .f32) :
    (broadcastInDim S1x64 ![1] bcast_S64_S1x64_1 (x8) : S1x64.Idx → Elt F .f32) = val_main_v31 (F := F) x8 := rfl
theorem f_v32 (x8 : S64.Idx → Elt F .f32) :
    (broadcastInDim S1000000x64 ![0, 1] bcast_S1x64_S1000000x64_0_1 (val_main_v31 (F := F) x8) : S1000000x64.Idx → Elt F .f32) = val_main_v32 (F := F) x8 := rfl
theorem f_v33 (x0 : S1000000x3x2.Idx → Elt F .f32) (x5 : S6x64.Idx → Elt F .f32) (x6 : S64.Idx → Elt F .f32) (x7 : S64x64.Idx → Elt F .f32) (x8 : S64.Idx → Elt F .f32) :
    (addf (val_main_v30 (F := F) x0 x5 x6 x7) (val_main_v32 (F := F) x8) : S1000000x64.Idx → Elt F .f32) = val_main_v33 (F := F) x0 x5 x6 x7 x8 := rfl
theorem f_v34 (x0 : S1000000x3x2.Idx → Elt F .f32) (x5 : S6x64.Idx → Elt F .f32) (x6 : S64.Idx → Elt F .f32) (x7 : S64x64.Idx → Elt F .f32) (x8 : S64.Idx → Elt F .f32) :
    (Host.tanh (val_main_v33 (F := F) x0 x5 x6 x7 x8) : S1000000x64.Idx → Elt F .f32) = val_main_v34 (F := F) x0 x5 x6 x7 x8 := rfl
theorem f_v35 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) :
    (Host.dotGeneral dot_S1000000x64_S64x1_S1000000x1_1_0_0_1_n_n none (val_main_v34 (F := F) x0 x5 x6 x7 x8) (x9) : S1000000x1.Idx → Elt F .f32) = val_main_v35 (F := F) x0 x5 x6 x7 x8 x9 := rfl
theorem f_v36 (x10 : S1.Idx → Elt F .f32) :
    (broadcastInDim S1x1 ![1] bcast_S1_S1x1_1 (x10) : S1x1.Idx → Elt F .f32) = val_main_v36 (F := F) x10 := rfl
theorem f_v37 (x10 : S1.Idx → Elt F .f32) :
    (broadcastInDim S1000000x1 ![0, 1] bcast_S1x1_S1000000x1_0_1 (val_main_v36 (F := F) x10) : S1000000x1.Idx → Elt F .f32) = val_main_v37 (F := F) x10 := rfl
theorem f_v38 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v35 (F := F) x0 x5 x6 x7 x8 x9) (val_main_v37 (F := F) x10) : S1000000x1.Idx → Elt F .f32) = val_main_v38 (F := F) x0 x5 x6 x7 x8 x9 x10 := rfl
theorem f_v39 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (shapeCast _ (val_main_v38 (F := F) x0 x5 x6 x7 x8 x9 x10) shapeCasts_S1000000x1_S1000000 : S1000000.Idx → Elt F .f32) = val_main_v39 (F := F) x0 x5 x6 x7 x8 x9 x10 := rfl
theorem f_v40 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.negf (val_main_v39 (F := F) x0 x5 x6 x7 x8 x9 x10) : S1000000.Idx → Elt F .f32) = val_main_v40 (F := F) x0 x5 x6 x7 x8 x9 x10 := rfl
theorem f_v41 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.exp (val_main_v40 (F := F) x0 x5 x6 x7 x8 x9 x10) : S1000000.Idx → Elt F .f32) = val_main_v41 (F := F) x0 x5 x6 x7 x8 x9 x10 := rfl
theorem f_cst  :
    (constant S_ .f32 0x3F800000#32 : S_.Idx → Elt F .f32) = val_main_cst (F := F)  := rfl
theorem f_v42  :
    (broadcastInDim S1000000 ![] bcast_S_S1000000 (val_main_cst (F := F)) : S1000000.Idx → Elt F .f32) = val_main_v42 (F := F)  := rfl
theorem f_v43 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v42 (F := F)) (val_main_v41 (F := F) x0 x5 x6 x7 x8 x9 x10) : S1000000.Idx → Elt F .f32) = val_main_v43 (F := F) x0 x5 x6 x7 x8 x9 x10 := rfl
theorem f_v45 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v42 (F := F)) (val_main_v43 (F := F) x0 x5 x6 x7 x8 x9 x10) : S1000000.Idx → Elt F .f32) = val_main_v45 (F := F) x0 x5 x6 x7 x8 x9 x10 := rfl
theorem f_cst_1  :
    (constant S_ .f32 0x3F666666#32 : S_.Idx → Elt F .f32) = val_main_cst_1 (F := F)  := rfl
theorem f_v46  :
    (broadcastInDim S1000000 ![] bcast_S_S1000000 (val_main_cst_1 (F := F)) : S1000000.Idx → Elt F .f32) = val_main_v46 (F := F)  := rfl
theorem f_v47 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v46 (F := F)) (val_main_v45 (F := F) x0 x5 x6 x7 x8 x9 x10) : S1000000.Idx → Elt F .f32) = val_main_v47 (F := F) x0 x5 x6 x7 x8 x9 x10 := rfl
theorem f_v48 (x0 : S1000000x3x2.Idx → Elt F .f32) :
    (maximumf (val_main_v5 (F := F) x0) (val_main_v7 (F := F) x0) : S1000000.Idx → Elt F .f32) = val_main_v48 (F := F) x0 := rfl
theorem f_v50 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v42 (F := F)) (val_main_v47 (F := F) x0 x5 x6 x7 x8 x9 x10) : S1000000.Idx → Elt F .f32) = val_main_v50 (F := F) x0 x5 x6 x7 x8 x9 x10 := rfl
theorem f_v51 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v48 (F := F) x0) (val_main_v50 (F := F) x0 x5 x6 x7 x8 x9 x10) : S1000000.Idx → Elt F .f32) = val_main_v51 (F := F) x0 x5 x6 x7 x8 x9 x10 := rfl
theorem f_v53 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v42 (F := F)) (val_main_v47 (F := F) x0 x5 x6 x7 x8 x9 x10) : S1000000.Idx → Elt F .f32) = val_main_v53 (F := F) x0 x5 x6 x7 x8 x9 x10 := rfl
theorem f_v54 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v51 (F := F) x0 x5 x6 x7 x8 x9 x10) (val_main_v53 (F := F) x0 x5 x6 x7 x8 x9 x10) : S1000000.Idx → Elt F .f32) = val_main_v54 (F := F) x0 x5 x6 x7 x8 x9 x10 := rfl
theorem f_cst_4  :
    (constant S_ .f32 0x40200000#32 : S_.Idx → Elt F .f32) = val_main_cst_4 (F := F)  := rfl
theorem f_v55  :
    (broadcastInDim S1000000 ![] bcast_S_S1000000 (val_main_cst_4 (F := F)) : S1000000.Idx → Elt F .f32) = val_main_v55 (F := F)  := rfl
theorem f_v56 (x0 : S1000000x3x2.Idx → Elt F .f32) :
    (mulf (val_main_v55 (F := F)) (val_main_v5 (F := F) x0) : S1000000.Idx → Elt F .f32) = val_main_v56 (F := F) x0 := rfl
theorem f_v57 (x0 : S1000000x3x2.Idx → Elt F .f32) :
    (Host.divf (val_main_v56 (F := F) x0) (val_main_v1 (F := F) x0) : S1000000.Idx → Elt F .f32) = val_main_v57 (F := F) x0 := rfl
theorem f_v59 (x0 : S1000000x3x2.Idx → Elt F .f32) :
    (addf (val_main_v42 (F := F)) (val_main_v57 (F := F) x0) : S1000000.Idx → Elt F .f32) = val_main_v59 (F := F) x0 := rfl
theorem f_v60 (x0 : S1000000x3x2.Idx → Elt F .f32) :
    (mulf (val_main_v9 (F := F) x0) (val_main_v9 (F := F) x0) : S1000000.Idx → Elt F .f32) = val_main_v60 (F := F) x0 := rfl
theorem f_v62 (x0 : S1000000x3x2.Idx → Elt F .f32) :
    (subf (val_main_v42 (F := F)) (val_main_v60 (F := F) x0) : S1000000.Idx → Elt F .f32) = val_main_v62 (F := F) x0 := rfl
theorem f_v63 (x0 : S1000000x3x2.Idx → Elt F .f32) :
    (Host.sqrt (val_main_v62 (F := F) x0) : S1000000.Idx → Elt F .f32) = val_main_v63 (F := F) x0 := rfl
theorem f_v65 (x0 : S1000000x3x2.Idx → Elt F .f32) :
    (Host.divf (val_main_v42 (F := F)) (val_main_v63 (F := F) x0) : S1000000.Idx → Elt F .f32) = val_main_v65 (F := F) x0 := rfl
theorem f_v66 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v5 (F := F) x0) (val_main_v54 (F := F) x0 x5 x6 x7 x8 x9 x10) : S1000000.Idx → Elt F .f32) = val_main_v66 (F := F) x0 x5 x6 x7 x8 x9 x10 := rfl
theorem f_cst_8  :
    (constant S_ .f32 0x3F2AAAAB#32 : S_.Idx → Elt F .f32) = val_main_cst_8 (F := F)  := rfl
theorem f_v67  :
    (broadcastInDim S1000000 ![] bcast_S_S1000000 (val_main_cst_8 (F := F)) : S1000000.Idx → Elt F .f32) = val_main_v67 (F := F)  := rfl
theorem f_v68 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v67 (F := F)) (val_main_v66 (F := F) x0 x5 x6 x7 x8 x9 x10) : S1000000.Idx → Elt F .f32) = val_main_v68 (F := F) x0 x5 x6 x7 x8 x9 x10 := rfl
theorem f_cst_9  :
    (constant S_ .f32 0x3FD55555#32 : S_.Idx → Elt F .f32) = val_main_cst_9 (F := F)  := rfl
theorem f_v69  :
    (broadcastInDim S1000000 ![] bcast_S_S1000000 (val_main_cst_9 (F := F)) : S1000000.Idx → Elt F .f32) = val_main_v69 (F := F)  := rfl
theorem f_v70 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v69 (F := F)) (val_main_v54 (F := F) x0 x5 x6 x7 x8 x9 x10) : S1000000.Idx → Elt F .f32) = val_main_v70 (F := F) x0 x5 x6 x7 x8 x9 x10 := rfl
theorem f_v71 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v68 (F := F) x0 x5 x6 x7 x8 x9 x10) (val_main_v70 (F := F) x0 x5 x6 x7 x8 x9 x10) : S1000000.Idx → Elt F .f32) = val_main_v71 (F := F) x0 x5 x6 x7 x8 x9 x10 := rfl
theorem f_v73 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v42 (F := F)) (val_main_v71 (F := F) x0 x5 x6 x7 x8 x9 x10) : S1000000.Idx → Elt F .f32) = val_main_v73 (F := F) x0 x5 x6 x7 x8 x9 x10 := rfl
theorem f_cst_11  :
    (constant S_ .f32 0xBF2AAAAB#32 : S_.Idx → Elt F .f32) = val_main_cst_11 (F := F)  := rfl
theorem f_v74  :
    (broadcastInDim S1000000 ![] bcast_S_S1000000 (val_main_cst_11 (F := F)) : S1000000.Idx → Elt F .f32) = val_main_v74 (F := F)  := rfl
theorem f_v75 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v74 (F := F)) (val_main_v66 (F := F) x0 x5 x6 x7 x8 x9 x10) : S1000000.Idx → Elt F .f32) = val_main_v75 (F := F) x0 x5 x6 x7 x8 x9 x10 := rfl
theorem f_v78 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v75 (F := F) x0 x5 x6 x7 x8 x9 x10) (val_main_v70 (F := F) x0 x5 x6 x7 x8 x9 x10) : S1000000.Idx → Elt F .f32) = val_main_v78 (F := F) x0 x5 x6 x7 x8 x9 x10 := rfl
theorem f_v79 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v59 (F := F) x0) (val_main_v66 (F := F) x0 x5 x6 x7 x8 x9 x10) : S1000000.Idx → Elt F .f32) = val_main_v79 (F := F) x0 x5 x6 x7 x8 x9 x10 := rfl
theorem f_v80 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v79 (F := F) x0 x5 x6 x7 x8 x9 x10) (val_main_v1 (F := F) x0) : S1000000.Idx → Elt F .f32) = val_main_v80 (F := F) x0 x5 x6 x7 x8 x9 x10 := rfl
theorem f_v81 (x0 : S1000000x3x2.Idx → Elt F .f32) :
    (mulf (val_main_v59 (F := F) x0) (val_main_v59 (F := F) x0) : S1000000.Idx → Elt F .f32) = val_main_v81 (F := F) x0 := rfl
theorem f_v82 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v80 (F := F) x0 x5 x6 x7 x8 x9 x10) (val_main_v81 (F := F) x0) : S1000000.Idx → Elt F .f32) = val_main_v82 (F := F) x0 x5 x6 x7 x8 x9 x10 := rfl
theorem f_v83 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.negf (val_main_v78 (F := F) x0 x5 x6 x7 x8 x9 x10) : S1000000.Idx → Elt F .f32) = val_main_v83 (F := F) x0 x5 x6 x7 x8 x9 x10 := rfl
theorem f_v84 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v78 (F := F) x0 x5 x6 x7 x8 x9 x10) (val_main_v78 (F := F) x0 x5 x6 x7 x8 x9 x10) : S1000000.Idx → Elt F .f32) = val_main_v84 (F := F) x0 x5 x6 x7 x8 x9 x10 := rfl
theorem f_cst_13  :
    (constant S_ .f32 0x40800000#32 : S_.Idx → Elt F .f32) = val_main_cst_13 (F := F)  := rfl
theorem f_v85  :
    (broadcastInDim S1000000 ![] bcast_S_S1000000 (val_main_cst_13 (F := F)) : S1000000.Idx → Elt F .f32) = val_main_v85 (F := F)  := rfl
theorem f_v86 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v85 (F := F)) (val_main_v73 (F := F) x0 x5 x6 x7 x8 x9 x10) : S1000000.Idx → Elt F .f32) = val_main_v86 (F := F) x0 x5 x6 x7 x8 x9 x10 := rfl
theorem f_v87 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v86 (F := F) x0 x5 x6 x7 x8 x9 x10) (val_main_v82 (F := F) x0 x5 x6 x7 x8 x9 x10) : S1000000.Idx → Elt F .f32) = val_main_v87 (F := F) x0 x5 x6 x7 x8 x9 x10 := rfl
theorem f_v88 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v84 (F := F) x0 x5 x6 x7 x8 x9 x10) (val_main_v87 (F := F) x0 x5 x6 x7 x8 x9 x10) : S1000000.Idx → Elt F .f32) = val_main_v88 (F := F) x0 x5 x6 x7 x8 x9 x10 := rfl
theorem f_v89 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.sqrt (val_main_v88 (F := F) x0 x5 x6 x7 x8 x9 x10) : S1000000.Idx → Elt F .f32) = val_main_v89 (F := F) x0 x5 x6 x7 x8 x9 x10 := rfl
theorem f_v90 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v83 (F := F) x0 x5 x6 x7 x8 x9 x10) (val_main_v89 (F := F) x0 x5 x6 x7 x8 x9 x10) : S1000000.Idx → Elt F .f32) = val_main_v90 (F := F) x0 x5 x6 x7 x8 x9 x10 := rfl
theorem f_cst_14  :
    (constant S_ .f32 0x40000000#32 : S_.Idx → Elt F .f32) = val_main_cst_14 (F := F)  := rfl
theorem f_v91  :
    (broadcastInDim S1000000 ![] bcast_S_S1000000 (val_main_cst_14 (F := F)) : S1000000.Idx → Elt F .f32) = val_main_v91 (F := F)  := rfl
theorem f_v92 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v91 (F := F)) (val_main_v73 (F := F) x0 x5 x6 x7 x8 x9 x10) : S1000000.Idx → Elt F .f32) = val_main_v92 (F := F) x0 x5 x6 x7 x8 x9 x10 := rfl
theorem f_v93 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v90 (F := F) x0 x5 x6 x7 x8 x9 x10) (val_main_v92 (F := F) x0 x5 x6 x7 x8 x9 x10) : S1000000.Idx → Elt F .f32) = val_main_v93 (F := F) x0 x5 x6 x7 x8 x9 x10 := rfl
theorem f_v97 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v93 (F := F) x0 x5 x6 x7 x8 x9 x10) (val_main_v42 (F := F)) : S1000000.Idx → Elt F .f32) = val_main_v97 (F := F) x0 x5 x6 x7 x8 x9 x10 := rfl
theorem f_v99 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v67 (F := F)) (val_main_v97 (F := F) x0 x5 x6 x7 x8 x9 x10) : S1000000.Idx → Elt F .f32) = val_main_v99 (F := F) x0 x5 x6 x7 x8 x9 x10 := rfl
theorem f_v100 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v70 (F := F) x0 x5 x6 x7 x8 x9 x10) (val_main_v99 (F := F) x0 x5 x6 x7 x8 x9 x10) : S1000000.Idx → Elt F .f32) = val_main_v100 (F := F) x0 x5 x6 x7 x8 x9 x10 := rfl
theorem f_v102 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v67 (F := F)) (val_main_v100 (F := F) x0 x5 x6 x7 x8 x9 x10) : S1000000.Idx → Elt F .f32) = val_main_v102 (F := F) x0 x5 x6 x7 x8 x9 x10 := rfl
theorem f_v103 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v54 (F := F) x0 x5 x6 x7 x8 x9 x10) (val_main_v102 (F := F) x0 x5 x6 x7 x8 x9 x10) : S1000000.Idx → Elt F .f32) = val_main_v103 (F := F) x0 x5 x6 x7 x8 x9 x10 := rfl
theorem f_v104 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v54 (F := F) x0 x5 x6 x7 x8 x9 x10) (val_main_v5 (F := F) x0) : S1000000.Idx → Elt F .f32) = val_main_v104 (F := F) x0 x5 x6 x7 x8 x9 x10 := rfl
theorem f_v105 (x0 : S1000000x3x2.Idx → Elt F .f32) :
    (Host.divf (val_main_v59 (F := F) x0) (val_main_v1 (F := F) x0) : S1000000.Idx → Elt F .f32) = val_main_v105 (F := F) x0 := rfl
theorem f_v106 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v93 (F := F) x0 x5 x6 x7 x8 x9 x10) (val_main_v100 (F := F) x0 x5 x6 x7 x8 x9 x10) : S1000000.Idx → Elt F .f32) = val_main_v106 (F := F) x0 x5 x6 x7 x8 x9 x10 := rfl
theorem f_v107 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v105 (F := F) x0) (val_main_v106 (F := F) x0 x5 x6 x7 x8 x9 x10) : S1000000.Idx → Elt F .f32) = val_main_v107 (F := F) x0 x5 x6 x7 x8 x9 x10 := rfl
theorem f_cst_19  :
    (constant S_ .f32 0x1E3CE508#32 : S_.Idx → Elt F .f32) = val_main_cst_19 (F := F)  := rfl
theorem f_v108  :
    (broadcastInDim S1000000 ![] bcast_S_S1000000 (val_main_cst_19 (F := F)) : S1000000.Idx → Elt F .f32) = val_main_v108 (F := F)  := rfl
theorem f_v109 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (maximumf (val_main_v107 (F := F) x0 x5 x6 x7 x8 x9 x10) (val_main_v108 (F := F)) : S1000000.Idx → Elt F .f32) = val_main_v109 (F := F) x0 x5 x6 x7 x8 x9 x10 := rfl
theorem f_v110 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v104 (F := F) x0 x5 x6 x7 x8 x9 x10) (val_main_v109 (F := F) x0 x5 x6 x7 x8 x9 x10) : S1000000.Idx → Elt F .f32) = val_main_v110 (F := F) x0 x5 x6 x7 x8 x9 x10 := rfl
theorem f_v112 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (maximumf (val_main_v110 (F := F) x0 x5 x6 x7 x8 x9 x10) (val_main_v108 (F := F)) : S1000000.Idx → Elt F .f32) = val_main_v112 (F := F) x0 x5 x6 x7 x8 x9 x10 := rfl
theorem f_v113 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.sqrt (val_main_v112 (F := F) x0 x5 x6 x7 x8 x9 x10) : S1000000.Idx → Elt F .f32) = val_main_v113 (F := F) x0 x5 x6 x7 x8 x9 x10 := rfl
theorem f_v114 (x0 : S1000000x3x2.Idx → Elt F .f32) :
    (mulf (val_main_v1 (F := F) x0) (val_main_v65 (F := F) x0) : S1000000.Idx → Elt F .f32) = val_main_v114 (F := F) x0 := rfl
theorem f_v115 (x0 : S1000000x3x2.Idx → Elt F .f32) :
    (mulf (val_main_v114 (F := F) x0) (val_main_v114 (F := F) x0) : S1000000.Idx → Elt F .f32) = val_main_v115 (F := F) x0 := rfl
theorem f_v116 (x0 : S1000000x3x2.Idx → Elt F .f32) :
    (mulf (val_main_v115 (F := F) x0) (val_main_v9 (F := F) x0) : S1000000.Idx → Elt F .f32) = val_main_v116 (F := F) x0 := rfl
theorem f_cst_21  :
    (constant S_ .f32 0xBF800000#32 : S_.Idx → Elt F .f32) = val_main_cst_21 (F := F)  := rfl
theorem f_v117  :
    (broadcastInDim S1000000 ![] bcast_S_S1000000 (val_main_cst_21 (F := F)) : S1000000.Idx → Elt F .f32) = val_main_v117 (F := F)  := rfl
theorem f_v118 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v117 (F := F)) (val_main_v113 (F := F) x0 x5 x6 x7 x8 x9 x10) : S1000000.Idx → Elt F .f32) = val_main_v118 (F := F) x0 x5 x6 x7 x8 x9 x10 := rfl
theorem f_v119 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v113 (F := F) x0 x5 x6 x7 x8 x9 x10) (val_main_v113 (F := F) x0 x5 x6 x7 x8 x9 x10) : S1000000.Idx → Elt F .f32) = val_main_v119 (F := F) x0 x5 x6 x7 x8 x9 x10 := rfl
theorem f_v123 (x0 : S1000000x3x2.Idx → Elt F .f32) :
    (mulf (val_main_v115 (F := F) x0) (val_main_v62 (F := F) x0) : S1000000.Idx → Elt F .f32) = val_main_v123 (F := F) x0 := rfl
theorem f_v124 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v119 (F := F) x0 x5 x6 x7 x8 x9 x10) (val_main_v123 (F := F) x0) : S1000000.Idx → Elt F .f32) = val_main_v124 (F := F) x0 x5 x6 x7 x8 x9 x10 := rfl
theorem f_v125 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.sqrt (val_main_v124 (F := F) x0 x5 x6 x7 x8 x9 x10) : S1000000.Idx → Elt F .f32) = val_main_v125 (F := F) x0 x5 x6 x7 x8 x9 x10 := rfl
theorem f_v126 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v118 (F := F) x0 x5 x6 x7 x8 x9 x10) (val_main_v125 (F := F) x0 x5 x6 x7 x8 x9 x10) : S1000000.Idx → Elt F .f32) = val_main_v126 (F := F) x0 x5 x6 x7 x8 x9 x10 := rfl
theorem f_v127 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v116 (F := F) x0) (val_main_v126 (F := F) x0 x5 x6 x7 x8 x9 x10) : S1000000.Idx → Elt F .f32) = val_main_v127 (F := F) x0 x5 x6 x7 x8 x9 x10 := rfl
theorem f_v129 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v115 (F := F) x0) (val_main_v119 (F := F) x0 x5 x6 x7 x8 x9 x10) : S1000000.Idx → Elt F .f32) = val_main_v129 (F := F) x0 x5 x6 x7 x8 x9 x10 := rfl
theorem f_v130 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v127 (F := F) x0 x5 x6 x7 x8 x9 x10) (val_main_v129 (F := F) x0 x5 x6 x7 x8 x9 x10) : S1000000.Idx → Elt F .f32) = val_main_v130 (F := F) x0 x5 x6 x7 x8 x9 x10 := rfl
theorem f_v131 (x0 : S1000000x3x2.Idx → Elt F .f32) :
    (mulf (val_main_v59 (F := F) x0) (val_main_v65 (F := F) x0) : S1000000.Idx → Elt F .f32) = val_main_v131 (F := F) x0 := rfl
theorem f_v132 (x0 : S1000000x3x2.Idx → Elt F .f32) :
    (mulf (val_main_v131 (F := F) x0) (val_main_v9 (F := F) x0) : S1000000.Idx → Elt F .f32) = val_main_v132 (F := F) x0 := rfl
theorem f_v135 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v117 (F := F)) (val_main_v104 (F := F) x0 x5 x6 x7 x8 x9 x10) : S1000000.Idx → Elt F .f32) = val_main_v135 (F := F) x0 x5 x6 x7 x8 x9 x10 := rfl
theorem f_v136 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v135 (F := F) x0 x5 x6 x7 x8 x9 x10) (val_main_v113 (F := F) x0 x5 x6 x7 x8 x9 x10) : S1000000.Idx → Elt F .f32) = val_main_v136 (F := F) x0 x5 x6 x7 x8 x9 x10 := rfl
theorem f_v137 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v132 (F := F) x0) (val_main_v136 (F := F) x0 x5 x6 x7 x8 x9 x10) : S1000000.Idx → Elt F .f32) = val_main_v137 (F := F) x0 x5 x6 x7 x8 x9 x10 := rfl
theorem f_v142 (x0 : S1000000x3x2.Idx → Elt F .f32) :
    (Host.divf (val_main_v42 (F := F)) (val_main_v114 (F := F) x0) : S1000000.Idx → Elt F .f32) = val_main_v142 (F := F) x0 := rfl
theorem f_v144 (x0 : S1000000x3x2.Idx → Elt F .f32) :
    (mulf (val_main_v117 (F := F)) (val_main_v9 (F := F) x0) : S1000000.Idx → Elt F .f32) = val_main_v144 (F := F) x0 := rfl
theorem f_v145 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v144 (F := F) x0) (val_main_v113 (F := F) x0 x5 x6 x7 x8 x9 x10) : S1000000.Idx → Elt F .f32) = val_main_v145 (F := F) x0 x5 x6 x7 x8 x9 x10 := rfl
theorem f_v146 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v142 (F := F) x0) (val_main_v145 (F := F) x0 x5 x6 x7 x8 x9 x10) : S1000000.Idx → Elt F .f32) = val_main_v146 (F := F) x0 x5 x6 x7 x8 x9 x10 := rfl
theorem f_v147 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v104 (F := F) x0 x5 x6 x7 x8 x9 x10) (val_main_v146 (F := F) x0 x5 x6 x7 x8 x9 x10) : S1000000.Idx → Elt F .f32) = val_main_v147 (F := F) x0 x5 x6 x7 x8 x9 x10 := rfl
theorem f_v148 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v131 (F := F) x0) (val_main_v147 (F := F) x0 x5 x6 x7 x8 x9 x10) : S1000000.Idx → Elt F .f32) = val_main_v148 (F := F) x0 x5 x6 x7 x8 x9 x10 := rfl
theorem f_v149 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v137 (F := F) x0 x5 x6 x7 x8 x9 x10) (val_main_v148 (F := F) x0 x5 x6 x7 x8 x9 x10) : S1000000.Idx → Elt F .f32) = val_main_v149 (F := F) x0 x5 x6 x7 x8 x9 x10 := rfl
theorem f_v152 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v100 (F := F) x0 x5 x6 x7 x8 x9 x10) (val_main_v93 (F := F) x0 x5 x6 x7 x8 x9 x10) : S1000000.Idx → Elt F .f32) = val_main_v152 (F := F) x0 x5 x6 x7 x8 x9 x10 := rfl
theorem f_v153 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v70 (F := F) x0 x5 x6 x7 x8 x9 x10) (val_main_v152 (F := F) x0 x5 x6 x7 x8 x9 x10) : S1000000.Idx → Elt F .f32) = val_main_v153 (F := F) x0 x5 x6 x7 x8 x9 x10 := rfl
theorem f_v154 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.sqrt (val_main_v153 (F := F) x0 x5 x6 x7 x8 x9 x10) : S1000000.Idx → Elt F .f32) = val_main_v154 (F := F) x0 x5 x6 x7 x8 x9 x10 := rfl
theorem f_v156 (x0 : S1000000x3x2.Idx → Elt F .f32) :
    (mulf (val_main_v55 (F := F)) (val_main_v7 (F := F) x0) : S1000000.Idx → Elt F .f32) = val_main_v156 (F := F) x0 := rfl
theorem f_v157 (x0 : S1000000x3x2.Idx → Elt F .f32) :
    (Host.divf (val_main_v156 (F := F) x0) (val_main_v3 (F := F) x0) : S1000000.Idx → Elt F .f32) = val_main_v157 (F := F) x0 := rfl
theorem f_v159 (x0 : S1000000x3x2.Idx → Elt F .f32) :
    (addf (val_main_v42 (F := F)) (val_main_v157 (F := F) x0) : S1000000.Idx → Elt F .f32) = val_main_v159 (F := F) x0 := rfl
theorem f_v160 (x0 : S1000000x3x2.Idx → Elt F .f32) :
    (mulf (val_main_v11 (F := F) x0) (val_main_v11 (F := F) x0) : S1000000.Idx → Elt F .f32) = val_main_v160 (F := F) x0 := rfl
theorem f_v162 (x0 : S1000000x3x2.Idx → Elt F .f32) :
    (subf (val_main_v42 (F := F)) (val_main_v160 (F := F) x0) : S1000000.Idx → Elt F .f32) = val_main_v162 (F := F) x0 := rfl
theorem f_v163 (x0 : S1000000x3x2.Idx → Elt F .f32) :
    (Host.sqrt (val_main_v162 (F := F) x0) : S1000000.Idx → Elt F .f32) = val_main_v163 (F := F) x0 := rfl
theorem f_v165 (x0 : S1000000x3x2.Idx → Elt F .f32) :
    (Host.divf (val_main_v42 (F := F)) (val_main_v163 (F := F) x0) : S1000000.Idx → Elt F .f32) = val_main_v165 (F := F) x0 := rfl
theorem f_v166 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v7 (F := F) x0) (val_main_v54 (F := F) x0 x5 x6 x7 x8 x9 x10) : S1000000.Idx → Elt F .f32) = val_main_v166 (F := F) x0 x5 x6 x7 x8 x9 x10 := rfl
theorem f_v168 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v67 (F := F)) (val_main_v166 (F := F) x0 x5 x6 x7 x8 x9 x10) : S1000000.Idx → Elt F .f32) = val_main_v168 (F := F) x0 x5 x6 x7 x8 x9 x10 := rfl
theorem f_v171 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v168 (F := F) x0 x5 x6 x7 x8 x9 x10) (val_main_v70 (F := F) x0 x5 x6 x7 x8 x9 x10) : S1000000.Idx → Elt F .f32) = val_main_v171 (F := F) x0 x5 x6 x7 x8 x9 x10 := rfl
theorem f_v173 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v42 (F := F)) (val_main_v171 (F := F) x0 x5 x6 x7 x8 x9 x10) : S1000000.Idx → Elt F .f32) = val_main_v173 (F := F) x0 x5 x6 x7 x8 x9 x10 := rfl
theorem f_v175 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v74 (F := F)) (val_main_v166 (F := F) x0 x5 x6 x7 x8 x9 x10) : S1000000.Idx → Elt F .f32) = val_main_v175 (F := F) x0 x5 x6 x7 x8 x9 x10 := rfl
theorem f_v178 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v175 (F := F) x0 x5 x6 x7 x8 x9 x10) (val_main_v70 (F := F) x0 x5 x6 x7 x8 x9 x10) : S1000000.Idx → Elt F .f32) = val_main_v178 (F := F) x0 x5 x6 x7 x8 x9 x10 := rfl
theorem f_v179 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v159 (F := F) x0) (val_main_v166 (F := F) x0 x5 x6 x7 x8 x9 x10) : S1000000.Idx → Elt F .f32) = val_main_v179 (F := F) x0 x5 x6 x7 x8 x9 x10 := rfl
theorem f_v180 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v179 (F := F) x0 x5 x6 x7 x8 x9 x10) (val_main_v3 (F := F) x0) : S1000000.Idx → Elt F .f32) = val_main_v180 (F := F) x0 x5 x6 x7 x8 x9 x10 := rfl
theorem f_v181 (x0 : S1000000x3x2.Idx → Elt F .f32) :
    (mulf (val_main_v159 (F := F) x0) (val_main_v159 (F := F) x0) : S1000000.Idx → Elt F .f32) = val_main_v181 (F := F) x0 := rfl
theorem f_v182 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v180 (F := F) x0 x5 x6 x7 x8 x9 x10) (val_main_v181 (F := F) x0) : S1000000.Idx → Elt F .f32) = val_main_v182 (F := F) x0 x5 x6 x7 x8 x9 x10 := rfl
theorem f_v183 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.negf (val_main_v178 (F := F) x0 x5 x6 x7 x8 x9 x10) : S1000000.Idx → Elt F .f32) = val_main_v183 (F := F) x0 x5 x6 x7 x8 x9 x10 := rfl
theorem f_v184 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v178 (F := F) x0 x5 x6 x7 x8 x9 x10) (val_main_v178 (F := F) x0 x5 x6 x7 x8 x9 x10) : S1000000.Idx → Elt F .f32) = val_main_v184 (F := F) x0 x5 x6 x7 x8 x9 x10 := rfl
theorem f_v186 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v85 (F := F)) (val_main_v173 (F := F) x0 x5 x6 x7 x8 x9 x10) : S1000000.Idx → Elt F .f32) = val_main_v186 (F := F) x0 x5 x6 x7 x8 x9 x10 := rfl
theorem f_v187 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v186 (F := F) x0 x5 x6 x7 x8 x9 x10) (val_main_v182 (F := F) x0 x5 x6 x7 x8 x9 x10) : S1000000.Idx → Elt F .f32) = val_main_v187 (F := F) x0 x5 x6 x7 x8 x9 x10 := rfl
theorem f_v188 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v184 (F := F) x0 x5 x6 x7 x8 x9 x10) (val_main_v187 (F := F) x0 x5 x6 x7 x8 x9 x10) : S1000000.Idx → Elt F .f32) = val_main_v188 (F := F) x0 x5 x6 x7 x8 x9 x10 := rfl
theorem f_v189 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.sqrt (val_main_v188 (F := F) x0 x5 x6 x7 x8 x9 x10) : S1000000.Idx → Elt F .f32) = val_main_v189 (F := F) x0 x5 x6 x7 x8 x9 x10 := rfl
theorem f_v190 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v183 (F := F) x0 x5 x6 x7 x8 x9 x10) (val_main_v189 (F := F) x0 x5 x6 x7 x8 x9 x10) : S1000000.Idx → Elt F .f32) = val_main_v190 (F := F) x0 x5 x6 x7 x8 x9 x10 := rfl
theorem f_v192 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v91 (F := F)) (val_main_v173 (F := F) x0 x5 x6 x7 x8 x9 x10) : S1000000.Idx → Elt F .f32) = val_main_v192 (F := F) x0 x5 x6 x7 x8 x9 x10 := rfl
theorem f_v193 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v190 (F := F) x0 x5 x6 x7 x8 x9 x10) (val_main_v192 (F := F) x0 x5 x6 x7 x8 x9 x10) : S1000000.Idx → Elt F .f32) = val_main_v193 (F := F) x0 x5 x6 x7 x8 x9 x10 := rfl
theorem f_v197 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v193 (F := F) x0 x5 x6 x7 x8 x9 x10) (val_main_v42 (F := F)) : S1000000.Idx → Elt F .f32) = val_main_v197 (F := F) x0 x5 x6 x7 x8 x9 x10 := rfl
theorem f_v199 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v67 (F := F)) (val_main_v197 (F := F) x0 x5 x6 x7 x8 x9 x10) : S1000000.Idx → Elt F .f32) = val_main_v199 (F := F) x0 x5 x6 x7 x8 x9 x10 := rfl
theorem f_v200 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v70 (F := F) x0 x5 x6 x7 x8 x9 x10) (val_main_v199 (F := F) x0 x5 x6 x7 x8 x9 x10) : S1000000.Idx → Elt F .f32) = val_main_v200 (F := F) x0 x5 x6 x7 x8 x9 x10 := rfl
theorem f_v202 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v67 (F := F)) (val_main_v200 (F := F) x0 x5 x6 x7 x8 x9 x10) : S1000000.Idx → Elt F .f32) = val_main_v202 (F := F) x0 x5 x6 x7 x8 x9 x10 := rfl
theorem f_v203 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v54 (F := F) x0 x5 x6 x7 x8 x9 x10) (val_main_v202 (F := F) x0 x5 x6 x7 x8 x9 x10) : S1000000.Idx → Elt F .f32) = val_main_v203 (F := F) x0 x5 x6 x7 x8 x9 x10 := rfl
theorem f_v204 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v54 (F := F) x0 x5 x6 x7 x8 x9 x10) (val_main_v7 (F := F) x0) : S1000000.Idx → Elt F .f32) = val_main_v204 (F := F) x0 x5 x6 x7 x8 x9 x10 := rfl
theorem f_v205 (x0 : S1000000x3x2.Idx → Elt F .f32) :
    (Host.divf (val_main_v159 (F := F) x0) (val_main_v3 (F := F) x0) : S1000000.Idx → Elt F .f32) = val_main_v205 (F := F) x0 := rfl
theorem f_v206 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v193 (F := F) x0 x5 x6 x7 x8 x9 x10) (val_main_v200 (F := F) x0 x5 x6 x7 x8 x9 x10) : S1000000.Idx → Elt F .f32) = val_main_v206 (F := F) x0 x5 x6 x7 x8 x9 x10 := rfl
theorem f_v207 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v205 (F := F) x0) (val_main_v206 (F := F) x0 x5 x6 x7 x8 x9 x10) : S1000000.Idx → Elt F .f32) = val_main_v207 (F := F) x0 x5 x6 x7 x8 x9 x10 := rfl
theorem f_v209 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (maximumf (val_main_v207 (F := F) x0 x5 x6 x7 x8 x9 x10) (val_main_v108 (F := F)) : S1000000.Idx → Elt F .f32) = val_main_v209 (F := F) x0 x5 x6 x7 x8 x9 x10 := rfl
theorem f_v210 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v204 (F := F) x0 x5 x6 x7 x8 x9 x10) (val_main_v209 (F := F) x0 x5 x6 x7 x8 x9 x10) : S1000000.Idx → Elt F .f32) = val_main_v210 (F := F) x0 x5 x6 x7 x8 x9 x10 := rfl
theorem f_v212 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (maximumf (val_main_v210 (F := F) x0 x5 x6 x7 x8 x9 x10) (val_main_v108 (F := F)) : S1000000.Idx → Elt F .f32) = val_main_v212 (F := F) x0 x5 x6 x7 x8 x9 x10 := rfl
theorem f_v213 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.sqrt (val_main_v212 (F := F) x0 x5 x6 x7 x8 x9 x10) : S1000000.Idx → Elt F .f32) = val_main_v213 (F := F) x0 x5 x6 x7 x8 x9 x10 := rfl
theorem f_v214 (x0 : S1000000x3x2.Idx → Elt F .f32) :
    (mulf (val_main_v3 (F := F) x0) (val_main_v165 (F := F) x0) : S1000000.Idx → Elt F .f32) = val_main_v214 (F := F) x0 := rfl
theorem f_v215 (x0 : S1000000x3x2.Idx → Elt F .f32) :
    (mulf (val_main_v214 (F := F) x0) (val_main_v214 (F := F) x0) : S1000000.Idx → Elt F .f32) = val_main_v215 (F := F) x0 := rfl
theorem f_v216 (x0 : S1000000x3x2.Idx → Elt F .f32) :
    (mulf (val_main_v215 (F := F) x0) (val_main_v11 (F := F) x0) : S1000000.Idx → Elt F .f32) = val_main_v216 (F := F) x0 := rfl
theorem f_v218 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v42 (F := F)) (val_main_v213 (F := F) x0 x5 x6 x7 x8 x9 x10) : S1000000.Idx → Elt F .f32) = val_main_v218 (F := F) x0 x5 x6 x7 x8 x9 x10 := rfl
theorem f_v219 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v213 (F := F) x0 x5 x6 x7 x8 x9 x10) (val_main_v213 (F := F) x0 x5 x6 x7 x8 x9 x10) : S1000000.Idx → Elt F .f32) = val_main_v219 (F := F) x0 x5 x6 x7 x8 x9 x10 := rfl
theorem f_v223 (x0 : S1000000x3x2.Idx → Elt F .f32) :
    (mulf (val_main_v215 (F := F) x0) (val_main_v162 (F := F) x0) : S1000000.Idx → Elt F .f32) = val_main_v223 (F := F) x0 := rfl
theorem f_v224 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v219 (F := F) x0 x5 x6 x7 x8 x9 x10) (val_main_v223 (F := F) x0) : S1000000.Idx → Elt F .f32) = val_main_v224 (F := F) x0 x5 x6 x7 x8 x9 x10 := rfl
theorem f_v225 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.sqrt (val_main_v224 (F := F) x0 x5 x6 x7 x8 x9 x10) : S1000000.Idx → Elt F .f32) = val_main_v225 (F := F) x0 x5 x6 x7 x8 x9 x10 := rfl
theorem f_v226 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v218 (F := F) x0 x5 x6 x7 x8 x9 x10) (val_main_v225 (F := F) x0 x5 x6 x7 x8 x9 x10) : S1000000.Idx → Elt F .f32) = val_main_v226 (F := F) x0 x5 x6 x7 x8 x9 x10 := rfl
theorem f_v227 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v216 (F := F) x0) (val_main_v226 (F := F) x0 x5 x6 x7 x8 x9 x10) : S1000000.Idx → Elt F .f32) = val_main_v227 (F := F) x0 x5 x6 x7 x8 x9 x10 := rfl
theorem f_v229 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v215 (F := F) x0) (val_main_v219 (F := F) x0 x5 x6 x7 x8 x9 x10) : S1000000.Idx → Elt F .f32) = val_main_v229 (F := F) x0 x5 x6 x7 x8 x9 x10 := rfl
theorem f_v230 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v227 (F := F) x0 x5 x6 x7 x8 x9 x10) (val_main_v229 (F := F) x0 x5 x6 x7 x8 x9 x10) : S1000000.Idx → Elt F .f32) = val_main_v230 (F := F) x0 x5 x6 x7 x8 x9 x10 := rfl
theorem f_v231 (x0 : S1000000x3x2.Idx → Elt F .f32) :
    (mulf (val_main_v159 (F := F) x0) (val_main_v165 (F := F) x0) : S1000000.Idx → Elt F .f32) = val_main_v231 (F := F) x0 := rfl
theorem f_v232 (x0 : S1000000x3x2.Idx → Elt F .f32) :
    (mulf (val_main_v231 (F := F) x0) (val_main_v11 (F := F) x0) : S1000000.Idx → Elt F .f32) = val_main_v232 (F := F) x0 := rfl
theorem f_v235 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v42 (F := F)) (val_main_v204 (F := F) x0 x5 x6 x7 x8 x9 x10) : S1000000.Idx → Elt F .f32) = val_main_v235 (F := F) x0 x5 x6 x7 x8 x9 x10 := rfl
theorem f_v236 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v235 (F := F) x0 x5 x6 x7 x8 x9 x10) (val_main_v213 (F := F) x0 x5 x6 x7 x8 x9 x10) : S1000000.Idx → Elt F .f32) = val_main_v236 (F := F) x0 x5 x6 x7 x8 x9 x10 := rfl
theorem f_v237 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v232 (F := F) x0) (val_main_v236 (F := F) x0 x5 x6 x7 x8 x9 x10) : S1000000.Idx → Elt F .f32) = val_main_v237 (F := F) x0 x5 x6 x7 x8 x9 x10 := rfl
theorem f_v242 (x0 : S1000000x3x2.Idx → Elt F .f32) :
    (Host.divf (val_main_v42 (F := F)) (val_main_v214 (F := F) x0) : S1000000.Idx → Elt F .f32) = val_main_v242 (F := F) x0 := rfl
theorem f_v244 (x0 : S1000000x3x2.Idx → Elt F .f32) :
    (mulf (val_main_v42 (F := F)) (val_main_v11 (F := F) x0) : S1000000.Idx → Elt F .f32) = val_main_v244 (F := F) x0 := rfl
theorem f_v245 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v244 (F := F) x0) (val_main_v213 (F := F) x0 x5 x6 x7 x8 x9 x10) : S1000000.Idx → Elt F .f32) = val_main_v245 (F := F) x0 x5 x6 x7 x8 x9 x10 := rfl
theorem f_v246 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v242 (F := F) x0) (val_main_v245 (F := F) x0 x5 x6 x7 x8 x9 x10) : S1000000.Idx → Elt F .f32) = val_main_v246 (F := F) x0 x5 x6 x7 x8 x9 x10 := rfl
theorem f_v247 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v204 (F := F) x0 x5 x6 x7 x8 x9 x10) (val_main_v246 (F := F) x0 x5 x6 x7 x8 x9 x10) : S1000000.Idx → Elt F .f32) = val_main_v247 (F := F) x0 x5 x6 x7 x8 x9 x10 := rfl
theorem f_v248 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v231 (F := F) x0) (val_main_v247 (F := F) x0 x5 x6 x7 x8 x9 x10) : S1000000.Idx → Elt F .f32) = val_main_v248 (F := F) x0 x5 x6 x7 x8 x9 x10 := rfl
theorem f_v249 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v237 (F := F) x0 x5 x6 x7 x8 x9 x10) (val_main_v248 (F := F) x0 x5 x6 x7 x8 x9 x10) : S1000000.Idx → Elt F .f32) = val_main_v249 (F := F) x0 x5 x6 x7 x8 x9 x10 := rfl
theorem f_v252 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v200 (F := F) x0 x5 x6 x7 x8 x9 x10) (val_main_v193 (F := F) x0 x5 x6 x7 x8 x9 x10) : S1000000.Idx → Elt F .f32) = val_main_v252 (F := F) x0 x5 x6 x7 x8 x9 x10 := rfl
theorem f_v253 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v70 (F := F) x0 x5 x6 x7 x8 x9 x10) (val_main_v252 (F := F) x0 x5 x6 x7 x8 x9 x10) : S1000000.Idx → Elt F .f32) = val_main_v253 (F := F) x0 x5 x6 x7 x8 x9 x10 := rfl
theorem f_v254 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.sqrt (val_main_v253 (F := F) x0 x5 x6 x7 x8 x9 x10) : S1000000.Idx → Elt F .f32) = val_main_v254 (F := F) x0 x5 x6 x7 x8 x9 x10 := rfl
theorem f_v255 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v249 (F := F) x0 x5 x6 x7 x8 x9 x10) (val_main_v149 (F := F) x0 x5 x6 x7 x8 x9 x10) : S1000000.Idx → Elt F .f32) = val_main_v255 (F := F) x0 x5 x6 x7 x8 x9 x10 := rfl
theorem f_cst_50  :
    (constant S_ .f32 0x3F000000#32 : S_.Idx → Elt F .f32) = val_main_cst_50 (F := F)  := rfl
theorem f_v256  :
    (broadcastInDim S1000000 ![] bcast_S_S1000000 (val_main_cst_50 (F := F)) : S1000000.Idx → Elt F .f32) = val_main_v256 (F := F)  := rfl
theorem f_v257 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v256 (F := F)) (val_main_v255 (F := F) x0 x5 x6 x7 x8 x9 x10) : S1000000.Idx → Elt F .f32) = val_main_v257 (F := F) x0 x5 x6 x7 x8 x9 x10 := rfl
theorem f_v258 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v257 (F := F) x0 x5 x6 x7 x8 x9 x10) (val_main_v257 (F := F) x0 x5 x6 x7 x8 x9 x10) : S1000000.Idx → Elt F .f32) = val_main_v258 (F := F) x0 x5 x6 x7 x8 x9 x10 := rfl
theorem f_v260 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v42 (F := F)) (val_main_v258 (F := F) x0 x5 x6 x7 x8 x9 x10) : S1000000.Idx → Elt F .f32) = val_main_v260 (F := F) x0 x5 x6 x7 x8 x9 x10 := rfl
theorem f_v261 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.sqrt (val_main_v260 (F := F) x0 x5 x6 x7 x8 x9 x10) : S1000000.Idx → Elt F .f32) = val_main_v261 (F := F) x0 x5 x6 x7 x8 x9 x10 := rfl
theorem f_v263 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (Host.divf (val_main_v42 (F := F)) (val_main_v261 (F := F) x0 x5 x6 x7 x8 x9 x10) : S1000000.Idx → Elt F .f32) = val_main_v263 (F := F) x0 x5 x6 x7 x8 x9 x10 := rfl
theorem f_v264 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v263 (F := F) x0 x5 x6 x7 x8 x9 x10) (val_main_v100 (F := F) x0 x5 x6 x7 x8 x9 x10) : S1000000.Idx → Elt F .f32) = val_main_v264 (F := F) x0 x5 x6 x7 x8 x9 x10 := rfl
theorem f_v265 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v263 (F := F) x0 x5 x6 x7 x8 x9 x10) (val_main_v200 (F := F) x0 x5 x6 x7 x8 x9 x10) : S1000000.Idx → Elt F .f32) = val_main_v265 (F := F) x0 x5 x6 x7 x8 x9 x10 := rfl
theorem f_v266 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v264 (F := F) x0 x5 x6 x7 x8 x9 x10) (val_main_v257 (F := F) x0 x5 x6 x7 x8 x9 x10) : S1000000.Idx → Elt F .f32) = val_main_v266 (F := F) x0 x5 x6 x7 x8 x9 x10 := rfl
theorem f_v267 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v263 (F := F) x0 x5 x6 x7 x8 x9 x10) (val_main_v93 (F := F) x0 x5 x6 x7 x8 x9 x10) : S1000000.Idx → Elt F .f32) = val_main_v267 (F := F) x0 x5 x6 x7 x8 x9 x10 := rfl
theorem f_v269 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v267 (F := F) x0 x5 x6 x7 x8 x9 x10) (val_main_v42 (F := F)) : S1000000.Idx → Elt F .f32) = val_main_v269 (F := F) x0 x5 x6 x7 x8 x9 x10 := rfl
theorem f_v270 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v264 (F := F) x0 x5 x6 x7 x8 x9 x10) (val_main_v269 (F := F) x0 x5 x6 x7 x8 x9 x10) : S1000000.Idx → Elt F .f32) = val_main_v270 (F := F) x0 x5 x6 x7 x8 x9 x10 := rfl
theorem f_v271 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v270 (F := F) x0 x5 x6 x7 x8 x9 x10) (val_main_v257 (F := F) x0 x5 x6 x7 x8 x9 x10) : S1000000.Idx → Elt F .f32) = val_main_v271 (F := F) x0 x5 x6 x7 x8 x9 x10 := rfl
theorem f_v272 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v263 (F := F) x0 x5 x6 x7 x8 x9 x10) (val_main_v263 (F := F) x0 x5 x6 x7 x8 x9 x10) : S1000000.Idx → Elt F .f32) = val_main_v272 (F := F) x0 x5 x6 x7 x8 x9 x10 := rfl
theorem f_v273 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v272 (F := F) x0 x5 x6 x7 x8 x9 x10) (val_main_v100 (F := F) x0 x5 x6 x7 x8 x9 x10) : S1000000.Idx → Elt F .f32) = val_main_v273 (F := F) x0 x5 x6 x7 x8 x9 x10 := rfl
theorem f_v274 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v273 (F := F) x0 x5 x6 x7 x8 x9 x10) (val_main_v93 (F := F) x0 x5 x6 x7 x8 x9 x10) : S1000000.Idx → Elt F .f32) = val_main_v274 (F := F) x0 x5 x6 x7 x8 x9 x10 := rfl
theorem f_v275 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v274 (F := F) x0 x5 x6 x7 x8 x9 x10) (val_main_v257 (F := F) x0 x5 x6 x7 x8 x9 x10) : S1000000.Idx → Elt F .f32) = val_main_v275 (F := F) x0 x5 x6 x7 x8 x9 x10 := rfl
theorem f_v276 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v275 (F := F) x0 x5 x6 x7 x8 x9 x10) (val_main_v257 (F := F) x0 x5 x6 x7 x8 x9 x10) : S1000000.Idx → Elt F .f32) = val_main_v276 (F := F) x0 x5 x6 x7 x8 x9 x10 := rfl
theorem f_v277 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v276 (F := F) x0 x5 x6 x7 x8 x9 x10) (val_main_v54 (F := F) x0 x5 x6 x7 x8 x9 x10) : S1000000.Idx → Elt F .f32) = val_main_v277 (F := F) x0 x5 x6 x7 x8 x9 x10 := rfl
theorem f_v278 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x1 ![0] bcast_S1000000_S1000000x1_0 (val_main_v266 (F := F) x0 x5 x6 x7 x8 x9 x10) : S1000000x1.Idx → Elt F .f32) = val_main_v278 (F := F) x0 x5 x6 x7 x8 x9 x10 := rfl
theorem f_v279 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x1 ![0] bcast_S1000000_S1000000x1_0 (val_main_v271 (F := F) x0 x5 x6 x7 x8 x9 x10) : S1000000x1.Idx → Elt F .f32) = val_main_v279 (F := F) x0 x5 x6 x7 x8 x9 x10 := rfl
theorem f_v280 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x1 ![0] bcast_S1000000_S1000000x1_0 (val_main_v277 (F := F) x0 x5 x6 x7 x8 x9 x10) : S1000000x1.Idx → Elt F .f32) = val_main_v280 (F := F) x0 x5 x6 x7 x8 x9 x10 := rfl
theorem f_v281 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    cat3 (α := Elt F .f32) S1000000x1 S1000000x3 1 concatenates_S1000000x1_S1000000x1_S1000000x1_S1000000x3_d1 ((val_main_v278 (F := F) x0 x5 x6 x7 x8 x9 x10)) ((val_main_v279 (F := F) x0 x5 x6 x7 x8 x9 x10)) ((val_main_v280 (F := F) x0 x5 x6 x7 x8 x9 x10)) = val_main_v281 (F := F) x0 x5 x6 x7 x8 x9 x10 := rfl
theorem f_v282 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v265 (F := F) x0 x5 x6 x7 x8 x9 x10) (val_main_v257 (F := F) x0 x5 x6 x7 x8 x9 x10) : S1000000.Idx → Elt F .f32) = val_main_v282 (F := F) x0 x5 x6 x7 x8 x9 x10 := rfl
theorem f_v283 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v263 (F := F) x0 x5 x6 x7 x8 x9 x10) (val_main_v193 (F := F) x0 x5 x6 x7 x8 x9 x10) : S1000000.Idx → Elt F .f32) = val_main_v283 (F := F) x0 x5 x6 x7 x8 x9 x10 := rfl
theorem f_v285 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (subf (val_main_v283 (F := F) x0 x5 x6 x7 x8 x9 x10) (val_main_v42 (F := F)) : S1000000.Idx → Elt F .f32) = val_main_v285 (F := F) x0 x5 x6 x7 x8 x9 x10 := rfl
theorem f_v286 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v265 (F := F) x0 x5 x6 x7 x8 x9 x10) (val_main_v285 (F := F) x0 x5 x6 x7 x8 x9 x10) : S1000000.Idx → Elt F .f32) = val_main_v286 (F := F) x0 x5 x6 x7 x8 x9 x10 := rfl
theorem f_v287 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v286 (F := F) x0 x5 x6 x7 x8 x9 x10) (val_main_v257 (F := F) x0 x5 x6 x7 x8 x9 x10) : S1000000.Idx → Elt F .f32) = val_main_v287 (F := F) x0 x5 x6 x7 x8 x9 x10 := rfl
theorem f_v289 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v272 (F := F) x0 x5 x6 x7 x8 x9 x10) (val_main_v200 (F := F) x0 x5 x6 x7 x8 x9 x10) : S1000000.Idx → Elt F .f32) = val_main_v289 (F := F) x0 x5 x6 x7 x8 x9 x10 := rfl
theorem f_v290 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v289 (F := F) x0 x5 x6 x7 x8 x9 x10) (val_main_v193 (F := F) x0 x5 x6 x7 x8 x9 x10) : S1000000.Idx → Elt F .f32) = val_main_v290 (F := F) x0 x5 x6 x7 x8 x9 x10 := rfl
theorem f_v291 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v290 (F := F) x0 x5 x6 x7 x8 x9 x10) (val_main_v257 (F := F) x0 x5 x6 x7 x8 x9 x10) : S1000000.Idx → Elt F .f32) = val_main_v291 (F := F) x0 x5 x6 x7 x8 x9 x10 := rfl
theorem f_v292 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (mulf (val_main_v291 (F := F) x0 x5 x6 x7 x8 x9 x10) (val_main_v257 (F := F) x0 x5 x6 x7 x8 x9 x10) : S1000000.Idx → Elt F .f32) = val_main_v292 (F := F) x0 x5 x6 x7 x8 x9 x10 := rfl
theorem f_v293 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (addf (val_main_v292 (F := F) x0 x5 x6 x7 x8 x9 x10) (val_main_v54 (F := F) x0 x5 x6 x7 x8 x9 x10) : S1000000.Idx → Elt F .f32) = val_main_v293 (F := F) x0 x5 x6 x7 x8 x9 x10 := rfl
theorem f_v294 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x1 ![0] bcast_S1000000_S1000000x1_0 (val_main_v282 (F := F) x0 x5 x6 x7 x8 x9 x10) : S1000000x1.Idx → Elt F .f32) = val_main_v294 (F := F) x0 x5 x6 x7 x8 x9 x10 := rfl
theorem f_v295 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x1 ![0] bcast_S1000000_S1000000x1_0 (val_main_v287 (F := F) x0 x5 x6 x7 x8 x9 x10) : S1000000x1.Idx → Elt F .f32) = val_main_v295 (F := F) x0 x5 x6 x7 x8 x9 x10 := rfl
theorem f_v296 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x1 ![0] bcast_S1000000_S1000000x1_0 (val_main_v293 (F := F) x0 x5 x6 x7 x8 x9 x10) : S1000000x1.Idx → Elt F .f32) = val_main_v296 (F := F) x0 x5 x6 x7 x8 x9 x10 := rfl
theorem f_v297 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    cat3 (α := Elt F .f32) S1000000x1 S1000000x3 1 concatenates_S1000000x1_S1000000x1_S1000000x1_S1000000x3_d1 ((val_main_v294 (F := F) x0 x5 x6 x7 x8 x9 x10)) ((val_main_v295 (F := F) x0 x5 x6 x7 x8 x9 x10)) ((val_main_v296 (F := F) x0 x5 x6 x7 x8 x9 x10)) = val_main_v297 (F := F) x0 x5 x6 x7 x8 x9 x10 := rfl
theorem f_cst_55  :
    (constant S_ .f32 0x00000000#32 : S_.Idx → Elt F .f32) = val_main_cst_55 (F := F)  := rfl
theorem f_v298  :
    (broadcastInDim S1000000 ![] bcast_S_S1000000 (val_main_cst_55 (F := F)) : S1000000.Idx → Elt F .f32) = val_main_v298 (F := F)  := rfl
theorem f_v299 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (cmpf .oge (val_main_v130 (F := F) x0 x5 x6 x7 x8 x9 x10) (val_main_v298 (F := F)) : S1000000.Idx → Elt F .i1) = val_main_v299 (F := F) x0 x5 x6 x7 x8 x9 x10 := rfl
theorem f_v300 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x1 ![0] bcast_S1000000_S1000000x1_0 (val_main_v299 (F := F) x0 x5 x6 x7 x8 x9 x10) : S1000000x1.Idx → Elt F .i1) = val_main_v300 (F := F) x0 x5 x6 x7 x8 x9 x10 := rfl
theorem f_v302 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (cmpf .olt (val_main_v130 (F := F) x0 x5 x6 x7 x8 x9 x10) (val_main_v298 (F := F)) : S1000000.Idx → Elt F .i1) = val_main_v302 (F := F) x0 x5 x6 x7 x8 x9 x10 := rfl
theorem f_v304 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (cmpf .ogt (val_main_v257 (F := F) x0 x5 x6 x7 x8 x9 x10) (val_main_v298 (F := F)) : S1000000.Idx → Elt F .i1) = val_main_v304 (F := F) x0 x5 x6 x7 x8 x9 x10 := rfl
theorem f_v305 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (andi (val_main_v302 (F := F) x0 x5 x6 x7 x8 x9 x10) (val_main_v304 (F := F) x0 x5 x6 x7 x8 x9 x10) : S1000000.Idx → Elt F .i1) = val_main_v305 (F := F) x0 x5 x6 x7 x8 x9 x10 := rfl
theorem f_v306 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x1 ![0] bcast_S1000000_S1000000x1_0 (val_main_v305 (F := F) x0 x5 x6 x7 x8 x9 x10) : S1000000x1.Idx → Elt F .i1) = val_main_v306 (F := F) x0 x5 x6 x7 x8 x9 x10 := rfl
theorem f_v308 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (cmpf .ole (val_main_v257 (F := F) x0 x5 x6 x7 x8 x9 x10) (val_main_v298 (F := F)) : S1000000.Idx → Elt F .i1) = val_main_v308 (F := F) x0 x5 x6 x7 x8 x9 x10 := rfl
theorem f_v310 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (cmpf .ogt (val_main_v230 (F := F) x0 x5 x6 x7 x8 x9 x10) (val_main_v298 (F := F)) : S1000000.Idx → Elt F .i1) = val_main_v310 (F := F) x0 x5 x6 x7 x8 x9 x10 := rfl
theorem f_v311 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (andi (val_main_v308 (F := F) x0 x5 x6 x7 x8 x9 x10) (val_main_v310 (F := F) x0 x5 x6 x7 x8 x9 x10) : S1000000.Idx → Elt F .i1) = val_main_v311 (F := F) x0 x5 x6 x7 x8 x9 x10 := rfl
theorem f_v312 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x1 ![0] bcast_S1000000_S1000000x1_0 (val_main_v311 (F := F) x0 x5 x6 x7 x8 x9 x10) : S1000000x1.Idx → Elt F .i1) = val_main_v312 (F := F) x0 x5 x6 x7 x8 x9 x10 := rfl
theorem f_v314 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (cmpf .ole (val_main_v230 (F := F) x0 x5 x6 x7 x8 x9 x10) (val_main_v298 (F := F)) : S1000000.Idx → Elt F .i1) = val_main_v314 (F := F) x0 x5 x6 x7 x8 x9 x10 := rfl
theorem f_v315 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x1 ![0] bcast_S1000000_S1000000x1_0 (val_main_v314 (F := F) x0 x5 x6 x7 x8 x9 x10) : S1000000x1.Idx → Elt F .i1) = val_main_v315 (F := F) x0 x5 x6 x7 x8 x9 x10 := rfl
theorem f_v316 (x2 : S1000000x3x2.Idx → Elt F .f32) :
    (extractStridedSlice S1000000x3x1 ![0, 0, 0] (x2) slices_S1000000x3x2_S1000000x3x1_0_0_0 : S1000000x3x1.Idx → Elt F .f32) = val_main_v316 (F := F) x2 := rfl
theorem f_v317 (x2 : S1000000x3x2.Idx → Elt F .f32) :
    (shapeCast _ (val_main_v316 (F := F) x2) shapeCasts_S1000000x3x1_S1000000x3 : S1000000x3.Idx → Elt F .f32) = val_main_v317 (F := F) x2 := rfl
theorem f_v318  :
    (broadcastInDim S1000000x3 ![] bcast_S_S1000000x3 (val_main_cst_55 (F := F)) : S1000000x3.Idx → Elt F .f32) = val_main_v318 (F := F)  := rfl
theorem f_call0_v0 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x3 ![0, 1] bcast_S1000000x1_S1000000x3_0_1 (val_main_v300 (F := F) x0 x5 x6 x7 x8 x9 x10) : S1000000x3.Idx → Elt F .i1) = val_main_call0_v0 (F := F) x0 x5 x6 x7 x8 x9 x10 := rfl
theorem f_v321 (x0 x2 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (select (val_main_call0_v0 (F := F) x0 x5 x6 x7 x8 x9 x10) (val_main_v317 (F := F) x2) (val_main_v318 (F := F)) : S1000000x3.Idx → Elt F .f32) = val_main_v321 (F := F) x0 x2 x5 x6 x7 x8 x9 x10 := rfl
theorem f_call1_v0 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x3 ![0, 1] bcast_S1000000x1_S1000000x3_0_1 (val_main_v306 (F := F) x0 x5 x6 x7 x8 x9 x10) : S1000000x3.Idx → Elt F .i1) = val_main_call1_v0 (F := F) x0 x5 x6 x7 x8 x9 x10 := rfl
theorem f_v322 (x0 x2 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (select (val_main_call1_v0 (F := F) x0 x5 x6 x7 x8 x9 x10) (val_main_v281 (F := F) x0 x5 x6 x7 x8 x9 x10) (val_main_v321 (F := F) x0 x2 x5 x6 x7 x8 x9 x10) : S1000000x3.Idx → Elt F .f32) = val_main_v322 (F := F) x0 x2 x5 x6 x7 x8 x9 x10 := rfl
theorem f_call2_v0 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x3 ![0, 1] bcast_S1000000x1_S1000000x3_0_1 (val_main_v312 (F := F) x0 x5 x6 x7 x8 x9 x10) : S1000000x3.Idx → Elt F .i1) = val_main_call2_v0 (F := F) x0 x5 x6 x7 x8 x9 x10 := rfl
theorem f_v323 (x0 x2 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (select (val_main_call2_v0 (F := F) x0 x5 x6 x7 x8 x9 x10) (val_main_v297 (F := F) x0 x5 x6 x7 x8 x9 x10) (val_main_v322 (F := F) x0 x2 x5 x6 x7 x8 x9 x10) : S1000000x3.Idx → Elt F .f32) = val_main_v323 (F := F) x0 x2 x5 x6 x7 x8 x9 x10 := rfl
theorem f_v324 (x2 : S1000000x3x2.Idx → Elt F .f32) :
    (extractStridedSlice S1000000x3x1 ![0, 0, 1] (x2) slices_S1000000x3x2_S1000000x3x1_0_0_1 : S1000000x3x1.Idx → Elt F .f32) = val_main_v324 (F := F) x2 := rfl
theorem f_v325 (x2 : S1000000x3x2.Idx → Elt F .f32) :
    (shapeCast _ (val_main_v324 (F := F) x2) shapeCasts_S1000000x3x1_S1000000x3 : S1000000x3.Idx → Elt F .f32) = val_main_v325 (F := F) x2 := rfl
theorem f_call3_v0 (x0 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (broadcastInDim S1000000x3 ![0, 1] bcast_S1000000x1_S1000000x3_0_1 (val_main_v315 (F := F) x0 x5 x6 x7 x8 x9 x10) : S1000000x3.Idx → Elt F .i1) = val_main_call3_v0 (F := F) x0 x5 x6 x7 x8 x9 x10 := rfl
theorem f_v326 (x0 x2 : S1000000x3x2.Idx → Elt F .f32) (x5 : S6x64.Idx → Elt F .f32) (x6 : S64.Idx → Elt F .f32) (x7 : S64x64.Idx → Elt F .f32) (x8 : S64.Idx → Elt F .f32) (x9 : S64x1.Idx → Elt F .f32) (x10 : S1.Idx → Elt F .f32) :
    (select (val_main_call3_v0 (F := F) x0 x5 x6 x7 x8 x9 x10) (val_main_v325 (F := F) x2) (val_main_v323 (F := F) x0 x2 x5 x6 x7 x8 x9 x10) : S1000000x3.Idx → Elt F .f32) = val_main_v326 (F := F) x0 x2 x5 x6 x7 x8 x9 x10 := rfl

end Cert.ReferenceIdeal.Fold

end
-- ==== Proof.Col.lean ====
/-
  Rows of a block.  The kernel's grid point `t` (of 1000) works on the rows `1000 t, …, 1000 t + 999` of arrays whose
  leading axis has 1,000,000 entries; the reference works on all rows at once.  A vector indexed by all rows, read along
  the rows of block `t`, is a [1000, 1] column: this file names that reading (`col`), the same for one entry `(a, b)` of every
  row of a [1000000, 3, 2] array (`col3`), and says that two [1000, 1] columns are equal when they agree row by row.
-/
import Idealize.ShloMosaic.Lib.ValueIdx

namespace Cert.Rows

open Idealize.ShloMosaic Idealize.ShloMosaic.ValueIdx

/-- Row `r` of block `t` is row `1000 t + r` of the whole array. -/
def rowOf (t r : Fin 1000) : Fin 1000000 := ⟨1000 * t.val + r.val, by omega⟩

set_option backward.isDefEq.respectTransparency.types false in
/-- The row coordinate of an index of a [1000, 1] column. -/
def row0 (y : (⟨2, ![1000, 1]⟩ : Shape).Idx) : Fin 1000 := y 0

/-- A vector over all 1,000,000 rows, read along the rows of block `t`, as a [1000, 1] column. -/
def col {α : Type} (t : Fin 1000) (v : (⟨1, ![1000000]⟩ : Shape).Idx → α) : (⟨2, ![1000, 1]⟩ : Shape).Idx → α :=
  fun y => v (ix1 (rowOf t (row0 y)))

/-- Entry `(a, b)` of every row of a [1000000, 3, 2] array, read along the rows of block `t`, as a [1000, 1] column. -/
def col3 {α : Type} (t : Fin 1000) (A : (⟨3, ![1000000, 3, 2]⟩ : Shape).Idx → α) (a : Fin 3) (b : Fin 2) :
    (⟨2, ![1000, 1]⟩ : Shape).Idx → α :=
  fun y => A (ix3 (rowOf t (row0 y)) a b)

theorem col_ix2 {α : Type} (t : Fin 1000) (v : (⟨1, ![1000000]⟩ : Shape).Idx → α) (r : Fin 1000) :
    col t v (ix2 r (0 : Fin 1)) = v (ix1 (rowOf t r)) := rfl

theorem col3_ix2 {α : Type} (t : Fin 1000) (A : (⟨3, ![1000000, 3, 2]⟩ : Shape).Idx → α) (a : Fin 3) (b : Fin 2) (r : Fin 1000) :
    col3 t A a b (ix2 r (0 : Fin 1)) = A (ix3 (rowOf t r) a b) := rfl

/-- Every index of a [1000, 1] column is `(r, 0)`. -/
theorem idx_col (y : (⟨2, ![1000, 1]⟩ : Shape).Idx) : ∃ r : Fin 1000, y = ix2 r (0 : Fin 1) := by
  obtain ⟨r, q, rfl⟩ : ∃ (r : Fin 1000) (q : Fin 1), y = ix2 r q := ⟨y 0, y 1, eq_ix2 y⟩
  exact ⟨r, by rw [Subsingleton.elim q 0]⟩

/-- Two [1000, 1] columns that agree at every row are equal. -/
theorem col_ext {α : Type} {f g : (⟨2, ![1000, 1]⟩ : Shape).Idx → α}
    (h : ∀ r : Fin 1000, f (ix2 r (0 : Fin 1)) = g (ix2 r (0 : Fin 1))) : f = g := by
  funext y
  obtain ⟨r, rfl⟩ := idx_col y
  exact h r

end Cert.Rows
-- ==== Proof.Blocks.lean ====
/-
  The windows' blocks as entries of the argument arrays.  Grid point `t` stages rows `1000 t … 1000 t + 999` of the first and
  third inputs, each reshaped on the host from [1000000, 3, 2] to [1000000, 6] (entry `(R, k)` of the reshaped array is entry
  `(R, k / 2, k % 2)` of the input: both are position `6 R + k` in row-major order), the three weight matrices whole, and the
  three bias vectors reshaped to one row.
-/
import proofs.«132298_j83820581749011_1_alg».proof.Proof.Gen.KernelIdeal.Frame
import proofs.«132298_j83820581749011_1_alg».proof.Proof.Col
import Idealize.ShloMosaic.Lib.Pipeline.Value
import Idealize.ShloMosaic.Lib.ValueIdx
import Idealize.ShloMosaic.Lib.StableHlo.Run
import Idealize.ShloMosaic.Lib.Tactic

noncomputable section

namespace Cert.Blocks

open Idealize.ShloMosaic Idealize.ShloMosaic.TcCoe Idealize.SL.Sem Idealize.ShloMosaic.ValueIdx Cert.Rows
open Cert.KernelIdeal Cert.KernelIdeal.Gen

variable (m : (ℓ : Loc nD τ sig) → Buf (Elt Ideal) ℓ)

/-- The printed index maps, decided over the 1000 grid points: the two row-blocked inputs and the output are at block `t`
    of their leading axis, every other window stays at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The grid point as a block number. -/
def blockOf (t : Fin cfg0.N) : Fin 1000 := ⟨t.val, by have h := t.isLt; have e : cfg0.N = 1000 := N_0; omega⟩

/-! ## What the host wrote before the region -/

theorem V_v0 (c : Dev nD) : (V m c main_v0 : S1000000x6.Idx → Ideal .f32) = shapeCast _ (m ((c : Thread nD τ).loc main_arg0)) shapeCasts_S1000000x3x2_S1000000x6 := by
  dsimp only [V, hostOps0]; after_results; rfl
theorem V_v1 (c : Dev nD) : (V m c main_v1 : S1000000x6.Idx → Ideal .f32) = shapeCast _ (m ((c : Thread nD τ).loc main_arg2)) shapeCasts_S1000000x3x2_S1000000x6 := by
  dsimp only [V, hostOps0]; after_results; rfl
theorem V_v2 (c : Dev nD) : (V m c main_v2 : S1x64.Idx → Ideal .f32) = shapeCast _ (m ((c : Thread nD τ).loc main_arg6)) shapeCasts_S64_S1x64 := by
  dsimp only [V, hostOps0]; after_results; rfl
theorem V_v3 (c : Dev nD) : (V m c main_v3 : S1x64.Idx → Ideal .f32) = shapeCast _ (m ((c : Thread nD τ).loc main_arg8)) shapeCasts_S64_S1x64 := by
  dsimp only [V, hostOps0]; after_results; rfl
theorem V_v4 (c : Dev nD) : (V m c main_v4 : S1x1.Idx → Ideal .f32) = shapeCast _ (m ((c : Thread nD τ).loc main_arg10)) shapeCasts_S1_S1x1 := by
  dsimp only [V, hostOps0]; after_results; rfl

/-! ## The two row-blocked inputs -/

/-- Entry `(r, k)` of the first input's block at point `t` is entry `(1000 t + r, k / 2, k % 2)` of the input. -/
theorem blkP (c : Dev nD) (t : Fin cfg0.N) (r : Fin 1000) (k : Fin 6) :
    (iblk m c 0 t : Vec Ideal S1000x6 .f32) (ix2 r k)
      = (m ((c : Thread nD τ).loc main_arg0) : S1000000x3x2.Idx → Ideal .f32) (ix3 (rowOf (blockOf t) r) (⟨k.val / 2, by omega⟩ : Fin 3) (⟨k.val % 2, by omega⟩ : Fin 2)) := by
  obtain ⟨e0, e1, -⟩ := idx_facts t
  unfold iblk
  rw [View.read_apply]
  show (V m c main_v0 : S1000000x6.Idx → Ideal .f32) _ = _
  rw [V_v0]
  refine shapeCast_apply _ shapeCasts_S1000000x3x2_S1000000x6 _ _ ?_
  rewrite [Shape.rowMajor_val_three, Shape.rowMajor_val_two]
  show ((1000 * t.val + r.val) * 3 + k.val / 2) * 2 + k.val % 2 = (win0_0.index t (0 : Fin 2) * 1000 + 1 * r.val) * 6 + (win0_0.index t (1 : Fin 2) * 6 + 1 * k.val)
  rw [e0, e1]
  have hk : k.val < 6 := k.isLt
  omega

/-- The same for the third input. -/
theorem blkF (c : Dev nD) (t : Fin cfg0.N) (r : Fin 1000) (k : Fin 6) :
    (iblk m c 1 t : Vec Ideal S1000x6 .f32) (ix2 r k)
      = (m ((c : Thread nD τ).loc main_arg2) : S1000000x3x2.Idx → Ideal .f32) (ix3 (rowOf (blockOf t) r) (⟨k.val / 2, by omega⟩ : Fin 3) (⟨k.val % 2, by omega⟩ : Fin 2)) := by
  obtain ⟨-, -, e0, e1, -⟩ := idx_facts t
  unfold iblk
  rw [View.read_apply]
  show (V m c main_v1 : S1000000x6.Idx → Ideal .f32) _ = _
  rw [V_v1]
  refine shapeCast_apply _ shapeCasts_S1000000x3x2_S1000000x6 _ _ ?_
  rewrite [Shape.rowMajor_val_three, Shape.rowMajor_val_two]
  show ((1000 * t.val + r.val) * 3 + k.val / 2) * 2 + k.val % 2 = (win0_1.index t (0 : Fin 2) * 1000 + 1 * r.val) * 6 + (win0_1.index t (1 : Fin 2) * 6 + 1 * k.val)
  rw [e0, e1]
  have hk : k.val < 6 := k.isLt
  omega

/-! ## The weights: each window is its whole array at every point -/

theorem blkW1 (c : Dev nD) (t : Fin cfg0.N) : (iblk m c 2 t : Vec Ideal S6x64 .f32) = (m ((c : Thread nD τ).loc main_arg5) : S6x64.Idx → Ideal .f32) := by
  obtain ⟨-, -, -, -, e0, e1, -⟩ := idx_facts t
  funext y
  unfold iblk
  rw [View.read_apply]
  show V m c main_arg5 _ = _
  rw [V_main_arg5]
  congr 1
  funext a
  apply Fin.ext
  match a with
  | ⟨0, _⟩ => show win0_2.index t (0 : Fin 2) * 6 + 1 * (y 0).val = (y 0).val; rw [e0]; omega
  | ⟨1, _⟩ => show win0_2.index t (1 : Fin 2) * 64 + 1 * (y 1).val = (y 1).val; rw [e1]; omega

theorem blkW2 (c : Dev nD) (t : Fin cfg0.N) : (iblk m c 4 t : Vec Ideal S64x64 .f32) = (m ((c : Thread nD τ).loc main_arg7) : S64x64.Idx → Ideal .f32) := by
  obtain ⟨-, -, -, -, -, -, -, -, e0, e1, -⟩ := idx_facts t
  funext y
  unfold iblk
  rw [View.read_apply]
  show V m c main_arg7 _ = _
  rw [V_main_arg7]
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

theorem blkW3 (c : Dev nD) (t : Fin cfg0.N) : (iblk m c 6 t : Vec Ideal S64x1 .f32) = (m ((c : Thread nD τ).loc main_arg9) : S64x1.Idx → Ideal .f32) := by
  obtain ⟨-, -, -, -, -, -, -, -, -, -, -, -, e0, e1, -⟩ := idx_facts t
  funext y
  unfold iblk
  rw [View.read_apply]
  show V m c main_arg9 _ = _
  rw [V_main_arg9]
  congr 1
  funext a
  apply Fin.ext
  match a with
  | ⟨0, _⟩ => show win0_6.index t (0 : Fin 2) * 64 + 1 * (y 0).val = (y 0).val; rw [e0]; omega
  | ⟨1, _⟩ => show win0_6.index t (1 : Fin 2) * 1 + 1 * (y 1).val = (y 1).val; rw [e1]; omega

/-! ## The biases: one row holding the vector -/

theorem blkb1 (c : Dev nD) (t : Fin cfg0.N) (j : Fin 64) :
    (iblk m c 3 t : Vec Ideal S1x64 .f32) (ix2 (0 : Fin 1) j) = (m ((c : Thread nD τ).loc main_arg6) : S64.Idx → Ideal .f32) (ix1 j) := by
  obtain ⟨-, -, -, -, -, -, e0, e1, -⟩ := idx_facts t
  unfold iblk
  rw [View.read_apply]
  show (V m c main_v2 : S1x64.Idx → Ideal .f32) _ = _
  rw [V_v2]
  refine shapeCast_apply _ shapeCasts_S64_S1x64 _ _ ?_
  rewrite [Shape.rowMajor_val_one, Shape.rowMajor_val_two]
  show j.val = (win0_3.index t (0 : Fin 2) * 1 + 1 * 0) * 64 + (win0_3.index t (1 : Fin 2) * 64 + 1 * j.val)
  rw [e0, e1]
  omega

theorem blkb2 (c : Dev nD) (t : Fin cfg0.N) (j : Fin 64) :
    (iblk m c 5 t : Vec Ideal S1x64 .f32) (ix2 (0 : Fin 1) j) = (m ((c : Thread nD τ).loc main_arg8) : S64.Idx → Ideal .f32) (ix1 j) := by
  obtain ⟨-, -, -, -, -, -, -, -, -, -, e0, e1, -⟩ := idx_facts t
  unfold iblk
  rw [View.read_apply]
  show (V m c main_v3 : S1x64.Idx → Ideal .f32) _ = _
  rw [V_v3]
  refine shapeCast_apply _ shapeCasts_S64_S1x64 _ _ ?_
  rewrite [Shape.rowMajor_val_one, Shape.rowMajor_val_two]
  show j.val = (win0_5.index t (0 : Fin 2) * 1 + 1 * 0) * 64 + (win0_5.index t (1 : Fin 2) * 64 + 1 * j.val)
  rw [e0, e1]
  omega

theorem blkb3 (c : Dev nD) (t : Fin cfg0.N) :
    (iblk m c 7 t : Vec Ideal S1x1 .f32) (ix2 (0 : Fin 1) (0 : Fin 1)) = (m ((c : Thread nD τ).loc main_arg10) : S1.Idx → Ideal .f32) (ix1 (0 : Fin 1)) := by
  obtain ⟨-, -, -, -, -, -, -, -, -, -, -, -, -, -, e0, e1, -⟩ := idx_facts t
  unfold iblk
  rw [View.read_apply]
  show (V m c main_v4 : S1x1.Idx → Ideal .f32) _ = _
  rw [V_v4]
  refine shapeCast_apply _ shapeCasts_S1_S1x1 _ _ ?_
  rewrite [Shape.rowMajor_val_one, Shape.rowMajor_val_two]
  show 0 = (win0_7.index t (0 : Fin 2) * 1 + 1 * 0) * 1 + (win0_7.index t (1 : Fin 2) * 1 + 1 * 0)
  rw [e0, e1]

end Cert.Blocks

end
-- ==== Proof.Sim.lean ====
/-
  The solver's pointwise stages, block by block.  After the small network, every value the kernel computes for the 1000
  rows of a block is a pointwise expression of earlier values: the compact pressure ratio and the central pressure pC;
  for each side (left, right) the enthalpy h, the Lorentz factor W, the coefficients A, B, C of the quadratic for the
  post-shock enthalpy, its root hC, the density rhoC, the mass flux j, the shock speed and the star velocity; then the
  contact speed, its Lorentz factor and the six central fluxes, and the comparisons that choose between them.  The
  reference computes the same expressions for all 1,000,000 rows at once, operation by operation.  Each lemma here says:
  the kernel's stage, fed the reference's earlier stages read along the rows of block `t`, IS the reference's
  corresponding stage read along those rows.  The two sides spell one and the same expression over the extended reals,
  operation for operation and constant for constant, so each lemma holds by unfolding — except where the kernel writes a
  negation as `0 - x` and the reference as `-x`, which agree on every extended real (`zero_sub_col`).
-/
import proofs.«132298_j83820581749011_1_alg».proof.Proof.Gen.KernelIdeal.Skeleton
import proofs.«132298_j83820581749011_1_alg».proof.Proof.RefReadP
import proofs.«132298_j83820581749011_1_alg».proof.Proof.Col
import Idealize.ShloMosaic.Lib.ValueIdx
import Idealize.ShloMosaic.PureOps.Ideal.Laws

noncomputable section

namespace Cert.Sim

open Idealize.ShloMosaic Idealize.ShloMosaic.ValueIdx Cert.Rows
open Cert.KernelIdeal.Gen Cert.ReferenceIdeal.ReadP

/-- The argument arrays' types: the [1000000, 3, 2] inputs, the three weight matrices and the three bias vectors. -/
abbrev Arr3 := (⟨Cert.ReferenceIdeal.S1000000x3x2, .f32⟩ : BufTy).Contents (Elt Ideal)
abbrev M6x64 := (⟨Cert.ReferenceIdeal.S6x64, .f32⟩ : BufTy).Contents (Elt Ideal)
abbrev M64x64 := (⟨Cert.ReferenceIdeal.S64x64, .f32⟩ : BufTy).Contents (Elt Ideal)
abbrev M64x1 := (⟨Cert.ReferenceIdeal.S64x1, .f32⟩ : BufTy).Contents (Elt Ideal)
abbrev V64 := (⟨Cert.ReferenceIdeal.S64, .f32⟩ : BufTy).Contents (Elt Ideal)
abbrev V1 := (⟨Cert.ReferenceIdeal.S1, .f32⟩ : BufTy).Contents (Elt Ideal)

/-- On the extended reals `0 - x = -x` for every `x`, the infinities included: a column of `0 - v` is the column of `-v`. -/
theorem zero_sub_col (t : Fin 1000) (v : FVec Ideal Cert.ReferenceIdeal.S1000000 .f32) :
    subf (broadcast Cert.KernelIdeal.S1000x1 (Scalar.ofBits (F := Ideal) .f32 0x00000000#32)) (col t v) = col t (Host.negf v) :=
  col_ext fun r => by
    show Ideal.ofBits .f32 0x00000000#32 - v (ix1 (rowOf t r)) = -(v (ix1 (rowOf t r)))
    rw [Ideal.ofBits_zero_f32, sub_eq_add_neg, zero_add]

variable (t : Fin 1000) (P : Arr3) (W1 : M6x64) (b1 : V64) (W2 : M64x64) (b2 : V64) (W3 : M64x1) (b3 : V1)

/- A reference stage read along the rows of block `t`: `c[s]` for a stage downstream of the network, `p[s]` for a stage that
   depends on the first input only, `k[s]` for a splatted constant. -/
local notation "c[" s "]" => col t (s P W1 b1 W2 b2 W3 b3)
local notation "p[" s "]" => col t (s P)
local notation "k[" s "]" => col t s

/-! ## The central pressure -/

/-- pC = max(pL, pR) (1 + xi) / (1 - xi) with xi = 0.9 / (1 + exp(-o)), `o` the network's output. -/
theorem s21 : k0_pay21 (F := Ideal) p[val_main_v5] p[val_main_v7] c[val_main_v39] = c[val_main_v54] := by
  simp only [k0_pay21]
  rw [zero_sub_col]
  exact col_ext fun _ => rfl

/-! ## The left state -/

/-- h = 1 + 2.5 p / rho. -/
theorem s22 : k0_pay22 (F := Ideal) p[val_main_v1] p[val_main_v5] = p[val_main_v59] := col_ext fun _ => rfl
/-- W = 1 / sqrt(1 - v v). -/
theorem s23 : k0_pay23 (F := Ideal) p[val_main_v9] = p[val_main_v65] := col_ext fun _ => rfl
/-- A = 1 + (2/3) (p - pC) / ((5/3) pC). -/
theorem s25 : k0_pay25 (F := Ideal) p[val_main_v5] p[val_main_v7] c[val_main_v39] = c[val_main_v73] := by
  simp only [k0_pay25, k0_pay24]
  rw [s21]
  exact col_ext fun _ => rfl
/-- B = -(2/3) (p - pC) / ((5/3) pC). -/
theorem s26 : k0_pay26 (F := Ideal) p[val_main_v5] p[val_main_v7] c[val_main_v39] = c[val_main_v78] := by
  simp only [k0_pay26, k0_pay24]
  rw [s21]
  exact col_ext fun _ => rfl
/-- C = h (p - pC) / rho - h h. -/
theorem s27 : k0_pay27 (F := Ideal) p[val_main_v1] p[val_main_v5] p[val_main_v7] c[val_main_v39] = c[val_main_v82] := by
  simp only [k0_pay27, k0_pay24]
  rw [s21]
  exact col_ext fun _ => rfl
/-- hC = (-B + sqrt(B B - 4 A C)) / (2 A). -/
theorem s28 : k0_pay28 (F := Ideal) c[val_main_v73] c[val_main_v78] c[val_main_v82] (Scalar.ofBits (F := Ideal) .f32 0x00000000#32) = c[val_main_v93] := by
  simp only [k0_pay28]
  rw [zero_sub_col]
  exact col_ext fun _ => rfl
/-- rhoC = (5/3) pC / ((2/3) (hC - 1)). -/
theorem s29 : k0_pay29 (F := Ideal) c[val_main_v54] c[val_main_v73] c[val_main_v78] c[val_main_v82] (Scalar.ofBits (F := Ideal) .f32 0x00000000#32) = c[val_main_v100] := by
  simp only [k0_pay29]
  rw [s28]
  exact col_ext fun _ => rfl
/-- j = sqrt(max((pC - p) / max(h / rho - hC / rhoC, 1e-20), 1e-20)). -/
theorem s30 : k0_pay30 (F := Ideal) p[val_main_v1] p[val_main_v5] c[val_main_v54] p[val_main_v59] c[val_main_v73] c[val_main_v78] c[val_main_v82] (Scalar.ofBits (F := Ideal) .f32 0x00000000#32)
    = c[val_main_v113] := by
  simp only [k0_pay30]
  rw [s29, s28]
  exact col_ext fun _ => rfl
/-- The shock speed (rw2 v - j sqrt(j j + rw2 (1 - v v))) / (rw2 + j j), rw2 = (rho W)^2. -/
theorem s31 : k0_pay31 (F := Ideal) p[val_main_v1] p[val_main_v5] p[val_main_v9] c[val_main_v54] p[val_main_v59] p[val_main_v65] c[val_main_v73] c[val_main_v78] c[val_main_v82] (Scalar.ofBits (F := Ideal) .f32 0x00000000#32)
    = c[val_main_v130] := by
  simp only [k0_pay31]
  rw [s30]
  exact col_ext fun _ => rfl
/-- h W v. -/
theorem s32 : k0_pay32 (F := Ideal) p[val_main_v9] p[val_main_v59] p[val_main_v65] = p[val_main_v132] := col_ext fun _ => rfl
/-- pC - p. -/
theorem s33 : k0_pay33 (F := Ideal) p[val_main_v5] c[val_main_v54] = c[val_main_v133] := col_ext fun _ => rfl
/-- The sign -1 of the left-going shock. -/
theorem s34 : k0_pay34 (F := Ideal) = k[val_main_v134 (F := Ideal)] := col_ext fun _ => rfl
/-- The star velocity (h W v - (pC - p) / j) / (h W + (pC - p) (1 / (rho W) - v / j)). -/
theorem s35 : k0_pay35 (F := Ideal) p[val_main_v1] p[val_main_v5] p[val_main_v9] c[val_main_v54] p[val_main_v59] p[val_main_v65] c[val_main_v113] p[val_main_v132] c[val_main_v133] k[val_main_v134 (F := Ideal)]
    = c[val_main_v149] := col_ext fun _ => rfl

/-! ## The right state -/

theorem s36 : k0_pay36 (F := Ideal) p[val_main_v3] p[val_main_v7] = p[val_main_v159] := col_ext fun _ => rfl
theorem s37 : k0_pay37 (F := Ideal) p[val_main_v11] = p[val_main_v165] := col_ext fun _ => rfl
theorem s39 : k0_pay39 (F := Ideal) p[val_main_v7] c[val_main_v54] = c[val_main_v173] := col_ext fun _ => rfl
theorem s41 : k0_pay41 (F := Ideal) p[val_main_v3] p[val_main_v7] c[val_main_v54] = c[val_main_v182] := col_ext fun _ => rfl
/-- -B, which the kernel writes `0 - B`. -/
theorem s42 : k0_pay42 (F := Ideal) p[val_main_v7] c[val_main_v54] = c[val_main_v183] := by
  have e : k0_pay40 (F := Ideal) p[val_main_v7] c[val_main_v54] = c[val_main_v178] := col_ext fun _ => rfl
  simp only [k0_pay42]
  rw [e, zero_sub_col]
  exact col_ext fun _ => rfl
theorem s43 : k0_pay43 (F := Ideal) p[val_main_v7] c[val_main_v54] = c[val_main_v184] := col_ext fun _ => rfl
theorem s44 : k0_pay44 (F := Ideal) = k[val_main_v185 (F := Ideal)] := col_ext fun _ => rfl
theorem s45 : k0_pay45 (F := Ideal) c[val_main_v173] c[val_main_v182] c[val_main_v183] c[val_main_v184] k[val_main_v185 (F := Ideal)] = c[val_main_v193] :=
  col_ext fun _ => rfl
theorem s46 : k0_pay46 (F := Ideal) c[val_main_v54] c[val_main_v173] c[val_main_v182] c[val_main_v183] c[val_main_v184] k[val_main_v185 (F := Ideal)] = c[val_main_v200] :=
  col_ext fun _ => rfl
theorem s47 : k0_pay47 (F := Ideal) p[val_main_v3] p[val_main_v7] c[val_main_v54] p[val_main_v159] c[val_main_v173] c[val_main_v182] c[val_main_v183] c[val_main_v184] k[val_main_v185 (F := Ideal)]
    = c[val_main_v213] := col_ext fun _ => rfl
theorem s48 : k0_pay48 (F := Ideal) p[val_main_v3] p[val_main_v7] p[val_main_v11] c[val_main_v54] p[val_main_v159] p[val_main_v165] c[val_main_v173] c[val_main_v182] c[val_main_v183] c[val_main_v184] k[val_main_v185 (F := Ideal)]
    = c[val_main_v230] := col_ext fun _ => rfl
theorem s49 : k0_pay49 (F := Ideal) p[val_main_v3] p[val_main_v7] p[val_main_v11] c[val_main_v54] p[val_main_v159] p[val_main_v165] c[val_main_v173] c[val_main_v182] c[val_main_v183] c[val_main_v184] k[val_main_v185 (F := Ideal)]
    = c[val_main_v237] := col_ext fun _ => rfl
theorem s50 : k0_pay50 (F := Ideal) p[val_main_v159] p[val_main_v165] = p[val_main_v238] := col_ext fun _ => rfl
theorem s51 : k0_pay51 (F := Ideal) p[val_main_v7] c[val_main_v54] = c[val_main_v239] := col_ext fun _ => rfl

/-! ## The contact: its speed and the central fluxes -/

/-- lam = (vstarR + vstarL) / 2. -/
theorem s52 : k0_pay52 (F := Ideal) p[val_main_v3] p[val_main_v11] c[val_main_v149] p[val_main_v165] c[val_main_v213] c[val_main_v237] p[val_main_v238] c[val_main_v239]
    = c[val_main_v257] := col_ext fun _ => rfl
theorem s56 : k0_pay56 (F := Ideal) p[val_main_v3] p[val_main_v11] c[val_main_v100] c[val_main_v149] p[val_main_v165] c[val_main_v213] c[val_main_v237] p[val_main_v238] c[val_main_v239]
    = c[val_main_v266] := col_ext fun _ => rfl
theorem s57 : k0_pay57 (F := Ideal) p[val_main_v3] p[val_main_v11] c[val_main_v93] c[val_main_v100] c[val_main_v149] p[val_main_v165] c[val_main_v213] c[val_main_v237] p[val_main_v238] c[val_main_v239]
    = c[val_main_v271] := col_ext fun _ => rfl
theorem s58 : k0_pay58 (F := Ideal) p[val_main_v3] p[val_main_v11] c[val_main_v54] c[val_main_v93] c[val_main_v100] c[val_main_v149] p[val_main_v165] c[val_main_v213] c[val_main_v237] p[val_main_v238] c[val_main_v239]
    = c[val_main_v277] := col_ext fun _ => rfl
theorem s59 : k0_pay59 (F := Ideal) p[val_main_v3] p[val_main_v11] c[val_main_v149] p[val_main_v165] c[val_main_v200] c[val_main_v213] c[val_main_v237] p[val_main_v238] c[val_main_v239]
    = c[val_main_v282] := col_ext fun _ => rfl
theorem s60 : k0_pay60 (F := Ideal) p[val_main_v3] p[val_main_v11] c[val_main_v149] p[val_main_v165] c[val_main_v193] c[val_main_v200] c[val_main_v213] c[val_main_v237] p[val_main_v238] c[val_main_v239]
    = c[val_main_v287] := col_ext fun _ => rfl
theorem s61 : k0_pay61 (F := Ideal) p[val_main_v3] p[val_main_v11] c[val_main_v54] c[val_main_v149] p[val_main_v165] c[val_main_v193] c[val_main_v200] c[val_main_v213] c[val_main_v237] p[val_main_v238] c[val_main_v239]
    = c[val_main_v293] := col_ext fun _ => rfl

/-! ## The comparisons -/

/-- vshockL >= 0. -/
theorem s62 : k0_pay62 (F := Ideal) c[val_main_v130] = c[val_main_v299] := col_ext fun _ => rfl
/-- vshockL < 0. -/
theorem s63 : k0_pay63 (F := Ideal) c[val_main_v130] = c[val_main_v302] := col_ext fun _ => rfl
/-- The zero that lam is compared with. -/
theorem s64 : k0_pay64 (F := Ideal) = k[val_main_v303 (F := Ideal)] := col_ext fun _ => rfl

end Cert.Sim

end
-- ==== Proof.Mlp.lean ====
import proofs.«132298_j83820581749011_1_alg».proof.Proof.Gen.KernelIdeal.Skeleton
import proofs.«132298_j83820581749011_1_alg».proof.Proof.RefReadP
import Idealize.ShloMosaic.Lib.ValueIdx
import Idealize.ShloMosaic.Lib.Pipeline.Value
import Idealize.ShloMosaic.Lib.ValueLayout
import Idealize.ShloMosaic.PureOps.Ideal.Laws

noncomputable section

namespace Cert.MlpStage

open Idealize.ShloMosaic Idealize.ShloMosaic.ValueIdx
open scoped BigOperators

/-! ## The network as a function of one row

A dense layer reads `(∑ k, x k * W[k, c]) + b c`: the products summed first, the bias added on the right, which is the
order of operands on both sides. The network is three of them, `tanh` after the first two, one output column. -/

/-- One dense layer's column `c`: the input row times column `c` of the weights, plus the bias. -/
def dense {K N : Nat} (x : Fin K → EReal) (W : (⟨2, ![K, N]⟩ : Shape).Idx → EReal) (b : Fin N → EReal) (c : Fin N) : EReal :=
  (∑ k : Fin K, x k * W (ix2 k c)) + b c

/-- The three-layer network 6 → 64 → 64 → 1 on one input row. -/
def mlp (x : Fin 6 → EReal) (W1 : (⟨2, ![6, 64]⟩ : Shape).Idx → EReal) (b1 : Fin 64 → EReal)
    (W2 : (⟨2, ![64, 64]⟩ : Shape).Idx → EReal) (b2 : Fin 64 → EReal)
    (W3 : (⟨2, ![64, 1]⟩ : Shape).Idx → EReal) (b3 : Fin 1 → EReal) : EReal :=
  dense (fun j => Ideal.tanh (dense (fun i => Ideal.tanh (dense x W1 b1 i)) W2 b2 j)) W3 b3 (0 : Fin 1)

/-- The network's input row from the six raw columns: the logarithm of columns 0 to 3, columns 4 and 5 as they are. -/
def inp (f : Fin 6 → EReal) (k : Fin 6) : EReal := if k.val < 4 then Ideal.log (f k) else f k

/-! ## A matrix product into the zero accumulator, read at an entry -/

/-- A product of an `[M, K]` by a `[K, N]` matrix whose dimension numbers contract the left operand's columns with
the right operand's rows (the four coordinate facts), accumulated into zero, is at `(r, c)` the sum over `k` of
`lhs (r, k) * rhs (k, c)`. -/
theorem matmul_zero_ix2 {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ .f32) (rhs : FVec Ideal ⟨2, ![K, N]⟩ .f32) (r : Fin M) (c : Fin N) :
    FloatOps.matmul D none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

/-! ## The kernel's three products -/

section KernelDots
open Cert.KernelIdeal

/-- Coordinate facts of a two-operand contraction record with the dimension numbers `[1] × [0]`, no batch axes. -/
theorem k1_l0 (i : S1000x64.Idx) (q : dot_S1000x6_S6x64_S1000x64_1_0_0_1_n_n.contr.Idx) :
    (dot_S1000x6_S6x64_S1000x64_1_0_0_1_n_n.lhsIdx i q 0).val = (i 0).val := by
  unfold DotDims.lhsIdx
  rw [dif_neg (show ¬(0 : Fin S1000x6.rank) ∈ dot_S1000x6_S6x64_S1000x64_1_0_0_1_n_n.lhsBatch by decide), dif_pos (show (0 : Fin S1000x6.rank) ∈ dot_S1000x6_S6x64_S1000x64_1_0_0_1_n_n.lhsNonContracting by decide)]
  rfl
theorem k1_l1 (i : S1000x64.Idx) (q : dot_S1000x6_S6x64_S1000x64_1_0_0_1_n_n.contr.Idx) :
    (dot_S1000x6_S6x64_S1000x64_1_0_0_1_n_n.lhsIdx i q 1).val = (q ⟨0, by decide⟩).val :=
  dot_S1000x6_S6x64_S1000x64_1_0_0_1_n_n.lhsIdx_val_of_single rfl i q
theorem k1_r0 (i : S1000x64.Idx) (q : dot_S1000x6_S6x64_S1000x64_1_0_0_1_n_n.contr.Idx) :
    (dot_S1000x6_S6x64_S1000x64_1_0_0_1_n_n.rhsIdx i q 0).val = (q ⟨0, by decide⟩).val :=
  dot_S1000x6_S6x64_S1000x64_1_0_0_1_n_n.rhsIdx_val_of_single rfl i q
theorem k1_r1 (i : S1000x64.Idx) (q : dot_S1000x6_S6x64_S1000x64_1_0_0_1_n_n.contr.Idx) :
    (dot_S1000x6_S6x64_S1000x64_1_0_0_1_n_n.rhsIdx i q 1).val = (i 1).val := by
  unfold DotDims.rhsIdx
  rw [dif_neg (show ¬(1 : Fin S6x64.rank) ∈ dot_S1000x6_S6x64_S1000x64_1_0_0_1_n_n.rhsBatch by decide), dif_pos (show (1 : Fin S6x64.rank) ∈ dot_S1000x6_S6x64_S1000x64_1_0_0_1_n_n.rhsNonContracting by decide)]
  rfl

/-- The first product, `[1000, 6] × [6, 64]` into zero, at `(r, c)`. -/
theorem kernel_dot1 (lhs : FVec Ideal S1000x6 .f32) (rhs : FVec Ideal S6x64 .f32) (r : Fin 1000) (c : Fin 64) :
    matmul dot_S1000x6_S6x64_S1000x64_1_0_0_1_n_n none lhs rhs (constant (F := Ideal) S1000x64 .f32 0x00000000#32) (ix2 r c)
      = ∑ k : Fin 6, lhs (ix2 r k) * rhs (ix2 k c) :=
  matmul_zero_ix2 dot_S1000x6_S6x64_S1000x64_1_0_0_1_n_n rfl rfl k1_l0 k1_l1 k1_r0 k1_r1 lhs rhs r c

theorem k2_l0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem k2_l1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem k2_r0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem k2_r1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The second product, `[1000, 64] × [64, 64]` into zero, at `(r, c)`. -/
theorem kernel_dot2 (lhs : FVec Ideal S1000x64 .f32) (rhs : FVec Ideal S64x64 .f32) (r : Fin 1000) (c : Fin 64) :
    matmul dot_S1000x64_S64x64_S1000x64_1_0_0_1_n_n none lhs rhs (constant (F := Ideal) S1000x64 .f32 0x00000000#32) (ix2 r c)
      = ∑ k : Fin 64, lhs (ix2 r k) * rhs (ix2 k c) :=
  matmul_zero_ix2 dot_S1000x64_S64x64_S1000x64_1_0_0_1_n_n rfl rfl k2_l0 k2_l1 k2_r0 k2_r1 lhs rhs r c

theorem k3_l0 (i : S1000x1.Idx) (q : dot_S1000x64_S64x1_S1000x1_1_0_0_1_n_n.contr.Idx) :
    (dot_S1000x64_S64x1_S1000x1_1_0_0_1_n_n.lhsIdx i q 0).val = (i 0).val := by
  unfold DotDims.lhsIdx
  rw [dif_neg (show ¬(0 : Fin S1000x64.rank) ∈ dot_S1000x64_S64x1_S1000x1_1_0_0_1_n_n.lhsBatch by decide), dif_pos (show (0 : Fin S1000x64.rank) ∈ dot_S1000x64_S64x1_S1000x1_1_0_0_1_n_n.lhsNonContracting by decide)]
  rfl
theorem k3_l1 (i : S1000x1.Idx) (q : dot_S1000x64_S64x1_S1000x1_1_0_0_1_n_n.contr.Idx) :
    (dot_S1000x64_S64x1_S1000x1_1_0_0_1_n_n.lhsIdx i q 1).val = (q ⟨0, by decide⟩).val :=
  dot_S1000x64_S64x1_S1000x1_1_0_0_1_n_n.lhsIdx_val_of_single rfl i q
theorem k3_r0 (i : S1000x1.Idx) (q : dot_S1000x64_S64x1_S1000x1_1_0_0_1_n_n.contr.Idx) :
    (dot_S1000x64_S64x1_S1000x1_1_0_0_1_n_n.rhsIdx i q 0).val = (q ⟨0, by decide⟩).val :=
  dot_S1000x64_S64x1_S1000x1_1_0_0_1_n_n.rhsIdx_val_of_single rfl i q
theorem k3_r1 (i : S1000x1.Idx) (q : dot_S1000x64_S64x1_S1000x1_1_0_0_1_n_n.contr.Idx) :
    (dot_S1000x64_S64x1_S1000x1_1_0_0_1_n_n.rhsIdx i q 1).val = (i 1).val := by
  unfold DotDims.rhsIdx
  rw [dif_neg (show ¬(1 : Fin S64x1.rank) ∈ dot_S1000x64_S64x1_S1000x1_1_0_0_1_n_n.rhsBatch by decide), dif_pos (show (1 : Fin S64x1.rank) ∈ dot_S1000x64_S64x1_S1000x1_1_0_0_1_n_n.rhsNonContracting by decide)]
  rfl

/-- The third product, `[1000, 64] × [64, 1]` into zero, at `(r, c)`. -/
theorem kernel_dot3 (lhs : FVec Ideal S1000x64 .f32) (rhs : FVec Ideal S64x1 .f32) (r : Fin 1000) (c : Fin 1) :
    matmul dot_S1000x64_S64x1_S1000x1_1_0_0_1_n_n none lhs rhs (constant (F := Ideal) S1000x1 .f32 0x00000000#32) (ix2 r c)
      = ∑ k : Fin 64, lhs (ix2 r k) * rhs (ix2 k c) :=
  matmul_zero_ix2 dot_S1000x64_S64x1_S1000x1_1_0_0_1_n_n rfl rfl k3_l0 k3_l1 k3_r0 k3_r1 lhs rhs r c

end KernelDots

/-! ## The kernel's side: one block of 1000 rows -/

section Kernel
open Cert.KernelIdeal Cert.KernelIdeal.Gen

/-- The kernel's input matrix (the logarithm of columns 0 to 3 of the block joined with columns 4 and 5) at `(r, k)`. -/
theorem kernel_input (x0 : Vec Ideal S1000x6 .f32) (r : Fin 1000) (k : Fin 6) :
    concatenate S1000x6 1
      [⟨S1000x4, log (extractStridedSlice S1000x4 ![0, 0] (k0_pay6 (F := Ideal) x0) slices_S1000x6_o0_0_S1000x4)⟩,
       ⟨S1000x2, extractStridedSlice S1000x2 ![0, 4] (k0_pay6 (F := Ideal) x0) slices_S1000x6_o0_4_S1000x2⟩]
      concatenates_S1000x4_S1000x2_S1000x6_d1 (ix2 r k) = inp (fun k => x0 (ix2 r k)) k := by
  have e6 : k0_pay6 (F := Ideal) x0 = x0 := shapeCast_self x0 _
  rw [e6]
  unfold inp
  by_cases hk : k.val < 4
  · rw [if_pos hk]
    refine (concatenate_pair_apply_left (1 : Fin S1000x6.rank) _ _ concatenates_S1000x4_S1000x2_S1000x6_d1 (ix2 r k) rfl
      (ix2 r (⟨k.val, hk⟩ : Fin 4)) (fun b => by
        match b with
        | ⟨0, _⟩ => rfl
        | ⟨1, _⟩ => rfl)).trans ?_
    show Ideal.log (extractStridedSlice S1000x4 ![0, 0] x0 slices_S1000x6_o0_0_S1000x4 (ix2 r (⟨k.val, hk⟩ : Fin 4))) = _
    refine congrArg Ideal.log ?_
    exact extractStridedSlice_apply ![0, 0] x0 slices_S1000x6_o0_0_S1000x4 (ix2 r (⟨k.val, hk⟩ : Fin 4)) (ix2 r k) (fun a => by
      match a with
      | ⟨0, _⟩ => show r.val = 0 + r.val; omega
      | ⟨1, _⟩ => show k.val = 0 + k.val; omega)
  · rw [if_neg hk]
    have hk6 : k.val < 6 := k.isLt
    refine (concatenate_pair_apply_right (1 : Fin S1000x6.rank) _ _ concatenates_S1000x4_S1000x2_S1000x6_d1 (ix2 r k) rfl rfl
      (ix2 r (⟨k.val - 4, by omega⟩ : Fin 2)) (fun b hb => by
        match b with
        | ⟨0, _⟩ => rfl
        | ⟨1, _⟩ => exact absurd rfl hb) (by show (k.val - 4) + 4 = k.val; omega)).trans ?_
    exact extractStridedSlice_apply ![0, 4] x0 slices_S1000x6_o0_4_S1000x2 (ix2 r (⟨k.val - 4, by omega⟩ : Fin 2)) (ix2 r k) (fun a => by
      match a with
      | ⟨0, _⟩ => show r.val = 0 + r.val; omega
      | ⟨1, _⟩ => show k.val = 4 + (k.val - 4); omega)

/-- The hyperbolic tangent of a vector at an index is that of the element. -/
theorem tanh_apply {s : Shape} (v : FVec Ideal s .f32) (i : s.Idx) : tanh v i = Ideal.tanh (v i) := rfl

/-- A `[1, n]` bias row under the identity shape cast, broadcast over the rows, at `(r, c)`. -/
theorem bias_row {a n : Nat} (v : (⟨2, ![1, n]⟩ : Shape).Idx → EReal) (hc : (⟨2, ![1, n]⟩ : Shape).ShapeCasts ⟨2, ![1, n]⟩)
    (hb : (⟨2, ![1, n]⟩ : Shape).Broadcasts ⟨2, ![a, n]⟩) (r : Fin a) (c : Fin n) :
    broadcastTo ⟨2, ![a, n]⟩ (shapeCast ⟨2, ![1, n]⟩ v hc) hb (ix2 r c) = v (ix2 (0 : Fin 1) c) := by
  rw [shapeCast_self]
  exact broadcastTo_1b_ab_apply v hb r c

/-- THE KERNEL'S NETWORK on row `r` of its block: the network of that row's six columns, with the bias rows' entries. -/
theorem kernel_mlp (x0 : Vec Ideal S1000x6 .f32) (W1 : Vec Ideal S6x64 .f32) (x3 : Vec Ideal S1x64 .f32)
    (W2 : Vec Ideal S64x64 .f32) (x5 : Vec Ideal S1x64 .f32) (W3 : Vec Ideal S64x1 .f32) (x7 : Vec Ideal S1x1 .f32)
    (r : Fin 1000) :
    k0_pay20 (F := Ideal) x0 W1 x3 W2 x5 W3 x7 (ix2 r (0 : Fin 1))
      = mlp (inp fun k => x0 (ix2 r k)) W1 (fun c => x3 (ix2 (0 : Fin 1) c)) W2 (fun c => x5 (ix2 (0 : Fin 1) c))
          W3 (fun c => x7 (ix2 (0 : Fin 1) c)) := by
  unfold k0_pay20 mlp dense
  simp only [addf_apply, tanh_apply, kernel_dot3, kernel_dot2, kernel_dot1, bias_row, kernel_input]

end Kernel

/-! ## The reference's side: all 1,000,000 rows -/

section Reference
open Cert.ReferenceIdeal Cert.ReferenceIdeal.Gen Cert.ReferenceIdeal.ReadP

variable (P : (⟨S1000000x3x2, .f32⟩ : BufTy).Contents (Elt Ideal))

/-- Plane 0 of the stacked input: the logarithm of plane 0 of `P`. -/
theorem ref_plane0 (R : Fin 1000000) (b : Fin 2) :
    val_main_v20 (F := Ideal) P (ix3 R (0 : Fin 1) b) = Ideal.log (P (ix3 R (0 : Fin 3) b)) := by
  have e20 : idx_main_v20 (ix3 R (0 : Fin 1) b) = ix2 R b := funext fun a => by
    match a with
    | ⟨0, _⟩ => rfl
    | ⟨1, _⟩ => rfl
  have e13 : idx_main_v13 (ix2 R b) = ix3 R (0 : Fin 1) b := funext fun a => Fin.ext (by
    have hb : b.val < 2 := b.isLt
    match a with
    | ⟨0, _⟩ => show (R.val * 2 + b.val) / 2 = R.val; omega
    | ⟨1, _⟩ => rfl
    | ⟨2, _⟩ => show (R.val * 2 + b.val) % 2 = b.val; omega)
  have e12 : idx_main_v12 (ix3 R (0 : Fin 1) b) = ix3 R (0 : Fin 3) b := funext fun a => by
    match a with
    | ⟨0, _⟩ => rfl
    | ⟨1, _⟩ => rfl
    | ⟨2, _⟩ => rfl
  rw [val_main_v20_apply, e20, val_main_v14_apply, val_main_v13_apply, e13, val_main_v12_apply, e12]
  rfl

/-- Plane 1 of the stacked input: the logarithm of plane 1 of `P`. -/
theorem ref_plane1 (R : Fin 1000000) (b : Fin 2) :
    val_main_v21 (F := Ideal) P (ix3 R (0 : Fin 1) b) = Ideal.log (P (ix3 R (1 : Fin 3) b)) := by
  have e21 : idx_main_v21 (ix3 R (0 : Fin 1) b) = ix2 R b := funext fun a => by
    match a with
    | ⟨0, _⟩ => rfl
    | ⟨1, _⟩ => rfl
  have e16 : idx_main_v16 (ix2 R b) = ix3 R (0 : Fin 1) b := funext fun a => Fin.ext (by
    have hb : b.val < 2 := b.isLt
    match a with
    | ⟨0, _⟩ => show (R.val * 2 + b.val) / 2 = R.val; omega
    | ⟨1, _⟩ => rfl
    | ⟨2, _⟩ => show (R.val * 2 + b.val) % 2 = b.val; omega)
  have e15 : idx_main_v15 (ix3 R (0 : Fin 1) b) = ix3 R (1 : Fin 3) b := funext fun a => by
    match a with
    | ⟨0, _⟩ => rfl
    | ⟨1, _⟩ => rfl
    | ⟨2, _⟩ => rfl
  rw [val_main_v21_apply, e21, val_main_v17_apply, val_main_v16_apply, e16, val_main_v15_apply, e15]
  rfl

/-- Plane 2 of the stacked input: plane 2 of `P` as it is. -/
theorem ref_plane2 (R : Fin 1000000) (b : Fin 2) :
    val_main_v22 (F := Ideal) P (ix3 R (0 : Fin 1) b) = P (ix3 R (2 : Fin 3) b) := by
  have e22 : idx_main_v22 (ix3 R (0 : Fin 1) b) = ix2 R b := funext fun a => by
    match a with
    | ⟨0, _⟩ => rfl
    | ⟨1, _⟩ => rfl
  have e19 : idx_main_v19 (ix2 R b) = ix3 R (0 : Fin 1) b := funext fun a => Fin.ext (by
    have hb : b.val < 2 := b.isLt
    match a with
    | ⟨0, _⟩ => show (R.val * 2 + b.val) / 2 = R.val; omega
    | ⟨1, _⟩ => rfl
    | ⟨2, _⟩ => show (R.val * 2 + b.val) % 2 = b.val; omega)
  have e18 : idx_main_v18 (ix3 R (0 : Fin 1) b) = ix3 R (2 : Fin 3) b := funext fun a => by
    match a with
    | ⟨0, _⟩ => rfl
    | ⟨1, _⟩ => rfl
    | ⟨2, _⟩ => rfl
  rw [val_main_v22_apply, e22, val_main_v19_apply, e19, val_main_v18_apply, e18]

/-- The three planes joined along axis 1, at `(R, a, b)`: plane `a` at `(R, 0, b)`. -/
theorem ref_stack (R : Fin 1000000) (a : Fin 3) (b : Fin 2) :
    val_main_v23 (F := Ideal) P (ix3 R a b)
      = if a.val < 2 then Ideal.log (P (ix3 R a b)) else P (ix3 R a b) := by
  unfold val_main_v23
  have hi : ∀ (a : Fin 3) (c : Fin S1000000x1x2.rank), c.cast (rfl : S1000000x1x2.rank = S1000000x3x2.rank) ≠ (1 : Fin S1000000x3x2.rank) →
      ((ix3 R (0 : Fin 1) b : S1000000x1x2.Idx) c).val = ((ix3 R a b : S1000000x3x2.Idx) (c.cast rfl)).val := fun a c hc => by
    match c with
    | ⟨0, _⟩ => rfl
    | ⟨1, _⟩ => exact absurd rfl hc
    | ⟨2, _⟩ => rfl
  match a with
  | ⟨0, _⟩ =>
    rw [if_pos (show (0 : Nat) < 2 by omega)]
    exact (concatenate_apply_piece (1 : Fin S1000000x3x2.rank) _ _ _ 0 (by show (0 : Nat) < 3; omega) S1000000x1x2 (val_main_v20 (F := Ideal) P) rfl rfl
      0 rfl (ix3 R (0 : Fin 1) b) (hi _) rfl).trans (ref_plane0 P R b)
  | ⟨1, _⟩ =>
    rw [if_pos (show (1 : Nat) < 2 by omega)]
    exact (concatenate_apply_piece (1 : Fin S1000000x3x2.rank) _ _ _ 1 (by show (1 : Nat) < 3; omega) S1000000x1x2 (val_main_v21 (F := Ideal) P) rfl rfl
      1 rfl (ix3 R (0 : Fin 1) b) (hi _) rfl).trans (ref_plane1 P R b)
  | ⟨2, _⟩ =>
    rw [if_neg (show ¬ (2 : Nat) < 2 by omega)]
    exact (concatenate_apply_piece (1 : Fin S1000000x3x2.rank) _ _ _ 2 (by show (2 : Nat) < 3; omega) S1000000x1x2 (val_main_v22 (F := Ideal) P) rfl rfl
      2 rfl (ix3 R (0 : Fin 1) b) (hi _) rfl).trans (ref_plane2 P R b)

/-- The reference's input matrix at `(R, k)`: the input row of the six entries `P (R, k / 2, k % 2)`. -/
theorem ref_input (R : Fin 1000000) (k : Fin 6) :
    val_main_v24 (F := Ideal) P (ix2 R k)
      = inp (fun k : Fin 6 => P (ix3 R (⟨k.val / 2, by omega⟩ : Fin 3) (⟨k.val % 2, by omega⟩ : Fin 2))) k := by
  have hk : k.val < 6 := k.isLt
  have e : val_main_v24 (F := Ideal) P (ix2 R k)
      = val_main_v23 (F := Ideal) P (ix3 R (⟨k.val / 2, by omega⟩ : Fin 3) (⟨k.val % 2, by omega⟩ : Fin 2)) := by
    unfold val_main_v24
    generalize val_main_v23 (F := Ideal) P = y
    exact shapeCast_apply y shapeCasts_S1000000x3x2_S1000000x6 (ix2 R k) _
      (by rewrite [Shape.rowMajor_val_three, Shape.rowMajor_val_two]
          show (R.val * 3 + k.val / 2) * 2 + k.val % 2 = R.val * 6 + k.val
          omega)
  rw [e, ref_stack]
  unfold inp
  by_cases h4 : k.val < 4
  · rw [if_pos h4, if_pos (show k.val / 2 < 2 by omega)]
  · rw [if_neg h4, if_neg (show ¬ k.val / 2 < 2 by omega)]

variable (W1 : (⟨S6x64, .f32⟩ : BufTy).Contents (Elt Ideal)) (b1 : (⟨S64, .f32⟩ : BufTy).Contents (Elt Ideal))
  (W2 : (⟨S64x64, .f32⟩ : BufTy).Contents (Elt Ideal)) (b2 : (⟨S64, .f32⟩ : BufTy).Contents (Elt Ideal))
  (W3 : (⟨S64x1, .f32⟩ : BufTy).Contents (Elt Ideal)) (b3 : (⟨S1, .f32⟩ : BufTy).Contents (Elt Ideal))

/-- The raw six columns of row `R` of `P` viewed `[n, 6]`. -/
def rowOf (R : Fin 1000000) (k : Fin 6) : EReal :=
  P (ix3 R (⟨k.val / 2, by omega⟩ : Fin 3) (⟨k.val % 2, by omega⟩ : Fin 2))

/-- The reference's first layer before the activation, at `(R, c)`. -/
theorem ref_layer1 (R : Fin 1000000) (c : Fin 64) :
    val_main_v28 (F := Ideal) P W1 b1 (ix2 R c) = dense (inp (rowOf P R)) W1 (fun c => b1 (ix1 c)) c := by
  have el : ∀ k : Fin 6, lidx_main_v25 (ix2 R c) k = ix2 R k := fun k => funext fun a => by
    match a with
    | ⟨0, _⟩ => rfl
    | ⟨1, _⟩ => rfl
  have er : ∀ k : Fin 6, ridx_main_v25 (ix2 R c) k = ix2 k c := fun k => funext fun a => by
    match a with
    | ⟨0, _⟩ => rfl
    | ⟨1, _⟩ => rfl
  have e27 : idx_main_v27 (ix2 R c) = ix2 (0 : Fin 1) c := funext fun a => by
    match a with
    | ⟨0, _⟩ => rfl
    | ⟨1, _⟩ => rfl
  have e26 : idx_main_v26 (ix2 (0 : Fin 1) c) = ix1 c := funext fun a => by
    match a with
    | ⟨0, _⟩ => rfl
  rw [val_main_v28_apply, val_main_v25_apply, val_main_v27_apply, e27, val_main_v26_apply, e26]
  unfold dense
  rw [Ideal.addf_def]
  refine congrArg (· + b1 (ix1 c)) (Finset.sum_congr rfl fun k _ => ?_)
  rw [el k, er k, ref_input]
  rfl

/-- The reference's second layer before the activation, at `(R, c)`. -/
theorem ref_layer2 (R : Fin 1000000) (c : Fin 64) :
    val_main_v33 (F := Ideal) P W1 b1 W2 b2 (ix2 R c)
      = dense (fun i => Ideal.tanh (dense (inp (rowOf P R)) W1 (fun c => b1 (ix1 c)) i)) W2 (fun c => b2 (ix1 c)) c := by
  have el : ∀ k : Fin 64, lidx_main_v30 (ix2 R c) k = ix2 R k := fun k => funext fun a => by
    match a with
    | ⟨0, _⟩ => rfl
    | ⟨1, _⟩ => rfl
  have er : ∀ k : Fin 64, ridx_main_v30 (ix2 R c) k = ix2 k c := fun k => funext fun a => by
    match a with
    | ⟨0, _⟩ => rfl
    | ⟨1, _⟩ => rfl
  have e32 : idx_main_v32 (ix2 R c) = ix2 (0 : Fin 1) c := funext fun a => by
    match a with
    | ⟨0, _⟩ => rfl
    | ⟨1, _⟩ => rfl
  have e31 : idx_main_v31 (ix2 (0 : Fin 1) c) = ix1 c := funext fun a => by
    match a with
    | ⟨0, _⟩ => rfl
  rw [val_main_v33_apply, val_main_v30_apply, val_main_v32_apply, e32, val_main_v31_apply, e31]
  unfold dense
  rw [Ideal.addf_def]
  refine congrArg (· + b2 (ix1 c)) (Finset.sum_congr rfl fun k _ => ?_)
  rw [el k, er k, val_main_v29_apply, ref_layer1, Ideal.hostUnary_tanh_def]
  rfl

/-- THE REFERENCE'S NETWORK on row `R`: the network of that row's six columns. -/
theorem ref_mlp (R : Fin 1000000) :
    val_main_v39 (F := Ideal) P W1 b1 W2 b2 W3 b3 (ix1 R)
      = mlp (inp (rowOf P R)) W1 (fun c => b1 (ix1 c)) W2 (fun c => b2 (ix1 c)) W3 (fun c => b3 (ix1 c)) := by
  have e39 : idx_main_v39 (ix1 R) = ix2 R (0 : Fin 1) := funext fun a => Fin.ext (by
    match a with
    | ⟨0, _⟩ => show R.val / 1 = R.val; omega
    | ⟨1, _⟩ => rfl)
  have el : ∀ k : Fin 64, lidx_main_v35 (ix2 R (0 : Fin 1)) k = ix2 R k := fun k => funext fun a => by
    match a with
    | ⟨0, _⟩ => rfl
    | ⟨1, _⟩ => rfl
  have er : ∀ k : Fin 64, ridx_main_v35 (ix2 R (0 : Fin 1)) k = ix2 k (0 : Fin 1) := fun k => funext fun a => by
    match a with
    | ⟨0, _⟩ => rfl
    | ⟨1, _⟩ => rfl
  have e37 : idx_main_v37 (ix2 R (0 : Fin 1)) = ix2 (0 : Fin 1) (0 : Fin 1) := funext fun a => by
    match a with
    | ⟨0, _⟩ => rfl
    | ⟨1, _⟩ => rfl
  have e36 : idx_main_v36 (ix2 (0 : Fin 1) (0 : Fin 1)) = ix1 (0 : Fin 1) := funext fun a => by
    match a with
    | ⟨0, _⟩ => rfl
  rw [val_main_v39_apply, e39, val_main_v38_apply, val_main_v35_apply, val_main_v37_apply, e37, val_main_v36_apply, e36]
  unfold mlp
  show _ = (∑ k : Fin 64, _ * W3 (ix2 k (0 : Fin 1))) + b3 (ix1 (0 : Fin 1))
  rw [Ideal.addf_def]
  refine congrArg (· + b3 (ix1 (0 : Fin 1))) (Finset.sum_congr rfl fun k _ => ?_)
  rw [el k, er k, val_main_v34_apply, ref_layer2, Ideal.hostUnary_tanh_def]

end Reference

/-! ## The two sides meet -/

open Cert.KernelIdeal Cert.KernelIdeal.Gen in
/-- Row `r` of block `t`: the kernel's network on the block, whose rows are rows `1000 t + r` of `P` viewed
`[n, 6]` and whose bias rows hold the bias vectors, is the reference's network at row `1000 t + r`. -/
theorem mlp_block (t : Fin 1000)
    (P : (⟨Cert.ReferenceIdeal.S1000000x3x2, .f32⟩ : BufTy).Contents (Elt Ideal))
    (W1 : (⟨Cert.ReferenceIdeal.S6x64, .f32⟩ : BufTy).Contents (Elt Ideal))
    (b1 : (⟨Cert.ReferenceIdeal.S64, .f32⟩ : BufTy).Contents (Elt Ideal))
    (W2 : (⟨Cert.ReferenceIdeal.S64x64, .f32⟩ : BufTy).Contents (Elt Ideal))
    (b2 : (⟨Cert.ReferenceIdeal.S64, .f32⟩ : BufTy).Contents (Elt Ideal))
    (W3 : (⟨Cert.ReferenceIdeal.S64x1, .f32⟩ : BufTy).Contents (Elt Ideal))
    (b3 : (⟨Cert.ReferenceIdeal.S1, .f32⟩ : BufTy).Contents (Elt Ideal))
    (x0 : Vec Ideal S1000x6 .f32) (x3 x5 : Vec Ideal S1x64 .f32) (x7 : Vec Ideal S1x1 .f32)
    (h0 : ∀ (r : Fin 1000) (k : Fin 6), x0 (ix2 r k)
      = P (ix3 (⟨1000 * t.val + r.val, by omega⟩ : Fin 1000000) (⟨k.val / 2, by omega⟩ : Fin 3) (⟨k.val % 2, by omega⟩ : Fin 2)))
    (h3 : ∀ j : Fin 64, x3 (ix2 (0 : Fin 1) j) = b1 (ix1 j))
    (h5 : ∀ j : Fin 64, x5 (ix2 (0 : Fin 1) j) = b2 (ix1 j))
    (h7 : x7 (ix2 (0 : Fin 1) (0 : Fin 1)) = b3 (ix1 (0 : Fin 1)))
    (r : Fin 1000) :
    k0_pay20 (F := Ideal) x0 W1 x3 W2 x5 W3 x7 (ix2 r (0 : Fin 1))
      = Cert.ReferenceIdeal.ReadP.val_main_v39 (F := Ideal) P W1 b1 W2 b2 W3 b3
          (ix1 (⟨1000 * t.val + r.val, by omega⟩ : Fin 1000000)) := by
  rw [kernel_mlp, ref_mlp]
  have ex : (fun k => x0 (ix2 r k)) = rowOf P (⟨1000 * t.val + r.val, by omega⟩ : Fin 1000000) :=
    funext fun k => h0 r k
  have e3 : (fun c => x3 (ix2 (0 : Fin 1) c)) = fun c => b1 (ix1 c) := funext h3
  have e5 : (fun c => x5 (ix2 (0 : Fin 1) c)) = fun c => b2 (ix1 c) := funext h5
  have e7 : (fun c : Fin 1 => x7 (ix2 (0 : Fin 1) c)) = fun c => b3 (ix1 c) := funext fun c => by
    obtain rfl : c = 0 := Subsingleton.elim _ _
    exact h7
  rw [ex, e3, e5, e7]

end Cert.MlpStage

end
-- ==== Proof.Leaves.lean ====
/-
  The solver's inputs, block by block.  The kernel slices the six columns of a block of the reshaped first input —
  rhoL, rhoR, pL, pR, vL, vR — and the six columns of a block of the reshaped third input — the left and right fluxes of
  the three conserved quantities; the reference slices the same entries of the whole [1000000, 3, 2] arrays.  Column `k` of row
  `r` of block `t` is entry `(1000 t + r, k / 2, k % 2)` of the array, so each kernel column is the reference's vector read
  along the block's rows.  The small network's output for the block's rows is the reference's, by the layer-by-layer
  comparison of the two networks, once the windows' blocks are read as entries of the arguments.
-/
import proofs.«132298_j83820581749011_1_alg».proof.Proof.Blocks
import proofs.«132298_j83820581749011_1_alg».proof.Proof.Sim
import proofs.«132298_j83820581749011_1_alg».proof.Proof.Mlp

noncomputable section

namespace Cert.Leaves

open Idealize.ShloMosaic Idealize.ShloMosaic.TcCoe Idealize.SL.Sem Idealize.ShloMosaic.ValueIdx Cert.Rows Cert.Blocks
open Cert.KernelIdeal Cert.KernelIdeal.Gen Cert.ReferenceIdeal.ReadP
open Cert.Sim (Arr3)

/-! ## A column of a block -/

theorem pay8_at (x : Vec Ideal S1000x6 .f32) (r : Fin 1000) : k0_pay8 (F := Ideal) x (ix2 r (0 : Fin 1)) = x (ix2 r (0 : Fin 6)) := by
  unfold k0_pay8 k0_pay6
  dsimp only
  rw [shapeCast_self]
  exact extractStridedSlice_apply _ x _ _ _ (fun a => match a with
    | ⟨0, _⟩ => by show r.val = 0 + r.val; omega
    | ⟨1, _⟩ => by show (0 : Nat) = 0 + 0; rfl)
theorem pay9_at (x : Vec Ideal S1000x6 .f32) (r : Fin 1000) : k0_pay9 (F := Ideal) x (ix2 r (0 : Fin 1)) = x (ix2 r (1 : Fin 6)) := by
  unfold k0_pay9 k0_pay6
  dsimp only
  rw [shapeCast_self]
  exact extractStridedSlice_apply _ x _ _ _ (fun a => match a with
    | ⟨0, _⟩ => by show r.val = 0 + r.val; omega
    | ⟨1, _⟩ => by show (1 : Nat) = 1 + 0; rfl)
theorem pay10_at (x : Vec Ideal S1000x6 .f32) (r : Fin 1000) : k0_pay10 (F := Ideal) x (ix2 r (0 : Fin 1)) = x (ix2 r (2 : Fin 6)) := by
  unfold k0_pay10 k0_pay6
  dsimp only
  rw [shapeCast_self]
  exact extractStridedSlice_apply _ x _ _ _ (fun a => match a with
    | ⟨0, _⟩ => by show r.val = 0 + r.val; omega
    | ⟨1, _⟩ => by show (2 : Nat) = 2 + 0; rfl)
theorem pay11_at (x : Vec Ideal S1000x6 .f32) (r : Fin 1000) : k0_pay11 (F := Ideal) x (ix2 r (0 : Fin 1)) = x (ix2 r (3 : Fin 6)) := by
  unfold k0_pay11 k0_pay6
  dsimp only
  rw [shapeCast_self]
  exact extractStridedSlice_apply _ x _ _ _ (fun a => match a with
    | ⟨0, _⟩ => by show r.val = 0 + r.val; omega
    | ⟨1, _⟩ => by show (3 : Nat) = 3 + 0; rfl)
theorem pay12_at (x : Vec Ideal S1000x6 .f32) (r : Fin 1000) : k0_pay12 (F := Ideal) x (ix2 r (0 : Fin 1)) = x (ix2 r (4 : Fin 6)) := by
  unfold k0_pay12 k0_pay6
  dsimp only
  rw [shapeCast_self]
  exact extractStridedSlice_apply _ x _ _ _ (fun a => match a with
    | ⟨0, _⟩ => by show r.val = 0 + r.val; omega
    | ⟨1, _⟩ => by show (4 : Nat) = 4 + 0; rfl)
theorem pay13_at (x : Vec Ideal S1000x6 .f32) (r : Fin 1000) : k0_pay13 (F := Ideal) x (ix2 r (0 : Fin 1)) = x (ix2 r (5 : Fin 6)) := by
  unfold k0_pay13 k0_pay6
  dsimp only
  rw [shapeCast_self]
  exact extractStridedSlice_apply _ x _ _ _ (fun a => match a with
    | ⟨0, _⟩ => by show r.val = 0 + r.val; omega
    | ⟨1, _⟩ => by show (5 : Nat) = 5 + 0; rfl)
theorem pay14_at (x : Vec Ideal S1000x6 .f32) (r : Fin 1000) : k0_pay14 (F := Ideal) x (ix2 r (0 : Fin 1)) = x (ix2 r (0 : Fin 6)) := by
  unfold k0_pay14 k0_pay7
  dsimp only
  rw [shapeCast_self]
  exact extractStridedSlice_apply _ x _ _ _ (fun a => match a with
    | ⟨0, _⟩ => by show r.val = 0 + r.val; omega
    | ⟨1, _⟩ => by show (0 : Nat) = 0 + 0; rfl)
theorem pay15_at (x : Vec Ideal S1000x6 .f32) (r : Fin 1000) : k0_pay15 (F := Ideal) x (ix2 r (0 : Fin 1)) = x (ix2 r (1 : Fin 6)) := by
  unfold k0_pay15 k0_pay7
  dsimp only
  rw [shapeCast_self]
  exact extractStridedSlice_apply _ x _ _ _ (fun a => match a with
    | ⟨0, _⟩ => by show r.val = 0 + r.val; omega
    | ⟨1, _⟩ => by show (1 : Nat) = 1 + 0; rfl)
theorem pay16_at (x : Vec Ideal S1000x6 .f32) (r : Fin 1000) : k0_pay16 (F := Ideal) x (ix2 r (0 : Fin 1)) = x (ix2 r (2 : Fin 6)) := by
  unfold k0_pay16 k0_pay7
  dsimp only
  rw [shapeCast_self]
  exact extractStridedSlice_apply _ x _ _ _ (fun a => match a with
    | ⟨0, _⟩ => by show r.val = 0 + r.val; omega
    | ⟨1, _⟩ => by show (2 : Nat) = 2 + 0; rfl)
theorem pay17_at (x : Vec Ideal S1000x6 .f32) (r : Fin 1000) : k0_pay17 (F := Ideal) x (ix2 r (0 : Fin 1)) = x (ix2 r (3 : Fin 6)) := by
  unfold k0_pay17 k0_pay7
  dsimp only
  rw [shapeCast_self]
  exact extractStridedSlice_apply _ x _ _ _ (fun a => match a with
    | ⟨0, _⟩ => by show r.val = 0 + r.val; omega
    | ⟨1, _⟩ => by show (3 : Nat) = 3 + 0; rfl)
theorem pay18_at (x : Vec Ideal S1000x6 .f32) (r : Fin 1000) : k0_pay18 (F := Ideal) x (ix2 r (0 : Fin 1)) = x (ix2 r (4 : Fin 6)) := by
  unfold k0_pay18 k0_pay7
  dsimp only
  rw [shapeCast_self]
  exact extractStridedSlice_apply _ x _ _ _ (fun a => match a with
    | ⟨0, _⟩ => by show r.val = 0 + r.val; omega
    | ⟨1, _⟩ => by show (4 : Nat) = 4 + 0; rfl)
theorem pay19_at (x : Vec Ideal S1000x6 .f32) (r : Fin 1000) : k0_pay19 (F := Ideal) x (ix2 r (0 : Fin 1)) = x (ix2 r (5 : Fin 6)) := by
  unfold k0_pay19 k0_pay7
  dsimp only
  rw [shapeCast_self]
  exact extractStridedSlice_apply _ x _ _ _ (fun a => match a with
    | ⟨0, _⟩ => by show r.val = 0 + r.val; omega
    | ⟨1, _⟩ => by show (5 : Nat) = 5 + 0; rfl)

/-! ## The reference's slices of the first input -/

theorem ref1_at (P : Arr3) (R : Fin 1000000) : val_main_v1 (F := Ideal) P (ix1 R) = P (ix3 R (0 : Fin 3) (0 : Fin 2)) := by
  rw [val_main_v1_apply, val_main_v0_apply]
  congr 1
  funext d
  apply Fin.ext
  match d with
  | ⟨0, _⟩ => show R.val / 1 = R.val; omega
  | ⟨1, _⟩ => rfl
  | ⟨2, _⟩ => rfl
theorem ref3_at (P : Arr3) (R : Fin 1000000) : val_main_v3 (F := Ideal) P (ix1 R) = P (ix3 R (0 : Fin 3) (1 : Fin 2)) := by
  rw [val_main_v3_apply, val_main_v2_apply]
  congr 1
  funext d
  apply Fin.ext
  match d with
  | ⟨0, _⟩ => show R.val / 1 = R.val; omega
  | ⟨1, _⟩ => rfl
  | ⟨2, _⟩ => rfl
theorem ref5_at (P : Arr3) (R : Fin 1000000) : val_main_v5 (F := Ideal) P (ix1 R) = P (ix3 R (1 : Fin 3) (0 : Fin 2)) := by
  rw [val_main_v5_apply, val_main_v4_apply]
  congr 1
  funext d
  apply Fin.ext
  match d with
  | ⟨0, _⟩ => show R.val / 1 = R.val; omega
  | ⟨1, _⟩ => rfl
  | ⟨2, _⟩ => rfl
theorem ref7_at (P : Arr3) (R : Fin 1000000) : val_main_v7 (F := Ideal) P (ix1 R) = P (ix3 R (1 : Fin 3) (1 : Fin 2)) := by
  rw [val_main_v7_apply, val_main_v6_apply]
  congr 1
  funext d
  apply Fin.ext
  match d with
  | ⟨0, _⟩ => show R.val / 1 = R.val; omega
  | ⟨1, _⟩ => rfl
  | ⟨2, _⟩ => rfl
theorem ref9_at (P : Arr3) (R : Fin 1000000) : val_main_v9 (F := Ideal) P (ix1 R) = P (ix3 R (2 : Fin 3) (0 : Fin 2)) := by
  rw [val_main_v9_apply, val_main_v8_apply]
  congr 1
  funext d
  apply Fin.ext
  match d with
  | ⟨0, _⟩ => show R.val / 1 = R.val; omega
  | ⟨1, _⟩ => rfl
  | ⟨2, _⟩ => rfl
theorem ref11_at (P : Arr3) (R : Fin 1000000) : val_main_v11 (F := Ideal) P (ix1 R) = P (ix3 R (2 : Fin 3) (1 : Fin 2)) := by
  rw [val_main_v11_apply, val_main_v10_apply]
  congr 1
  funext d
  apply Fin.ext
  match d with
  | ⟨0, _⟩ => show R.val / 1 = R.val; omega
  | ⟨1, _⟩ => rfl
  | ⟨2, _⟩ => rfl

/-! ## The kernel's inputs at point `t` are the reference's, read along the block's rows -/

variable (m : (ℓ : Loc nD τ sig) → Buf (Elt Ideal) ℓ) (c : Dev nD) (t : Fin cfg0.N)

theorem leaf8 : k0_pay8 (F := Ideal) (iblk m c 0 t : Vec Ideal S1000x6 .f32) = col (blockOf t) (val_main_v1 (F := Ideal) (m ((c : Thread nD τ).loc main_arg0))) :=
  col_ext fun r => by
    rw [col_ix2]
    refine (pay8_at _ r).trans ?_
    rw [blkP, ref1_at]
    rfl
theorem leaf9 : k0_pay9 (F := Ideal) (iblk m c 0 t : Vec Ideal S1000x6 .f32) = col (blockOf t) (val_main_v3 (F := Ideal) (m ((c : Thread nD τ).loc main_arg0))) :=
  col_ext fun r => by
    rw [col_ix2]
    refine (pay9_at _ r).trans ?_
    rw [blkP, ref3_at]
    rfl
theorem leaf10 : k0_pay10 (F := Ideal) (iblk m c 0 t : Vec Ideal S1000x6 .f32) = col (blockOf t) (val_main_v5 (F := Ideal) (m ((c : Thread nD τ).loc main_arg0))) :=
  col_ext fun r => by
    rw [col_ix2]
    refine (pay10_at _ r).trans ?_
    rw [blkP, ref5_at]
    rfl
theorem leaf11 : k0_pay11 (F := Ideal) (iblk m c 0 t : Vec Ideal S1000x6 .f32) = col (blockOf t) (val_main_v7 (F := Ideal) (m ((c : Thread nD τ).loc main_arg0))) :=
  col_ext fun r => by
    rw [col_ix2]
    refine (pay11_at _ r).trans ?_
    rw [blkP, ref7_at]
    rfl
theorem leaf12 : k0_pay12 (F := Ideal) (iblk m c 0 t : Vec Ideal S1000x6 .f32) = col (blockOf t) (val_main_v9 (F := Ideal) (m ((c : Thread nD τ).loc main_arg0))) :=
  col_ext fun r => by
    rw [col_ix2]
    refine (pay12_at _ r).trans ?_
    rw [blkP, ref9_at]
    rfl
theorem leaf13 : k0_pay13 (F := Ideal) (iblk m c 0 t : Vec Ideal S1000x6 .f32) = col (blockOf t) (val_main_v11 (F := Ideal) (m ((c : Thread nD τ).loc main_arg0))) :=
  col_ext fun r => by
    rw [col_ix2]
    refine (pay13_at _ r).trans ?_
    rw [blkP, ref11_at]
    rfl

theorem leaf14 : k0_pay14 (F := Ideal) (iblk m c 1 t : Vec Ideal S1000x6 .f32) = col3 (blockOf t) (m ((c : Thread nD τ).loc main_arg2)) (0 : Fin 3) (0 : Fin 2) :=
  col_ext fun r => by
    rw [col3_ix2]
    refine (pay14_at _ r).trans ?_
    rw [blkF]
    rfl
theorem leaf15 : k0_pay15 (F := Ideal) (iblk m c 1 t : Vec Ideal S1000x6 .f32) = col3 (blockOf t) (m ((c : Thread nD τ).loc main_arg2)) (0 : Fin 3) (1 : Fin 2) :=
  col_ext fun r => by
    rw [col3_ix2]
    refine (pay15_at _ r).trans ?_
    rw [blkF]
    rfl
theorem leaf16 : k0_pay16 (F := Ideal) (iblk m c 1 t : Vec Ideal S1000x6 .f32) = col3 (blockOf t) (m ((c : Thread nD τ).loc main_arg2)) (1 : Fin 3) (0 : Fin 2) :=
  col_ext fun r => by
    rw [col3_ix2]
    refine (pay16_at _ r).trans ?_
    rw [blkF]
    rfl
theorem leaf17 : k0_pay17 (F := Ideal) (iblk m c 1 t : Vec Ideal S1000x6 .f32) = col3 (blockOf t) (m ((c : Thread nD τ).loc main_arg2)) (1 : Fin 3) (1 : Fin 2) :=
  col_ext fun r => by
    rw [col3_ix2]
    refine (pay17_at _ r).trans ?_
    rw [blkF]
    rfl
theorem leaf18 : k0_pay18 (F := Ideal) (iblk m c 1 t : Vec Ideal S1000x6 .f32) = col3 (blockOf t) (m ((c : Thread nD τ).loc main_arg2)) (2 : Fin 3) (0 : Fin 2) :=
  col_ext fun r => by
    rw [col3_ix2]
    refine (pay18_at _ r).trans ?_
    rw [blkF]
    rfl
theorem leaf19 : k0_pay19 (F := Ideal) (iblk m c 1 t : Vec Ideal S1000x6 .f32) = col3 (blockOf t) (m ((c : Thread nD τ).loc main_arg2)) (2 : Fin 3) (1 : Fin 2) :=
  col_ext fun r => by
    rw [col3_ix2]
    refine (pay19_at _ r).trans ?_
    rw [blkF]
    rfl

/-- The network's output for the rows of block `t`. -/
theorem leaf20 : k0_pay20 (F := Ideal) (iblk m c 0 t : Vec Ideal S1000x6 .f32) (iblk m c 2 t : Vec Ideal S6x64 .f32) (iblk m c 3 t : Vec Ideal S1x64 .f32)
      (iblk m c 4 t : Vec Ideal S64x64 .f32) (iblk m c 5 t : Vec Ideal S1x64 .f32) (iblk m c 6 t : Vec Ideal S64x1 .f32) (iblk m c 7 t : Vec Ideal S1x1 .f32)
    = col (blockOf t) (val_main_v39 (F := Ideal) (m ((c : Thread nD τ).loc main_arg0)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))) :=
  col_ext fun r => by
    rw [col_ix2, blkW1, blkW2, blkW3]
    exact Cert.MlpStage.mlp_block (blockOf t) _ _ _ _ _ _ _ _ _ _ _ (fun r k => blkP m c t r k) (fun j => blkb1 m c t j) (fun j => blkb2 m c t j) (blkb3 m c t) r

end Cert.Leaves

end
-- ==== Proof.Out.lean ====
import proofs.«132298_j83820581749011_1_alg».proof.Proof.Gen.KernelIdeal.Skeleton
import proofs.«132298_j83820581749011_1_alg».proof.Proof.RefReadP
import proofs.«132298_j83820581749011_1_alg».proof.Proof.Col
import Idealize.ShloMosaic.Lib.ValueIdx
import Idealize.ShloMosaic.Lib.Pipeline.Value

noncomputable section

namespace Cert.OutStage

open Idealize.ShloMosaic Idealize.ShloMosaic.ValueIdx Cert.Rows

/-! ## Three columns joined side by side -/

section Concat3
variable {α : Type} {n : Nat} (x y z : (⟨2, ![n, 1]⟩ : Shape).Idx → α)
  (h : Shape.Concatenates [(⟨2, ![n, 1]⟩ : Shape), ⟨2, ![n, 1]⟩, ⟨2, ![n, 1]⟩] ⟨2, ![n, 3]⟩ 1) (r : Fin n)

/-- Off the joined axis a column's index `(r, 0)` has the coordinates of `(r, j)`. -/
theorem concat3_off (j : Fin 3) (c : Fin (Shape.rank ⟨2, ![n, 1]⟩))
    (hc : c.cast (rfl : Shape.rank ⟨2, ![n, 1]⟩ = Shape.rank ⟨2, ![n, 3]⟩) ≠ (1 : Fin (Shape.rank ⟨2, ![n, 3]⟩))) :
    ((ix2 r (0 : Fin 1) : (⟨2, ![n, 1]⟩ : Shape).Idx) c).val = ((ix2 r j : (⟨2, ![n, 3]⟩ : Shape).Idx) (c.cast rfl)).val := by
  match c with
  | ⟨0, _⟩ => rfl
  | ⟨1, _⟩ => exact absurd rfl hc

/-- Three `[n, 1]` columns joined along axis 1, at `(r, 0)`: the first column at `(r, 0)`. -/
theorem concat3_0 (h0 : 0 < 3) :
    concatenate ⟨2, ![n, 3]⟩ 1 [⟨⟨2, ![n, 1]⟩, x⟩, ⟨⟨2, ![n, 1]⟩, y⟩, ⟨⟨2, ![n, 1]⟩, z⟩] h (ix2 r (⟨0, h0⟩ : Fin 3))
      = x (ix2 r (0 : Fin 1)) :=
  concatenate_apply_piece (1 : Fin (Shape.rank ⟨2, ![n, 3]⟩)) [⟨⟨2, ![n, 1]⟩, x⟩, ⟨⟨2, ![n, 1]⟩, y⟩, ⟨⟨2, ![n, 1]⟩, z⟩] h _ 0 (by show (0 : Nat) < 3; omega) ⟨2, ![n, 1]⟩ x rfl rfl 0 rfl
    (ix2 r (0 : Fin 1)) (concat3_off r _) rfl

/-- … at `(r, 1)`: the second column at `(r, 0)`. -/
theorem concat3_1 (h1 : 1 < 3) :
    concatenate ⟨2, ![n, 3]⟩ 1 [⟨⟨2, ![n, 1]⟩, x⟩, ⟨⟨2, ![n, 1]⟩, y⟩, ⟨⟨2, ![n, 1]⟩, z⟩] h (ix2 r (⟨1, h1⟩ : Fin 3))
      = y (ix2 r (0 : Fin 1)) :=
  concatenate_apply_piece (1 : Fin (Shape.rank ⟨2, ![n, 3]⟩)) [⟨⟨2, ![n, 1]⟩, x⟩, ⟨⟨2, ![n, 1]⟩, y⟩, ⟨⟨2, ![n, 1]⟩, z⟩] h _ 1 (by show (1 : Nat) < 3; omega) ⟨2, ![n, 1]⟩ y rfl rfl 1 rfl
    (ix2 r (0 : Fin 1)) (concat3_off r _) rfl

/-- … at `(r, 2)`: the third column at `(r, 0)`. -/
theorem concat3_2 (h2 : 2 < 3) :
    concatenate ⟨2, ![n, 3]⟩ 1 [⟨⟨2, ![n, 1]⟩, x⟩, ⟨⟨2, ![n, 1]⟩, y⟩, ⟨⟨2, ![n, 1]⟩, z⟩] h (ix2 r (⟨2, h2⟩ : Fin 3))
      = z (ix2 r (0 : Fin 1)) :=
  concatenate_apply_piece (1 : Fin (Shape.rank ⟨2, ![n, 3]⟩)) [⟨⟨2, ![n, 1]⟩, x⟩, ⟨⟨2, ![n, 1]⟩, y⟩, ⟨⟨2, ![n, 1]⟩, z⟩] h _ 2 (by show (2 : Nat) < 3; omega) ⟨2, ![n, 1]⟩ z rfl rfl 2 rfl
    (ix2 r (0 : Fin 1)) (concat3_off r _) rfl

end Concat3

/-- A bitwise `and` of two vectors at an index is that of the elements. -/
theorem andi_apply {s : Shape} {w : Nat} (a b : IVec s w) (i : s.Idx) : andi a b i = IntOp.andi (a i) (b i) := rfl

/-! ## The reference's output stage read at `(R, j)` -/

section Reference
open Cert.ReferenceIdeal Cert.ReferenceIdeal.Gen Cert.ReferenceIdeal.ReadP

variable (P Fl : (⟨S1000000x3x2, .f32⟩ : BufTy).Contents (Elt Ideal))
  (W1 : (⟨S6x64, .f32⟩ : BufTy).Contents (Elt Ideal)) (b1 : (⟨S64, .f32⟩ : BufTy).Contents (Elt Ideal))
  (W2 : (⟨S64x64, .f32⟩ : BufTy).Contents (Elt Ideal)) (b2 : (⟨S64, .f32⟩ : BufTy).Contents (Elt Ideal))
  (W3 : (⟨S64x1, .f32⟩ : BufTy).Contents (Elt Ideal)) (b3 : (⟨S1, .f32⟩ : BufTy).Contents (Elt Ideal))

/-- A column's index `(R, 0)` read back along the broadcast `[n] → [n, 1]` is `R`. -/
theorem idx_col_row (R : Fin 1000000) :
    (fun a => match a with | ⟨0, _⟩ => ⟨((ix2 R (0 : Fin 1) : S1000000x1.Idx) 0).val, ((ix2 R (0 : Fin 1) : S1000000x1.Idx) 0).isLt⟩ : S1000000.Idx)
      = ix1 R := funext fun a => by
  match a with
  | ⟨0, _⟩ => rfl

/-- The first selection's condition, a vector over the rows broadcast `[n] → [n, 1] → [n, 3]`, at `(R, j)`: the vector at `R`. -/
theorem ref_c0 (R : Fin 1000000) (j : Fin 3) :
    val_main_call0_v0 (F := Ideal) P W1 b1 W2 b2 W3 b3 (ix2 R j) = val_main_v299 (F := Ideal) P W1 b1 W2 b2 W3 b3 (ix1 R) := by
  have e1 : idx_main_call0_v0 (ix2 R j) = ix2 R (0 : Fin 1) := funext fun a => by
    match a with
    | ⟨0, _⟩ => rfl
    | ⟨1, _⟩ => rfl
  have e2 : idx_main_v300 (ix2 R (0 : Fin 1)) = ix1 R := idx_col_row R
  rw [val_main_call0_v0_apply, e1, val_main_v300_apply, e2]

/-- The second selection's condition likewise, at `(R, j)`. -/
theorem ref_c1 (R : Fin 1000000) (j : Fin 3) :
    val_main_call1_v0 (F := Ideal) P W1 b1 W2 b2 W3 b3 (ix2 R j) = val_main_v305 (F := Ideal) P W1 b1 W2 b2 W3 b3 (ix1 R) := by
  have e1 : idx_main_call1_v0 (ix2 R j) = ix2 R (0 : Fin 1) := funext fun a => by
    match a with
    | ⟨0, _⟩ => rfl
    | ⟨1, _⟩ => rfl
  have e2 : idx_main_v306 (ix2 R (0 : Fin 1)) = ix1 R := idx_col_row R
  rw [val_main_call1_v0_apply, e1, val_main_v306_apply, e2]

/-- The third selection's condition likewise, at `(R, j)`. -/
theorem ref_c2 (R : Fin 1000000) (j : Fin 3) :
    val_main_call2_v0 (F := Ideal) P W1 b1 W2 b2 W3 b3 (ix2 R j) = val_main_v311 (F := Ideal) P W1 b1 W2 b2 W3 b3 (ix1 R) := by
  have e1 : idx_main_call2_v0 (ix2 R j) = ix2 R (0 : Fin 1) := funext fun a => by
    match a with
    | ⟨0, _⟩ => rfl
    | ⟨1, _⟩ => rfl
  have e2 : idx_main_v312 (ix2 R (0 : Fin 1)) = ix1 R := idx_col_row R
  rw [val_main_call2_v0_apply, e1, val_main_v312_apply, e2]

/-- The fourth selection's condition likewise, at `(R, j)`. -/
theorem ref_c3 (R : Fin 1000000) (j : Fin 3) :
    val_main_call3_v0 (F := Ideal) P W1 b1 W2 b2 W3 b3 (ix2 R j) = val_main_v314 (F := Ideal) P W1 b1 W2 b2 W3 b3 (ix1 R) := by
  have e1 : idx_main_call3_v0 (ix2 R j) = ix2 R (0 : Fin 1) := funext fun a => by
    match a with
    | ⟨0, _⟩ => rfl
    | ⟨1, _⟩ => rfl
  have e2 : idx_main_v315 (ix2 R (0 : Fin 1)) = ix1 R := idx_col_row R
  rw [val_main_call3_v0_apply, e1, val_main_v315_apply, e2]

/-- The entries `(·, ·, 0)` of a `[n, 3, 2]` array viewed `[n, 3]`, at `(R, j)`. -/
theorem ref_plane0 (R : Fin 1000000) (j : Fin 3) :
    val_main_v320 (F := Ideal) Fl (ix2 R j) = Fl (ix3 R j (0 : Fin 2)) := by
  have hj : j.val < 3 := j.isLt
  have e1 : idx_main_v320 (ix2 R j) = ix3 R j (0 : Fin 1) := funext fun a => Fin.ext (by
    match a with
    | ⟨0, _⟩ => show (R.val * 3 + j.val) / 3 = R.val; omega
    | ⟨1, _⟩ => show (R.val * 3 + j.val) / 1 % 3 = j.val; omega
    | ⟨2, _⟩ => rfl)
  have e2 : idx_main_v319 (ix3 R j (0 : Fin 1)) = ix3 R j (0 : Fin 2) := funext fun a => by
    match a with
    | ⟨0, _⟩ => rfl
    | ⟨1, _⟩ => rfl
    | ⟨2, _⟩ => rfl
  rw [val_main_v320_apply, e1, val_main_v319_apply, e2]

/-- The entries `(·, ·, 1)` of a `[n, 3, 2]` array viewed `[n, 3]`, at `(R, j)`. -/
theorem ref_plane1 (R : Fin 1000000) (j : Fin 3) :
    val_main_v325 (F := Ideal) Fl (ix2 R j) = Fl (ix3 R j (1 : Fin 2)) := by
  have hj : j.val < 3 := j.isLt
  have e1 : idx_main_v325 (ix2 R j) = ix3 R j (0 : Fin 1) := funext fun a => Fin.ext (by
    match a with
    | ⟨0, _⟩ => show (R.val * 3 + j.val) / 3 = R.val; omega
    | ⟨1, _⟩ => show (R.val * 3 + j.val) / 1 % 3 = j.val; omega
    | ⟨2, _⟩ => rfl)
  have e2 : idx_main_v324 (ix3 R j (0 : Fin 1)) = ix3 R j (1 : Fin 2) := funext fun a => by
    match a with
    | ⟨0, _⟩ => rfl
    | ⟨1, _⟩ => rfl
    | ⟨2, _⟩ => rfl
  rw [val_main_v325_apply, e1, val_main_v324_apply, e2]

/-- The first join of three vectors over the rows, each broadcast `[n] → [n, 1]`, at `(R, 0)`, `(R, 1)`, `(R, 2)`: the first,
second and third vector at `R`. -/
theorem ref_joinA0 (R : Fin 1000000) (h0 : 0 < 3) :
    val_main_v281 (F := Ideal) P W1 b1 W2 b2 W3 b3 (ix2 R (⟨0, h0⟩ : Fin 3)) = val_main_v266 (F := Ideal) P W1 b1 W2 b2 W3 b3 (ix1 R) := by
  unfold val_main_v281
  refine (concat3_0 _ _ _ concatenates_S1000000x1_S1000000x1_S1000000x1_S1000000x3_d1 R h0).trans ?_
  rw [val_main_v278_apply, show idx_main_v278 (ix2 R (0 : Fin 1)) = ix1 R from idx_col_row R]
theorem ref_joinA1 (R : Fin 1000000) (h1 : 1 < 3) :
    val_main_v281 (F := Ideal) P W1 b1 W2 b2 W3 b3 (ix2 R (⟨1, h1⟩ : Fin 3)) = val_main_v271 (F := Ideal) P W1 b1 W2 b2 W3 b3 (ix1 R) := by
  unfold val_main_v281
  refine (concat3_1 _ _ _ concatenates_S1000000x1_S1000000x1_S1000000x1_S1000000x3_d1 R h1).trans ?_
  rw [val_main_v279_apply, show idx_main_v279 (ix2 R (0 : Fin 1)) = ix1 R from idx_col_row R]
theorem ref_joinA2 (R : Fin 1000000) (h2 : 2 < 3) :
    val_main_v281 (F := Ideal) P W1 b1 W2 b2 W3 b3 (ix2 R (⟨2, h2⟩ : Fin 3)) = val_main_v277 (F := Ideal) P W1 b1 W2 b2 W3 b3 (ix1 R) := by
  unfold val_main_v281
  refine (concat3_2 _ _ _ concatenates_S1000000x1_S1000000x1_S1000000x1_S1000000x3_d1 R h2).trans ?_
  rw [val_main_v280_apply, show idx_main_v280 (ix2 R (0 : Fin 1)) = ix1 R from idx_col_row R]

/-- The second join of three vectors over the rows likewise. -/
theorem ref_joinB0 (R : Fin 1000000) (h0 : 0 < 3) :
    val_main_v297 (F := Ideal) P W1 b1 W2 b2 W3 b3 (ix2 R (⟨0, h0⟩ : Fin 3)) = val_main_v282 (F := Ideal) P W1 b1 W2 b2 W3 b3 (ix1 R) := by
  unfold val_main_v297
  refine (concat3_0 _ _ _ concatenates_S1000000x1_S1000000x1_S1000000x1_S1000000x3_d1 R h0).trans ?_
  rw [val_main_v294_apply, show idx_main_v294 (ix2 R (0 : Fin 1)) = ix1 R from idx_col_row R]
theorem ref_joinB1 (R : Fin 1000000) (h1 : 1 < 3) :
    val_main_v297 (F := Ideal) P W1 b1 W2 b2 W3 b3 (ix2 R (⟨1, h1⟩ : Fin 3)) = val_main_v287 (F := Ideal) P W1 b1 W2 b2 W3 b3 (ix1 R) := by
  unfold val_main_v297
  refine (concat3_1 _ _ _ concatenates_S1000000x1_S1000000x1_S1000000x1_S1000000x3_d1 R h1).trans ?_
  rw [val_main_v295_apply, show idx_main_v295 (ix2 R (0 : Fin 1)) = ix1 R from idx_col_row R]
theorem ref_joinB2 (R : Fin 1000000) (h2 : 2 < 3) :
    val_main_v297 (F := Ideal) P W1 b1 W2 b2 W3 b3 (ix2 R (⟨2, h2⟩ : Fin 3)) = val_main_v293 (F := Ideal) P W1 b1 W2 b2 W3 b3 (ix1 R) := by
  unfold val_main_v297
  refine (concat3_2 _ _ _ concatenates_S1000000x1_S1000000x1_S1000000x1_S1000000x3_d1 R h2).trans ?_
  rw [val_main_v296_apply, show idx_main_v296 (ix2 R (0 : Fin 1)) = ix1 R from idx_col_row R]

end Reference

/-! ## The two sides meet -/

open Cert.KernelIdeal Cert.KernelIdeal.Gen Cert.ReferenceIdeal.ReadP in
/-- Row `r` of block `t`, column `j`: the kernel's three chains of selections on the block's columns are the
reference's four nested selections at row `1000 t + r`: the same comparisons against zero in the same order. -/
theorem out_block (t : Fin 1000)
    (P Fl : (⟨Cert.ReferenceIdeal.S1000000x3x2, .f32⟩ : BufTy).Contents (Elt Ideal))
    (W1 : (⟨Cert.ReferenceIdeal.S6x64, .f32⟩ : BufTy).Contents (Elt Ideal))
    (b1 : (⟨Cert.ReferenceIdeal.S64, .f32⟩ : BufTy).Contents (Elt Ideal))
    (W2 : (⟨Cert.ReferenceIdeal.S64x64, .f32⟩ : BufTy).Contents (Elt Ideal))
    (b2 : (⟨Cert.ReferenceIdeal.S64, .f32⟩ : BufTy).Contents (Elt Ideal))
    (W3 : (⟨Cert.ReferenceIdeal.S64x1, .f32⟩ : BufTy).Contents (Elt Ideal))
    (b3 : (⟨Cert.ReferenceIdeal.S1, .f32⟩ : BufTy).Contents (Elt Ideal))
    (r : Fin 1000) (j : Fin 3) :
    k0_pay5 (F := Ideal) (col3 t Fl 0 1) (col3 t Fl 1 0) (col3 t Fl 1 1) (col3 t Fl 2 0) (col3 t Fl 2 1)
        (col t (Cert.ReferenceIdeal.ReadP.val_main_v230 (F := Ideal) P W1 b1 W2 b2 W3 b3)) (col t (Cert.ReferenceIdeal.ReadP.val_main_v257 (F := Ideal) P W1 b1 W2 b2 W3 b3))
        (col t (Cert.ReferenceIdeal.ReadP.val_main_v271 (F := Ideal) P W1 b1 W2 b2 W3 b3)) (col t (Cert.ReferenceIdeal.ReadP.val_main_v277 (F := Ideal) P W1 b1 W2 b2 W3 b3))
        (col t (Cert.ReferenceIdeal.ReadP.val_main_v287 (F := Ideal) P W1 b1 W2 b2 W3 b3)) (col t (Cert.ReferenceIdeal.ReadP.val_main_v293 (F := Ideal) P W1 b1 W2 b2 W3 b3))
        (col t (Cert.ReferenceIdeal.ReadP.val_main_v299 (F := Ideal) P W1 b1 W2 b2 W3 b3)) (col t (Cert.ReferenceIdeal.ReadP.val_main_v302 (F := Ideal) P W1 b1 W2 b2 W3 b3))
        (col t (Cert.ReferenceIdeal.ReadP.val_main_v303 (F := Ideal)))
        (k0_pay4 (F := Ideal) (col3 t Fl 0 0) (col t (Cert.ReferenceIdeal.ReadP.val_main_v230 (F := Ideal) P W1 b1 W2 b2 W3 b3)) (col t (Cert.ReferenceIdeal.ReadP.val_main_v257 (F := Ideal) P W1 b1 W2 b2 W3 b3))
          (col t (Cert.ReferenceIdeal.ReadP.val_main_v266 (F := Ideal) P W1 b1 W2 b2 W3 b3)) (col t (Cert.ReferenceIdeal.ReadP.val_main_v282 (F := Ideal) P W1 b1 W2 b2 W3 b3))
          (col t (Cert.ReferenceIdeal.ReadP.val_main_v299 (F := Ideal) P W1 b1 W2 b2 W3 b3)) (col t (Cert.ReferenceIdeal.ReadP.val_main_v302 (F := Ideal) P W1 b1 W2 b2 W3 b3))
          (col t (Cert.ReferenceIdeal.ReadP.val_main_v303 (F := Ideal))))
        (ix2 r j)
      = Cert.ReferenceIdeal.ReadP.val_main_v326 (F := Ideal) P Fl W1 b1 W2 b2 W3 b3 (ix2 (rowOf t r) j) := by
  unfold k0_pay5 k0_pay4 k0_pay1 k0_pay2 k0_pay3
  rw [val_main_v326_apply, val_main_v323_apply, val_main_v322_apply, val_main_v321_apply,
    ref_c3, ref_c2, ref_c1, ref_c0, ref_plane1, ref_plane0,
    val_main_v314_apply, val_main_v311_apply, val_main_v308_apply, val_main_v310_apply, val_main_v305_apply, val_main_v304_apply]
  match j with
  | ⟨0, h0⟩ =>
    rw [ref_joinB0, ref_joinA0]
    simp only [concat3_0, select_apply, cmpf_apply, broadcast_apply, andi_apply, col_ix2, col3_ix2]
    rfl
  | ⟨1, h1⟩ =>
    rw [ref_joinB1, ref_joinA1]
    simp only [concat3_1, select_apply, cmpf_apply, broadcast_apply, andi_apply, col_ix2, col3_ix2]
    rfl
  | ⟨2, h2⟩ =>
    rw [ref_joinB2, ref_joinA2]
    simp only [concat3_2, select_apply, cmpf_apply, broadcast_apply, andi_apply, col_ix2, col3_ix2]
    rfl

end Cert.OutStage

end
-- ==== Proof.KernelValue.lean ====
/-
  The kernel's result array.  Grid point `t` writes back rows `1000 t … 1000 t + 999` of the [1000000, 3] result; what it
  writes is the body's value on the point's blocks.  Reading every block as entries of the argument arrays and following
  the body stage by stage — the inputs' columns, the small network, the central pressure, the two shock solves, the contact
  and the final choice between the four states — the value written at row `r`, column `j` of the block is the reference's
  result at row `1000 t + r`, column `j`.  The 1000 blocks tile the array (row `R` lies in block `R / 1000`), so after the
  run the whole array is the reference's result as a function of the arguments.
-/
import proofs.«132298_j83820581749011_1_alg».proof.Proof.Gen.KernelIdeal.Value
import proofs.«132298_j83820581749011_1_alg».proof.Proof.Leaves
import proofs.«132298_j83820581749011_1_alg».proof.Proof.Out

noncomputable section

namespace Cert.KernelValue

open Idealize.ShloMosaic Idealize.ShloMosaic.TcCoe Idealize.SL.Sem Idealize.ShloMosaic.ValueIdx Cert.Rows Cert.Blocks
open Cert.KernelIdeal Cert.KernelIdeal.Gen
open Idealize.ShloMosaic.Pipeline (Dat)

variable (m : (ℓ : Loc nD τ sig) → Buf (Elt Ideal) ℓ) (ρ : Dev nD → PrngReg)

/-- The reference's result as a function of the kernel's argument arrays. -/
abbrev G (c : Dev nD) : S1000000x3.Idx → Ideal .f32 :=
  Cert.ReferenceIdeal.ReadP.val_main_v326 (F := Ideal) (m ((c : Thread nD τ).loc main_arg0)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem hz : (![0, 0] : Fin 2 → Nat) = fun _ => 0 := funext fun a => by fin_cases a <;> rfl

/-- WHAT POINT `t` WRITES BACK is block `t` of the reference's result of the arguments. -/
theorem flushed_eq (c : Dev nD) (t : Fin cfg0.N) :
    (dats m 0 c).flushed 8 t = ((cfg0.win 8).blk t).view.read (Elt Ideal) (G m c) := by
  rw [Cert.KernelIdeal.Value.flushed8]
  unfold out0_8
  rw [View.canon_unit_zero hz]
  simp only [View.ld_unit_zero (S := S1000x6) hz, View.ld_unit_zero (S := S6x64) hz, View.ld_unit_zero (S := S1x64) hz,
    View.ld_unit_zero (S := S64x64) hz, View.ld_unit_zero (S := S64x1) hz, View.ld_unit_zero (S := S1x1) hz]
  -- the inputs' columns and the network's output, then every pointwise stage, bottom up
  simp only [Cert.Leaves.leaf8, Cert.Leaves.leaf9, Cert.Leaves.leaf10, Cert.Leaves.leaf11, Cert.Leaves.leaf12, Cert.Leaves.leaf13, Cert.Leaves.leaf14, Cert.Leaves.leaf15, Cert.Leaves.leaf16, Cert.Leaves.leaf17, Cert.Leaves.leaf18, Cert.Leaves.leaf19, Cert.Leaves.leaf20]
  simp only [Cert.Sim.s21, Cert.Sim.s22, Cert.Sim.s23, Cert.Sim.s25, Cert.Sim.s26, Cert.Sim.s27, Cert.Sim.s28, Cert.Sim.s29, Cert.Sim.s30, Cert.Sim.s31, Cert.Sim.s32, Cert.Sim.s33, Cert.Sim.s34 (blockOf t), Cert.Sim.s35, Cert.Sim.s36, Cert.Sim.s37, Cert.Sim.s39, Cert.Sim.s41, Cert.Sim.s42, Cert.Sim.s43, Cert.Sim.s44 (blockOf t), Cert.Sim.s45, Cert.Sim.s46, Cert.Sim.s47, Cert.Sim.s48, Cert.Sim.s49, Cert.Sim.s50, Cert.Sim.s51, Cert.Sim.s52, Cert.Sim.s56, Cert.Sim.s57, Cert.Sim.s58, Cert.Sim.s59, Cert.Sim.s60, Cert.Sim.s61, Cert.Sim.s62, Cert.Sim.s63, Cert.Sim.s64 (blockOf t)]
  obtain ⟨-, -, -, -, -, -, -, -, -, -, -, -, -, -, -, -, e0, e1⟩ := idx_facts t
  funext y
  obtain ⟨r, q, rfl⟩ : ∃ (r : Fin 1000) (q : Fin 3), y = ix2 r q := ⟨y 0, y 1, eq_ix2 y⟩
  rw [View.read_apply]
  refine (Cert.OutStage.out_block (blockOf t) (m ((c : Thread nD τ).loc main_arg0)) (m ((c : Thread nD τ).loc main_arg2)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10)) r q).trans ?_
  show G m c _ = G m c _
  congr 1
  funext a
  apply Fin.ext
  match a with
  | ⟨0, _⟩ => show 1000 * t.val + r.val = win0_8.index t (0 : Fin 2) * 1000 + 1 * r.val; rw [e0]; omega
  | ⟨1, _⟩ => show q.val = win0_8.index t (1 : Fin 2) * 3 + 1 * q.val; rw [e1]; omega

/-- An index of the array is in point `t`'s block iff each coordinate is in the block's range on its axis. -/
theorem mem_blk (t : Fin cfg0.N) (i : S1000000x3.Idx) :
    i ∈ ((cfg0.win 8).blk t).view.set ↔ ∀ a : Fin 2, win0_8.index t a * S1000x3.size a ≤ (i a).val ∧ (i a).val < win0_8.index t a * S1000x3.size a + S1000x3.size a := by
  show i ∈ ((View.whole main_v5).slice (win0_8.rect t)).set ↔ _
  rw [View.set_slice_whole, Rect.mem_set_unit]
  exact Iff.rfl

/-- Every index of the result array lies in the block of the point `(row / 1000)`. -/
theorem covered (i : S1000000x3.Idx) : ∃ t : Fin cfg0.N, (cfg0.win 8).flush t = true ∧ i ∈ ((cfg0.win 8).blk t).view.set := by
  have hi0 : (i 0).val < 1000000 := (i 0).isLt
  have hi1 : (i 1).val < 3 := (i 1).isLt
  have hN : cfg0.N = 1000 := N_0
  let t : Fin cfg0.N := ⟨(i 0).val / 1000, by omega⟩
  obtain ⟨-, -, -, -, -, -, -, -, -, -, -, -, -, -, -, -, e0, e1⟩ := idx_facts t
  have ht : t.val = (i 0).val / 1000 := rfl
  refine ⟨t, flush0_8 t, ?_⟩
  rw [mem_blk]
  intro a
  match a with
  | ⟨0, _⟩ => show win0_8.index t (0 : Fin 2) * 1000 ≤ (i 0).val ∧ (i 0).val < win0_8.index t (0 : Fin 2) * 1000 + 1000; rw [e0, ht]; omega
  | ⟨1, _⟩ => show win0_8.index t (1 : Fin 2) * 3 ≤ (i 1).val ∧ (i 1).val < win0_8.index t (1 : Fin 2) * 3 + 3; rw [e1]; omega

/-- THE ARRAY after the run is the reference's result of the arguments. -/
theorem final (c : Dev nD) : (dats m 0 c).arrAt 8 cfg0.N = G m c :=
  (dats m 0 c).arrAt_eq_of_cover 8 (G m c) (fun t _ => flushed_eq m c t) covered

/-- The run, read: the result array at the reference's result of the arguments, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelValue

end
-- ==== Proof.lean ====
/-
  The certificate of a fused relativistic Riemann shock solver: a small network (6 → 64 → 64 → 1, tanh, tanh, linear) reads the
  logarithms of the left and right densities and pressures and the two velocities of each of 1,000,000 cells and gives a compact
  pressure ratio; from it the central pressure pC, then for each side the Taub-adiabat quadratic for the post-shock enthalpy, the
  post-shock density, the mass flux, the shock speed and the star velocity; the contact speed is the mean of the two star
  velocities, and each cell's three fluxes are chosen among the left state's, the central-left, the central-right and the right
  state's by the signs of the two shock speeds and of the contact speed.  The kernel does this for blocks of 1000 cells, the
  reference for all cells at once.

  Over the extended reals the two programs are one function of the arguments.  Every operation of the kernel's body has its twin in
  the reference, with the same operands in the same order and the same constants: a change of float format is the identity, the
  kernel's matrix products into a zero accumulator are the reference's contractions, and the kernel's `0 - x` is the reference's
  `-x` (true of every extended real).  Nothing is distributed, cancelled or reordered, so finiteness of the inputs is never used.

  `algebraic`: the kernel's result array after the run is the reference's result of the arguments (Proof/KernelValue.lean: block by
  block through Proof/Leaves.lean, Proof/Mlp.lean, Proof/Sim.lean, Proof/Out.lean, over the windows' blocks of Proof/Blocks.lean), and the
  reference's run ends at that same function of arguments that agree.  `preserves`: the idealization rewrote nothing.  The three
  frames are the programs' runs with the results dropped.
-/
import proofs.«132298_j83820581749011_1_alg».proof.Defs
import proofs.«132298_j83820581749011_1_alg».proof.Proof.Gen.Kernel
import proofs.«132298_j83820581749011_1_alg».proof.Proof.Gen.Kernel.Skeleton
import proofs.«132298_j83820581749011_1_alg».proof.Proof.Gen.Kernel.Launch
import proofs.«132298_j83820581749011_1_alg».proof.Proof.Gen.Kernel.Points
import proofs.«132298_j83820581749011_1_alg».proof.Proof.Gen.Kernel.Frame
import proofs.«132298_j83820581749011_1_alg».proof.Proof.Gen.KernelIdeal
import proofs.«132298_j83820581749011_1_alg».proof.Proof.Gen.KernelIdeal.Skeleton
import proofs.«132298_j83820581749011_1_alg».proof.Proof.Gen.KernelIdeal.Launch
import proofs.«132298_j83820581749011_1_alg».proof.Proof.Gen.KernelIdeal.Points
import proofs.«132298_j83820581749011_1_alg».proof.Proof.Gen.KernelIdeal.Frame
import proofs.«132298_j83820581749011_1_alg».proof.Proof.Gen.ReferenceIdeal
import proofs.«132298_j83820581749011_1_alg».proof.Proof.Gen.Pre_finite_inputs
import proofs.«132298_j83820581749011_1_alg».proof.Proof.Gen.KernelIdeal.Value
import proofs.«132298_j83820581749011_1_alg».proof.Proof.RefRunP
import proofs.«132298_j83820581749011_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation of the kernel. -/
theorem preserves : Cert.preserves_Kernel_KernelIdeal := trivial

/-- Both runs end with the result array at the reference's result of the arguments: the kernel's by the block-by-block
    reading of its body, the reference's by its own run, from arguments that agree. -/
theorem algebraic : Cert.algebraic_KernelIdeal_ReferenceIdeal := by
  intro m ρ m' ρ' _ hagree
  refine ⟨fun c => Cert.KernelValue.G m c, Cert.KernelValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, -, h2, -, -, h5, h6, h7, h8, h9, h10⟩ := hagree c
  rw [h0, h2, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
